-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x2048 : Shape := ⟨3, ![8, 2048, 2048]⟩
abbrev S2048x2048 : Shape := ⟨2, ![2048, 2048]⟩
abbrev S_ : Shape := ⟨0, ![]⟩

class Facts : Prop where
  bcast_S_S8x2048x2048 : S_.BroadcastsInDim S8x2048x2048 (![] : Fin 0 → Fin S8x2048x2048.rank)
  reducesTo_S8x2048x2048_S_d0_1_2 : S8x2048x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S8x2048x2048 .f32) (main_arg1 : FVec F S2048x2048 .f32) : IVec S_ 1 :=
  let main_v0 : FVec F S8x2048x2048 .f32 := Host.absf main_arg0
  let main_cst : FVec F S_ .f32 := constant S_ .f32 0x7F800000#32
  let main_v1 : FVec F S8x2048x2048 .f32 := broadcastInDim S8x2048x2048 ![] bcast_S_S8x2048x2048 main_cst
  let main_v2 : IVec S8x2048x2048 1 := cmpf .olt main_v0 main_v1
  let main_c : IVec S_ 1 := constantI S_ 1 1#1
  let main_v3 : IVec S_ 1 := (fun x v => Host.reduce IntOp.andi x v reducesTo_S8x2048x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  main_v8
-- ==== Kernel.lean ====
abbrev S8x2048x2048 : Shape := ⟨3, ![8, 2048, 2048]⟩
abbrev S2048x2048 : Shape := ⟨2, ![2048, 2048]⟩
abbrev S8x2048x1024 : Shape := ⟨3, ![8, 2048, 1024]⟩
abbrev S1x2048x1024 : Shape := ⟨3, ![1, 2048, 1024]⟩
abbrev S2048x1024 : Shape := ⟨2, ![2048, 1024]⟩
abbrev S2048 : Shape := ⟨1, ![2048]⟩
abbrev S2048x1 : Shape := ⟨2, ![2048, 1]⟩
abbrev S256x1024 : Shape := ⟨2, ![256, 1024]⟩
abbrev S256x256 : Shape := ⟨2, ![256, 256]⟩
abbrev S1024x256 : Shape := ⟨2, ![1024, 256]⟩
abbrev S1x256x1024 : Shape := ⟨3, ![1, 256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8x2048x2048, .f32⟩
  | .hbm, ⟨1, _⟩ => ⟨S2048x2048, .f32⟩
  | .hbm, ⟨2, _⟩ => ⟨S8x2048x1024, .f32⟩
  | .local _ .vmem, ⟨0, _⟩ => ⟨S1x2048x1024, .f32⟩
  | .local _ .vmem, ⟨1, _⟩ => ⟨S1x2048x1024, .f32⟩
  | .local _ .vmem, ⟨2, _⟩ => ⟨S2048x2048, .f32⟩
  | .local _ .vmem, ⟨3, _⟩ => ⟨S1x2048x1024, .f32⟩
  | .local _ .vmem, ⟨4, _⟩ => ⟨S2048x1024, .bf16⟩
  | .local _ .vmem, ⟨5, _⟩ => ⟨S2048x1024, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![arg0.toNat, c0_i32.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

class Facts₀ : Prop where
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  reduces_S2048x1024_S2048 : S2048x1024.Reduces [1] S2048
  shapeCasts_S2048_S2048x1 : S2048.ShapeCasts S2048x1
  broadcasts_S2048x1_S2048x1024 : S2048x1.Broadcasts S2048x1024
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  packedbf16_S2048x1024_S2048x1024_0_0 : (Rect.unit (s := S2048x1024) ![0, 0] S2048x1024.size inb_S2048x1024_S2048x1024_0_0).PackedRows (EltTy.packing .bf16)
  inb_S2048x1024_S256x1024_0_0 : ∀ a, (![0, 0] : Fin 2 → Nat) a + S256x1024.size a ≤ S2048x1024.size a
  h_S256x1024 : 0 < S256x1024.numel
  iota_S256x256_d0_w32 : S256x256.Iotas .tc 32 [0]
  transposes_S256x1024_p1_0_S1024x256 : S256x1024.Transposes [1, 0] S1024x256
  inb_S2048x2048_S256x256_0_0 : ∀ a, (![0, 0] : Fin 2 → Nat) a + S256x256.size a ≤ S2048x2048.size a
  h_S256x256 : 0 < S256x256.numel
  iota_S256x256_d1_w32 : S256x256.Iotas .tc 32 [1]
  inb_S1x2048x1024_S1x256x1024_0_0_0 : ∀ a, (![0, 0, 0] : Fin 3 → Nat) a + S1x256x1024.size a ≤ S1x2048x1024.size a
  h_S1x256x1024 : 0 < S1x256x1024.numel
  shapeCasts_S1x256x1024_S256x1024 : S1x256x1024.ShapeCasts S256x1024
  shapeCasts_S256x1024_S1x256x1024 : S256x1024.ShapeCasts S1x256x1024
  inb_S2048x1024_S256x1024_256_0 : ∀ a, (![256, 0] : Fin 2 → Nat) a + S256x1024.size a ≤ S2048x1024.size a
  inb_S2048x2048_S256x256_256_0 : ∀ a, (![256, 0] : Fin 2 → Nat) a + S256x256.size a ≤ S2048x2048.size a
  inb_S2048x2048_S256x256_256_256 : ∀ a, (![256, 256] : Fin 2 → Nat) a + S256x256.size a ≤ S2048x2048.size a
  inb_S1x2048x1024_S1x256x1024_0_256_0 : ∀ a, (![0, 256, 0] : Fin 3 → Nat) a + S1x256x1024.size a ≤ S1x2048x1024.size a
  inb_S2048x1024_S256x1024_512_0 : ∀ a, (![512, 0] : Fin 2 → Nat) a + S256x1024.size a ≤ S2048x1024.size a
  inb_S2048x2048_S256x256_512_0 : ∀ a, (![512, 0] : Fin 2 → Nat) a + S256x256.size a ≤ S2048x2048.size a
  inb_S2048x2048_S256x256_512_256 : ∀ a, (![512, 256] : Fin 2 → Nat) a + S256x256.size a ≤ S2048x2048.size a
  inb_S2048x2048_S256x256_512_512 : ∀ a, (![512, 512] : Fin 2 → Nat) a + S256x256.size a ≤ S2048x2048.size a
  inb_S1x2048x1024_S1x256x1024_0_512_0 : ∀ a, (![0, 512, 0] : Fin 3 → Nat) a + S1x256x1024.size a ≤ S1x2048x1024.size a
  inb_S2048x1024_S256x1024_768_0 : ∀ a, (![768, 0] : Fin 2 → Nat) a + S256x1024.size a ≤ S2048x1024.size a
  inb_S2048x2048_S256x256_768_0 : ∀ a, (![768, 0] : Fin 2 → Nat) a + S256x256.size a ≤ S2048x2048.size a
  inb_S2048x2048_S256x256_768_256 : ∀ a, (![768, 256] : Fin 2 → Nat) a + S256x256.size a ≤ S2048x2048.size a
  inb_S2048x2048_S256x256_768_512 : ∀ a, (![768, 512] : Fin 2 → Nat) a + S256x256.size a ≤ S2048x2048.size a
  inb_S2048x2048_S256x256_768_768 : ∀ a, (![768, 768] : Fin 2 → Nat) a + S256x256.size a ≤ S2048x2048.size a
  inb_S1x2048x1024_S1x256x1024_0_768_0 : ∀ a, (![0, 768, 0] : Fin 3 → Nat) a + S1x256x1024.size a ≤ S1x2048x1024.size a
  inb_S2048x1024_S256x1024_1024_0 : ∀ a, (![1024, 0] : Fin 2 → Nat) a + S256x1024.size a ≤ S2048x1024.size a
  inb_S2048x2048_S256x256_1024_0 : ∀ a, (![1024, 0] : Fin 2 → Nat) a + S256x256.size a ≤ S2048x2048.size a
  inb_S2048x2048_S256x256_1024_256 : ∀ a, (![1024, 256] : Fin 2 → Nat) a + S256x256.size a ≤ S2048x2048.size a
  inb_S2048x2048_S256x256_1024_512 : ∀ a, (![1024, 512] : Fin 2 → Nat) a + S256x256.size a ≤ S2048x2048.size a
  inb_S2048x2048_S256x256_1024_768 : ∀ a, (![1024, 768] : Fin 2 → Nat) a + S256x256.size a ≤ S2048x2048.size a
  inb_S2048x2048_S256x256_1024_1024 : ∀ a, (![1024, 1024] : Fin 2 → Nat) a + S256x256.size a ≤ S2048x2048.size a
  inb_S1x2048x1024_S1x256x1024_0_1024_0 : ∀ a, (![0, 1024, 0] : Fin 3 → Nat) a + S1x256x1024.size a ≤ S1x2048x1024.size a
  inb_S2048x1024_S256x1024_1280_0 : ∀ a, (![1280, 0] : Fin 2 → Nat) a + S256x1024.size a ≤ S2048x1024.size a
  inb_S2048x2048_S256x256_1280_0 : ∀ a, (![1280, 0] : Fin 2 → Nat) a + S256x256.size a ≤ S2048x2048.size a
  inb_S2048x2048_S256x256_1280_256 : ∀ a, (![1280, 256] : Fin 2 → Nat) a + S256x256.size a ≤ S2048x2048.size a
  inb_S2048x2048_S256x256_1280_512 : ∀ a, (![1280, 512] : Fin 2 → Nat) a + S256x256.size a ≤ S2048x2048.size a
  inb_S2048x2048_S256x256_1280_768 : ∀ a, (![1280, 768] : Fin 2 → Nat) a + S256x256.size a ≤ S2048x2048.size a
  inb_S2048x2048_S256x256_1280_1024 : ∀ a, (![1280, 1024] : Fin 2 → Nat) a + S256x256.size a ≤ S2048x2048.size a
  inb_S2048x2048_S256x256_1280_1280 : ∀ a, (![1280, 1280] : Fin 2 → Nat) a + S256x256.size a ≤ S2048x2048.size a
  inb_S1x2048x1024_S1x256x1024_0_1280_0 : ∀ a, (![0, 1280, 0] : Fin 3 → Nat) a + S1x256x1024.size a ≤ S1x2048x1024.size a
  inb_S2048x1024_S256x1024_1536_0 : ∀ a, (![1536, 0] : Fin 2 → Nat) a + S256x1024.size a ≤ S2048x1024.size a
  inb_S2048x2048_S256x256_1536_0 : ∀ a, (![1536, 0] : Fin 2 → Nat) a + S256x256.size a ≤ S2048x2048.size a
  inb_S2048x2048_S256x256_1536_256 : ∀ a, (![1536, 256] : Fin 2 → Nat) a + S256x256.size a ≤ S2048x2048.size a
  inb_S2048x2048_S256x256_1536_512 : ∀ a, (![1536, 512] : Fin 2 → Nat) a + S256x256.size a ≤ S2048x2048.size a
  inb_S2048x2048_S256x256_1536_768 : ∀ a, (![1536, 768] : Fin 2 → Nat) a + S256x256.size a ≤ S2048x2048.size a
  inb_S2048x2048_S256x256_1536_1024 : ∀ a, (![1536, 1024] : Fin 2 → Nat) a + S256x256.size a ≤ S2048x2048.size a
  inb_S2048x2048_S256x256_1536_1280 : ∀ a, (![1536, 1280] : Fin 2 → Nat) a + S256x256.size a ≤ S2048x2048.size a
  inb_S2048x2048_S256x256_1536_1536 : ∀ a, (![1536, 1536] : Fin 2 → Nat) a + S256x256.size a ≤ S2048x2048.size a
  inb_S1x2048x1024_S1x256x1024_0_1536_0 : ∀ a, (![0, 1536, 0] : Fin 3 → Nat) a + S1x256x1024.size a ≤ S1x2048x1024.size a
  inb_S2048x1024_S256x1024_1792_0 : ∀ a, (![1792, 0] : Fin 2 → Nat) a + S256x1024.size a ≤ S2048x1024.size a
  inb_S2048x2048_S256x256_1792_0 : ∀ a, (![1792, 0] : Fin 2 → Nat) a + S256x256.size a ≤ S2048x2048.size a
  inb_S2048x2048_S256x256_1792_256 : ∀ a, (![1792, 256] : Fin 2 → Nat) a + S256x256.size a ≤ S2048x2048.size a
  inb_S2048x2048_S256x256_1792_512 : ∀ a, (![1792, 512] : Fin 2 → Nat) a + S256x256.size a ≤ S2048x2048.size a
  inb_S2048x2048_S256x256_1792_768 : ∀ a, (![1792, 768] : Fin 2 → Nat) a + S256x256.size a ≤ S2048x2048.size a
  inb_S2048x2048_S256x256_1792_1024 : ∀ a, (![1792, 1024] : Fin 2 → Nat) a + S256x256.size a ≤ S2048x2048.size a
  inb_S2048x2048_S256x256_1792_1280 : ∀ a, (![1792, 1280] : Fin 2 → Nat) a + S256x256.size a ≤ S2048x2048.size a
  inb_S2048x2048_S256x256_1792_1536 : ∀ a, (![1792, 1536] : Fin 2 → Nat) a + S256x256.size a ≤ S2048x2048.size a
  inb_S2048x2048_S256x256_1792_1792 : ∀ a, (![1792, 1792] : Fin 2 → Nat) a + S256x256.size a ≤ S2048x2048.size a
  inb_S1x2048x1024_S1x256x1024_0_1792_0 : ∀ a, (![0, 1792, 0] : Fin 3 → Nat) a + S1x256x1024.size a ≤ S1x2048x1024.size a
  dot_S256x1024_S1024x256_S256x256_1_0_0_1_n_n_wf : DotDims.WF S256x1024 S1024x256 S256x256 [1] [0] [0] [1] [] []
  dot_S256x256_S256x1024_S256x1024_1_0_0_1_n_n_wf : DotDims.WF S256x256 S256x1024 S256x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S8x2048x2048.size a
  hwx0_0 : ∀ i : grid0.Coords, EltTy.bits .f32 = 32 ∨ (Rect.block (s := S8x2048x2048) S1x2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048x1024.size a ≤ S8x2048x2048.size a
  hwx0_1 : ∀ i : grid0.Coords, EltTy.bits .f32 = 32 ∨ (Rect.block (s := S8x2048x2048) S1x2048x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S2048x2048.size a
  hwx0_2 : ∀ i : grid0.Coords, EltTy.bits .f32 = 32 ∨ (Rect.block (s := S2048x2048) S2048x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048x1024.size a ≤ S8x2048x1024.size a
  hwx0_3 : ∀ i : grid0.Coords, EltTy.bits .f32 = 32 ∨ (Rect.block (s := S8x2048x1024) S1x2048x1024.size (cc0_transform_3 i) (hinb0_3 i)).WholeWords (EltTy.packing .f32)

variable [Facts₀]

def dot_S256x1024_S1024x256_S256x256_1_0_0_1_n_n : DotDims S256x1024 S1024x256 S256x256 where
  lhsContracting := [1]
  rhsContracting := [0]
  lhsNonContracting := [0]
  rhsNonContracting := [1]
  lhsBatch := []
  rhsBatch := []
  wf := dot_S256x1024_S1024x256_S256x256_1_0_0_1_n_n_wf
def dot_S256x256_S256x1024_S256x1024_1_0_0_1_n_n : DotDims S256x256 S256x1024 S256x1024 where
  lhsContracting := [1]
  rhsContracting := [0]
  lhsNonContracting := [0]
  rhsNonContracting := [1]
  lhsBatch := []
  rhsBatch := []
  wf := dot_S256x256_S256x1024_S256x1024_1_0_0_1_n_n_wf

abbrev win0_0 : Pipeline.Window sig grid0 :=
  Pipeline.Window.ofSpec (Memref.whole main_arg0) S1x2048x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S2048x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x2048x1024.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x2048 : Shape := ⟨3, ![8, 2048, 2048]⟩
abbrev S2048x2048 : Shape := ⟨2, ![2048, 2048]⟩
abbrev S8x2048x1024 : Shape := ⟨3, ![8, 2048, 1024]⟩
abbrev S_ : Shape := ⟨0, ![]⟩
abbrev S8x2048 : Shape := ⟨2, ![8, 2048]⟩
abbrev S8x2048x1 : Shape := ⟨3, ![8, 2048, 1]⟩
abbrev S1x2048x2048 : Shape := ⟨3, ![1, 2048, 2048]⟩

abbrev nBuf : Space → Nat
  | .hbm => 29
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2048x2048, .f32⟩
  | .hbm, ⟨2, _⟩ => ⟨S8x2048x1024, .f32⟩
  | .hbm, ⟨3, _⟩ => ⟨S8x2048x1024, .f32⟩
  | .hbm, ⟨4, _⟩ => ⟨S8x2048x1024, .f32⟩
  | .hbm, ⟨5, _⟩ => ⟨S_, .f32⟩
  | .hbm, ⟨6, _⟩ => ⟨S8x2048, .f32⟩
  | .hbm, ⟨7, _⟩ => ⟨S8x2048x1, .f32⟩
  | .hbm, ⟨8, _⟩ => ⟨S_, .f32⟩
  | .hbm, ⟨9, _⟩ => ⟨S8x2048x1, .f32⟩
  | .hbm, ⟨10, _⟩ => ⟨S8x2048x1, .f32⟩
  | .hbm, ⟨11, _⟩ => ⟨S8x2048x1, .f32⟩
  | .hbm, ⟨12, _⟩ => ⟨S8x2048x1024, .f32⟩
  | .hbm, ⟨13, _⟩ => ⟨S8x2048x1024, .f32⟩
  | .hbm, ⟨14, _⟩ => ⟨S8x2048x2048, .f32⟩
  | .hbm, ⟨15, _⟩ => ⟨S2048x2048, .i32⟩
  | .hbm, ⟨16, _⟩ => ⟨S_, .i32⟩
  | .hbm, ⟨17, _⟩ => ⟨S2048x2048, .i32⟩
  | .hbm, ⟨18, _⟩ => ⟨S2048x2048, .i32⟩
  | .hbm, ⟨19, _⟩ => ⟨S2048x2048, .i32⟩
  | .hbm, ⟨20, _⟩ => ⟨S2048x2048, .i1⟩
  | .hbm, ⟨21, _⟩ => ⟨S_, .f32⟩
  | .hbm, ⟨22, _⟩ => ⟨S2048x2048, .f32⟩
  | .hbm, ⟨23, _⟩ => ⟨S2048x2048, .f32⟩
  | .hbm, ⟨24, _⟩ => ⟨S1x2048x2048, .f32⟩
  | .hbm, ⟨25, _⟩ => ⟨S8x2048x2048, .f32⟩
  | .hbm, ⟨26, _⟩ => ⟨S8x2048x2048, .f32⟩
  | .hbm, ⟨27, _⟩ => ⟨S8x2048x1024, .f32⟩
  | .hbm, ⟨28, _⟩ => ⟨S8x2048x1024, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_v0 : Ref sig .tc := ⟨.hbm, 15, rfl⟩
abbrev main_call0_c : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_cst : Ref sig .tc := ⟨.hbm, 21, rfl⟩
abbrev main_call0_v5 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩

abbrev nD : Nat := 1
abbrev τ : Topo := Topo.v7x

variable {F : FTy → Type} [FloatOps F]

class Facts₀ : Prop where
  slices_S8x2048x2048_S8x2048x1024_0_0_0 : S8x2048x2048.Slices ![0, 0, 0] S8x2048x1024
  slices_S8x2048x2048_S8x2048x1024_0_0_1024 : S8x2048x2048.Slices ![0, 0, 1024] S8x2048x1024
  reducesTo_S8x2048x1024_S8x2048_d2 : S8x2048x1024.ReducesTo [2] S8x2048
  h_S_ : 0 < S_.numel
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  bcast_S8x2048x1_S8x2048x1024_0_1_2 : S8x2048x1.BroadcastsInDim S8x2048x1024 (![0, 1, 2] : Fin 3 → Fin S8x2048x1024.rank)
  bcast_S_S2048x2048 : S_.BroadcastsInDim S2048x2048 (![] : Fin 0 → Fin S2048x2048.rank)
  bcast_S2048x2048_S1x2048x2048_1_2 : S2048x2048.BroadcastsInDim S1x2048x2048 (![1, 2] : Fin 2 → Fin S1x2048x2048.rank)
  bcast_S1x2048x2048_S8x2048x2048_0_1_2 : S1x2048x2048.BroadcastsInDim S8x2048x2048 (![0, 1, 2] : Fin 3 → Fin S8x2048x2048.rank)
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.BatchBody.lean ====
/-
  One batch of the causal cosine-attention kernel, run once at symbolic operands.

  The body receives the batch's first 1024 channels (the attention operand), its last 1024 channels (the gate), the
  whole learned mask, the batch's output slab and two scratch slabs. It first fills the two scratch slabs from the
  attention operand alone — the rows scaled to unit length, and the rows as they are — and then, for each of the
  eight blocks of 256 query rows, adds up over the key blocks at or before it the masked row-by-row cosines times the
  key block's rows, multiplies by the gate's rows and stores the 256 rows of the output. The eight stores tile the
  output slab, so what the slab ends holding is a function of the three inputs' contents alone, whatever it and the
  scratch slabs held before: that function is the witness found here by running the body, and the scratch slabs end
  at something.
-/
import proofs.«167190_j11424613007992_2_alg».proof.Proof.Gen.Kernel
import proofs.«167190_j11424613007992_2_alg».proof.Proof.Gen.Kernel.Skeleton
import Idealize.ShloMosaic.Lib.Tactic

set_option pp.maxSteps 5000
set_option pp.deepTerms false

noncomputable section

namespace Cert.Kernel.Hand

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the one the staging cells of the pipeline live in (the kernel has no cell of its own). -/
abbrev UR (nD : Nat) (τ : Topo) : Type := URounds (GSem nD τ sig) Unit

local notation "𝕄" => MT nD τ sig Unit (Elt F) ℕ (UR nD τ) ℕ

/-- A slab's contents on core `c`, and the slab held whole at contents `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

set_option maxHeartbeats 4000000 in
/-- What one batch leaves in the output slab, as a function of the attention operand `f1`, the gate `f2` and the
    mask `f3`, WITH the proof that from the six slabs held whole — the three inputs at those contents, the output and
    the two scratch slabs at anything — the body runs to its return, handing back the inputs as they were, the output
    at the witness and the scratch slabs at something. -/
noncomputable def batchRun (c : Dev nD) (i : grid0.Coords)
    (M1 : Memref sig .tc .vmem S1x2048x1024 .f32) (h1 : M1.IsWhole) (M2 : Memref sig .tc .vmem S1x2048x1024 .f32) (h2 : M2.IsWhole)
    (M3 : Memref sig .tc .vmem S2048x2048 .f32) (h3 : M3.IsWhole) (M4 : Memref sig .tc .vmem S1x2048x1024 .f32) (h4 : M4.IsWhole)
    (M5 : Memref sig .tc .vmem S2048x1024 .bf16) (h5 : M5.IsWhole) (M6 : Memref sig .tc .vmem S2048x1024 .bf16) (h6 : M6.IsWhole)
    (f1 : Bf (F := F) c M1) (f2 : Bf (F := F) c M2) (f3 : Bf (F := F) c M3) :
    { W : Bf (F := F) c M4 //
      ∀ (f4 : Bf (F := F) c M4) (f5 : Bf (F := F) c M5) (f6 : Bf (F := F) c M6) (E : Set ℕ) (Q : PUnit → sProp 𝕄),
        iprop(pt c M1 f1 ∗ pt c M2 f2 ∗ pt c M3 f3 ∗ pt c M4 f4 ∗ pt c M5 f5 ∗ pt c M6 f6
          ∗ (iprop(pt c M1 f1 ∗ pt c M2 f2 ∗ pt c M3 f3 ∗ pt c M4 W ∗ (∃ f, pt c M5 f) ∗ (∃ f, pt c M6 f)) -∗ Q ⟨⟩))
        ⊢ wp frame (wpE (defs₀ (F := F)) Variants.none c none) E
            (cc0__kernel i M1 h1 M2 h2 M3 h3 M4 h4 M5 h5 M6 h6) Q } := by
  refine ⟨?_, fun f4 f5 f6 E Q => ?run⟩
  case run =>
    iintro ⟨H1, H2, H3, H4, H5, H6, Hk⟩
    sl_exec_parts!
    sl_step
    iapply Hk
    isplitl [H1]; · iexact H1
    isplitl [H2]; · iexact H2
    isplitl [H3]; · iexact H3
    isplitl [H4]; · iexact H4
    isplitl [H5]; · iexists _; iexact H5
    iexists _; iexact H6

end Cert.Kernel.Hand

end
-- ==== Proof.PipelineData.lean ====
/-
  The causal cosine-attention kernel as a pipeline of eight points, one per batch: the proof data.

  At point `t` the pipeline hands the body the attention operand and the gate of batch `t` — two blocks of the ONE
  input batch array, which two input windows read at half a share each —, the whole weight matrix (fetched at the
  first point and kept, its block index never moving) and the output slab of batch `t`, written back after the body.
  What the body leaves in the output slab is the witness of the body's run at those three blocks; the inputs' slabs are
  left as found; the two scratch slabs are the invariant between points, held at anything.
-/
import proofs.«167190_j11424613007992_2_alg».proof.Proof.BatchBody
import proofs.«167190_j11424613007992_2_alg».proof.Proof.Gen.Kernel.Launch
import proofs.«167190_j11424613007992_2_alg».proof.Proof.Gen.Kernel.Points
import Idealize.ShloMosaic.Lib.Pipeline.Launch
import Idealize.ShloMosaic.Lib.Pipeline.Frame
import Idealize.ShloMosaic.Lib.Pipeline.FrameBody

set_option pp.maxSteps 5000
set_option pp.deepTerms false

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR nD τ) ℕ

variable (m : (ℓ : Loc nD τ sig) → Buf (Elt F) ℓ) (ρ : Dev nD → PrngReg)

/-- Core `c`'s buffers when the region is entered: as launched (the program is the region alone). -/
abbrev V (c : Dev nD) (b : Ref sig .tc) : Buf (Elt F) ((c : Thread nD τ).loc b) := m ((c : Thread nD τ).loc b)

/-- Window `w`'s block at point `t`, read off its array as launched. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- A whole slab owned at contents `X` is the slab's buffer held at the raw contents that read `X`. -/
theorem owns_eq_unread (c : Dev nD) {sp : Space} {S : Shape} {e : EltTy} (M : Memref sig .tc sp S e) (h : M.IsWhole) (X : S.Idx → Elt F e) :
    (owns (c : Thread nD τ) M fullShare X : sProp 𝕄) = pt c M (h.unread X) := by
  unfold owns pt
  rw [h.set_eq_univ]
  have h₁ : iprop(∃ f, ⌜M.view.read (Elt F) f = X⌝ ∗ (M.view.loc (c : Thread nD τ) ↦{fullShare} f))
      ⊢ (M.view.loc (c : Thread nD τ) ↦{fullShare} h.unread X : sProp 𝕄) := by
    iintro ⟨%f, %hf, H⟩
    obtain rfl := h.eq_unread hf
    iexact H
  have h₂ : (M.view.loc (c : Thread nD τ) ↦{fullShare} h.unread X : sProp 𝕄)
      ⊢ iprop(∃ f, ⌜M.view.read (Elt F) f = X⌝ ∗ (M.view.loc (c : Thread nD τ) ↦{fullShare} f)) := by
    iintro H
    iexists h.unread X
    isplitr; · ipureintro; exact h.read_unread X
    iexact H
  exact BI.equiv_iff.mp ⟨h₁, h₂⟩

/-- The slots' slabs at point `t`, with the evidence that each is a whole buffer. -/
abbrev hs0 (t : Fin cfg0.N) := hstage0_0 ((cfg0.slots t 0).cast nbuf0_0)
abbrev hs1 (t : Fin cfg0.N) := hstage0_1 ((cfg0.slots t 1).cast nbuf0_1)
abbrev hs2 (t : Fin cfg0.N) := hstage0_2 ((cfg0.slots t 2).cast nbuf0_2)
abbrev hs3 (t : Fin cfg0.N) := hstage0_3 ((cfg0.slots t 3).cast nbuf0_3)

/-- The body's run at point `t`, from the three input blocks there (each slab at the raw contents that read its block). -/
abbrev K (c : Dev nD) (t : Fin cfg0.N) :=
  batchRun (F := F) c (grid0.coords t) (win0_0.stage (cfg0.slots t 0)) (hs0 t)
    (win0_1.stage (cfg0.slots t 1)) (hs1 t) (win0_2.stage (cfg0.slots t 2)) (hs2 t) (win0_3.stage (cfg0.slots t 3)) (hs3 t)
    (Memref.whole cc0_scratch0) (Memref.isWhole_whole _) (Memref.whole cc0_scratch1) (Memref.isWhole_whole _)
    ((hs0 t).unread (iblk m c 0 t)) ((hs1 t).unread (iblk m c 1 t)) ((hs2 t).unread (iblk m c 2 t))

/-- What the output slab reads after the body at point `t`. -/
def outAt (c : Dev nD) (t : Fin cfg0.N) : S1x2048x1024.Idx → Elt F .f32 :=
  (win0_3.stage (cfg0.slots t 3)).view.read (Elt F) (K m c t).1

/-- The proof data on core `c`: the arrays as launched; after the body at point `t` each input's slab at its block and
    the output's at the body's witness; the invariant the two scratch slabs at anything; the input batch array read
    by its two windows at half a share each. -/
def dats (_ : Fin 1) (c : Dev nD) : Dat τ (Elt F) Unit ℕ (UR nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ _ := Pipeline.scopedRest (Ix := Unit) (Name := ℕ) (U := UR nD τ) (Lvl := ℕ) (Val := Elt F) spec0 c
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outAt m c t := by dsimp only [dats]

/-- Each input's slab holds its block when the body runs, fetched at that point or kept from the point before. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)

end Cert.Kernel.Hand

end
-- ==== Proof.PipelineRun.lean ====
/-
  The causal cosine-attention kernel as a pipeline of eight points: the body obligation at a generic point and the run
  of the whole program. The library's launch theorem for windows that share an array takes the body obligation, the
  layout, and how the three distinct buffers behind the four windows — each held whole at the full share when the
  region is entered — are dealt to the windows: the input batch array's share is halved between its two windows. It
  gives that every weakly fair execution terminates without a fault and every windowed array ends at what the
  write-backs make of it: the inputs unchanged, the output its eight batches' slabs.
-/
import proofs.«167190_j11424613007992_2_alg».proof.Proof.PipelineData

set_option pp.maxSteps 5000
set_option pp.deepTerms false

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR nD τ) ℕ

variable (m : (ℓ : Loc nD τ sig) → Buf (Elt F) ℓ) (ρ : Dev nD → PrngReg)

/-! ## The body obligation, at a generic point -/

/-- What the body is called with at point `t`: the invariant, the core's dues, and the four slabs — the inputs' at
    their blocks, the output's at anything. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t))

set_option maxHeartbeats 1000000 in
/-- The body at any point: the inputs' slabs hold their blocks, so the body's run applies at those blocks; the
    scratch slabs are taken from the invariant at anything and given back at something. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3,
    show (dats m 0 c).Φ t.castSucc
      = Pipeline.scopedRest (Ix := Unit) (Name := ℕ) (U := UR nD τ) (Lvl := ℕ) (Val := Elt F) spec0 c from rfl,
    scopedRest0_eq]
  simp only [owns_eq_unread c (win0_0.stage (cfg0.slots t 0)) (hs0 t), owns_eq_unread c (win0_1.stage (cfg0.slots t 1)) (hs1 t),
    owns_eq_unread c (win0_2.stage (cfg0.slots t 2)) (hs2 t), owns_eq_unread c (win0_3.stage (cfg0.slots t 3)) (hs3 t)]
  iintro ⟨⟨⟨%f5, H5⟩, ⟨%f6, H6⟩⟩, Ho, ⟨%d0, H0⟩, ⟨%d1, H1⟩, ⟨%d2, H2⟩, ⟨%d3, H3⟩⟩
  iapply ((K m c t).2 ((hs3 t).unread ((dats m 0 c).before 3 t d3)) f5 f6 Set.univ _)
  isplitl [H0]; · iexact H0
  isplitl [H1]; · iexact H1
  isplitl [H2]; · iexact H2
  isplitl [H3]; · iexact H3
  isplitl [H5]; · iexact H5
  isplitl [H6]; · iexact H6
  iintro ⟨H0, H1, H2, H3, H5, H6⟩
  isplitl [H5 H6]
  · isplitl [H5]; · iexact H5
    iexact H6
  isplitl [Ho]; · iexact Ho
  isplitl [H0]; · iexact H0
  isplitl [H1]; · iexact H1
  isplitl [H2]; · iexact H2
  have e : (K m c t).1 = Memref.IsWhole.unread (m := win0_3.stage (cfg0.slots t 3)) (hs3 t) (outAt m c t) :=
    ((hs3 t).unread_read _).symm
  iapply (Entails.of_eq (congrArg (pt (F := F) c (win0_3.stage (cfg0.slots t 3))) e))
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The launch -/

/-- The launch element: every staging cell's owner at round 0 and a duty token for every transfer the pipeline issues. -/
def u₀ : UR nD τ := initOf (Pipeline.cells cfgs cellOf_inj) (Pipeline.launchToks cfgs cellOf_inj)

/-- The rounds algebra is the whole of the user component. -/
abbrev EP : Emb (UR nD τ) (MT nD τ sig Unit (Elt F) ℕ (UR nD τ) ℕ) := emb₁

/-- The program is the region alone, entered at the launch contents. -/
theorem hmain : Pipeline.HMain (Ix := Unit) (Name := ℕ) (U := UR nD τ) (Lvl := ℕ) cfgs 0 defs₀ Variants.none m (main (F := F)) (V m) :=
  Pipeline.hmain_region cfgs 0 defs₀ Variants.none m main fun c => (main_chain c).trans rfl

/-- The three buffers behind the four windows, each held whole at the full share at the launch contents, are dealt to
    the windows: the input batch array's share is halved between the window that reads the attention operand and the
    window that reads the gate; the weight matrix and the output array go whole to their one window each. -/
theorem arrays_deal (c : Dev nD) :
    (Pipeline.arrBufs (Ix := Unit) (Name := ℕ) (U := UR nD τ) (Lvl := ℕ) (cfgs 0).spec c (V m c) : sProp 𝕄)
      ⊢ (dats m 0 c).arrays ((dats m 0 c).arrAt · 0) := by
  have e : ((dats m 0 c).arrays ((dats m 0 c).arrAt · 0) : sProp 𝕄)
      = bigSep Finset.univ fun w : Fin 4 =>
          (((c : Thread nD τ).loc (Pipeline.arrRef spec0 w)) ↦{(dats m 0 c).share w} (dats m 0 c).arrAt w 0 : sProp 𝕄) := by
    unfold Dat.arrays
    exact bigSep_congr fun w _ => by rw [(arr_whole0 w).set_eq_univ]
  rw [e, bigSep_W0]
  have e2 : (bigSep (Finset.univ.image (Pipeline.arrRef (cfgs 0).spec))
        fun b => (((c : Thread nD τ).loc b) ↦{fullShare} V m c b : sProp 𝕄))
      = iprop((((c : Thread nD τ).loc main_arg0) ↦{fullShare} V m c main_arg0)
          ∗ (((c : Thread nD τ).loc main_arg1) ↦{fullShare} V m c main_arg1)
          ∗ (((c : Thread nD τ).loc main_v0) ↦{fullShare} V m c main_v0)) :=
    bigSep_eq_bigSepL_of_eq [main_arg0, main_arg1, main_v0] (by decide) (by decide) _
  unfold Pipeline.arrBufs
  rw [e2]
  iintro ⟨H0, H1, H3⟩
  have hhalf : ((((c : Thread nD τ).loc main_arg0) ↦{fullShare} V m c main_arg0) : sProp 𝕄)
      ⊢ iprop((((c : Thread nD τ).loc main_arg0) ↦{fullShare.left} V m c main_arg0)
          ∗ (((c : Thread nD τ).loc main_arg0) ↦{fullShare.right} V m c main_arg0)) :=
    (pointsTo_share (PosShare.mem_left_op_right fullShare)).1
  ihave H := hhalf $$ H0
  icases H with ⟨Ha, Hb⟩
  isplitl [Ha]; · iexact Ha
  isplitl [Hb]; · iexact Hb
  isplitl [H1]; · iexact H1
  iexact H3

/-- The physical post: every windowed array holds what the write-backs make of it. -/
def QC : PUnit × MemSt nD τ sig (Elt F) → Prop := fun r =>
  ∀ (c : Dev nD) (w : Fin cfg0.W), r.2.mem ((cfg0.win w).arr.view.loc (c : Thread nD τ)) = (dats m 0 c).arrAt w cfg0.N

set_option backward.isDefEq.respectTransparency.types false in
/-- From any memory with zero counters, every weakly fair execution of the program terminates without a fault, and
    every windowed array ends at what the write-backs make of it. -/
theorem run_main : θ_run defs (onTc (τ := τ) (main (F := F))) ⟨m, fun _ => 0, ρ⟩ (QC m) :=
  Pipeline.θ_run_region_noSem_shared cfgs (dats m) () cellOf_inj (0 : Fin 1) winFacts₀0 EP defs₀ Variants.none m ρ main
    (hbody := fun c => (body_obligation m c).loose)
    (hne := block_pos0) (harr := arr_whole0) (hstage := stage_whole0) (howed := fun _ _ => rfl)
    (u₀ := u₀) (hu₀ := BI.Entails.refl _)
    (V := V m) (hmain := hmain m) (hsplit := arrays_deal m)
    (X := fun _ => iprop(emp)) (Y := fun _ => iprop(emp)) (Z := fun _ => iprop(emp))
    (hX := fun c => by rw [unscopedRest0_eq]; iintro -; isplitr <;> iempintro)
    (hin := fun c => by
      rw [show (dats m 0 c).Φ 0
        = Pipeline.scopedRest (Ix := Unit) (Name := ℕ) (U := UR nD τ) (Lvl := ℕ) (Val := Elt F) spec0 c from rfl]
      iintro ⟨-, H⟩; iexact H)
    (hout := fun c => by
      rw [show (dats m 0 c).Φ (Fin.last cfg0.N)
        = Pipeline.scopedRest (Ix := Unit) (Name := ℕ) (U := UR nD τ) (Lvl := ℕ) (Val := Elt F) spec0 c from rfl]
      iintro H; isplitr; · iempintro
      iexact H)
    (QY := fun _ _ => True)
    (hY := fun c s' => by
      iintro ⟨-, -, HSI⟩; imodintro
      isplitr; · ipureintro; trivial
      iexact HSI)
    (hQ := fun _ h c w => (h c).1 w)

/-- The run with the result array named and the argument arrays unchanged. -/
theorem run_out : θ_run defs (onTc (τ := τ) (main (F := F))) ⟨m, fun _ => 0, ρ⟩ (fun r => ∀ c : Dev nD,
      r.2.mem ((c.tc : Thread nD τ).loc main_v0) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨h c 3,
      (h c 0).trans (((dats m 0 c).arrAt_in 0 rfl _).trans (A_eq m c 0)),
      (h c 2).trans (((dats m 0 c).arrAt_in 2 rfl _).trans (A_eq m c 2))⟩) (run_main m ρ)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_out m ρ)

end Cert.Kernel.Hand

end
-- ==== Proof.BatchBodyIdeal.lean ====
/-
  One batch of the causal cosine-attention kernel, run once at symbolic operands.

  The body receives the batch's first 1024 channels (the attention operand), its last 1024 channels (the gate), the
  whole learned mask, the batch's output slab and two scratch slabs. It first fills the two scratch slabs from the
  attention operand alone — the rows scaled to unit length, and the rows as they are — and then, for each of the
  eight blocks of 256 query rows, adds up over the key blocks at or before it the masked row-by-row cosines times the
  key block's rows, multiplies by the gate's rows and stores the 256 rows of the output. The eight stores tile the
  output slab, so what the slab ends holding is a function of the three inputs' contents alone, whatever it and the
  scratch slabs held before: that function is the witness found here by running the body, and the scratch slabs end
  at something.
-/
import proofs.«167190_j11424613007992_2_alg».proof.Proof.Gen.KernelIdeal
import proofs.«167190_j11424613007992_2_alg».proof.Proof.Gen.KernelIdeal.Skeleton
import Idealize.ShloMosaic.Lib.Tactic

set_option pp.maxSteps 5000
set_option pp.deepTerms false

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the one the staging cells of the pipeline live in (the kernel has no cell of its own). -/
abbrev UR (nD : Nat) (τ : Topo) : Type := URounds (GSem nD τ sig) Unit

local notation "𝕄" => MT nD τ sig Unit (Elt F) ℕ (UR nD τ) ℕ

/-- A slab's contents on core `c`, and the slab held whole at contents `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

set_option maxHeartbeats 4000000 in
/-- What one batch leaves in the output slab, as a function of the attention operand `f1`, the gate `f2` and the
    mask `f3`, WITH the proof that from the six slabs held whole — the three inputs at those contents, the output and
    the two scratch slabs at anything — the body runs to its return, handing back the inputs as they were, the output
    at the witness and the scratch slabs at something. -/
noncomputable def batchRun (c : Dev nD) (i : grid0.Coords)
    (M1 : Memref sig .tc .vmem S1x2048x1024 .f32) (h1 : M1.IsWhole) (M2 : Memref sig .tc .vmem S1x2048x1024 .f32) (h2 : M2.IsWhole)
    (M3 : Memref sig .tc .vmem S2048x2048 .f32) (h3 : M3.IsWhole) (M4 : Memref sig .tc .vmem S1x2048x1024 .f32) (h4 : M4.IsWhole)
    (M5 : Memref sig .tc .vmem S2048x1024 .bf16) (h5 : M5.IsWhole) (M6 : Memref sig .tc .vmem S2048x1024 .bf16) (h6 : M6.IsWhole)
    (f1 : Bf (F := F) c M1) (f2 : Bf (F := F) c M2) (f3 : Bf (F := F) c M3) :
    { W : Bf (F := F) c M4 //
      ∀ (f4 : Bf (F := F) c M4) (f5 : Bf (F := F) c M5) (f6 : Bf (F := F) c M6) (E : Set ℕ) (Q : PUnit → sProp 𝕄),
        iprop(pt c M1 f1 ∗ pt c M2 f2 ∗ pt c M3 f3 ∗ pt c M4 f4 ∗ pt c M5 f5 ∗ pt c M6 f6
          ∗ (iprop(pt c M1 f1 ∗ pt c M2 f2 ∗ pt c M3 f3 ∗ pt c M4 W ∗ (∃ f, pt c M5 f) ∗ (∃ f, pt c M6 f)) -∗ Q ⟨⟩))
        ⊢ wp frame (wpE (defs₀ (F := F)) Variants.none c none) E
            (cc0__kernel i M1 h1 M2 h2 M3 h3 M4 h4 M5 h5 M6 h6) Q } := by
  refine ⟨?_, fun f4 f5 f6 E Q => ?run⟩
  case run =>
    iintro ⟨H1, H2, H3, H4, H5, H6, Hk⟩
    sl_exec_parts!
    sl_step
    iapply Hk
    isplitl [H1]; · iexact H1
    isplitl [H2]; · iexact H2
    isplitl [H3]; · iexact H3
    isplitl [H4]; · iexact H4
    isplitl [H5]; · iexists _; iexact H5
    iexists _; iexact H6

end Cert.KernelIdeal.Hand

end
-- ==== Proof.PipelineDataIdeal.lean ====
/-
  The causal cosine-attention kernel as a pipeline of eight points, one per batch: the proof data.

  At point `t` the pipeline hands the body the attention operand and the gate of batch `t` — two blocks of the ONE
  input batch array, which two input windows read at half a share each —, the whole weight matrix (fetched at the
  first point and kept, its block index never moving) and the output slab of batch `t`, written back after the body.
  What the body leaves in the output slab is the witness of the body's run at those three blocks; the inputs' slabs are
  left as found; the two scratch slabs are the invariant between points, held at anything.
-/
import proofs.«167190_j11424613007992_2_alg».proof.Proof.BatchBodyIdeal
import proofs.«167190_j11424613007992_2_alg».proof.Proof.Gen.KernelIdeal.Launch
import proofs.«167190_j11424613007992_2_alg».proof.Proof.Gen.KernelIdeal.Points
import Idealize.ShloMosaic.Lib.Pipeline.Launch
import Idealize.ShloMosaic.Lib.Pipeline.Frame
import Idealize.ShloMosaic.Lib.Pipeline.FrameBody

set_option pp.maxSteps 5000
set_option pp.deepTerms false

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR nD τ) ℕ

variable (m : (ℓ : Loc nD τ sig) → Buf (Elt F) ℓ) (ρ : Dev nD → PrngReg)

/-- Core `c`'s buffers when the region is entered: as launched (the program is the region alone). -/
abbrev V (c : Dev nD) (b : Ref sig .tc) : Buf (Elt F) ((c : Thread nD τ).loc b) := m ((c : Thread nD τ).loc b)

/-- Window `w`'s block at point `t`, read off its array as launched. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- A whole slab owned at contents `X` is the slab's buffer held at the raw contents that read `X`. -/
theorem owns_eq_unread (c : Dev nD) {sp : Space} {S : Shape} {e : EltTy} (M : Memref sig .tc sp S e) (h : M.IsWhole) (X : S.Idx → Elt F e) :
    (owns (c : Thread nD τ) M fullShare X : sProp 𝕄) = pt c M (h.unread X) := by
  unfold owns pt
  rw [h.set_eq_univ]
  have h₁ : iprop(∃ f, ⌜M.view.read (Elt F) f = X⌝ ∗ (M.view.loc (c : Thread nD τ) ↦{fullShare} f))
      ⊢ (M.view.loc (c : Thread nD τ) ↦{fullShare} h.unread X : sProp 𝕄) := by
    iintro ⟨%f, %hf, H⟩
    obtain rfl := h.eq_unread hf
    iexact H
  have h₂ : (M.view.loc (c : Thread nD τ) ↦{fullShare} h.unread X : sProp 𝕄)
      ⊢ iprop(∃ f, ⌜M.view.read (Elt F) f = X⌝ ∗ (M.view.loc (c : Thread nD τ) ↦{fullShare} f)) := by
    iintro H
    iexists h.unread X
    isplitr; · ipureintro; exact h.read_unread X
    iexact H
  exact BI.equiv_iff.mp ⟨h₁, h₂⟩

/-- The slots' slabs at point `t`, with the evidence that each is a whole buffer. -/
abbrev hs0 (t : Fin cfg0.N) := hstage0_0 ((cfg0.slots t 0).cast nbuf0_0)
abbrev hs1 (t : Fin cfg0.N) := hstage0_1 ((cfg0.slots t 1).cast nbuf0_1)
abbrev hs2 (t : Fin cfg0.N) := hstage0_2 ((cfg0.slots t 2).cast nbuf0_2)
abbrev hs3 (t : Fin cfg0.N) := hstage0_3 ((cfg0.slots t 3).cast nbuf0_3)

/-- The body's run at point `t`, from the three input blocks there (each slab at the raw contents that read its block). -/
abbrev K (c : Dev nD) (t : Fin cfg0.N) :=
  batchRun (F := F) c (grid0.coords t) (win0_0.stage (cfg0.slots t 0)) (hs0 t)
    (win0_1.stage (cfg0.slots t 1)) (hs1 t) (win0_2.stage (cfg0.slots t 2)) (hs2 t) (win0_3.stage (cfg0.slots t 3)) (hs3 t)
    (Memref.whole cc0_scratch0) (Memref.isWhole_whole _) (Memref.whole cc0_scratch1) (Memref.isWhole_whole _)
    ((hs0 t).unread (iblk m c 0 t)) ((hs1 t).unread (iblk m c 1 t)) ((hs2 t).unread (iblk m c 2 t))

/-- What the output slab reads after the body at point `t`. -/
def outAt (c : Dev nD) (t : Fin cfg0.N) : S1x2048x1024.Idx → Elt F .f32 :=
  (win0_3.stage (cfg0.slots t 3)).view.read (Elt F) (K m c t).1

/-- The proof data on core `c`: the arrays as launched; after the body at point `t` each input's slab at its block and
    the output's at the body's witness; the invariant the two scratch slabs at anything; the input batch array read
    by its two windows at half a share each. -/
def dats (_ : Fin 1) (c : Dev nD) : Dat τ (Elt F) Unit ℕ (UR nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ _ := Pipeline.scopedRest (Ix := Unit) (Name := ℕ) (U := UR nD τ) (Lvl := ℕ) (Val := Elt F) spec0 c
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outAt m c t := by dsimp only [dats]

/-- Each input's slab holds its block when the body runs, fetched at that point or kept from the point before. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)

end Cert.KernelIdeal.Hand

end
-- ==== Proof.PipelineRunIdeal.lean ====
/-
  The causal cosine-attention kernel as a pipeline of eight points: the body obligation at a generic point and the run
  of the whole program. The library's launch theorem for windows that share an array takes the body obligation, the
  layout, and how the three distinct buffers behind the four windows — each held whole at the full share when the
  region is entered — are dealt to the windows: the input batch array's share is halved between its two windows. It
  gives that every weakly fair execution terminates without a fault and every windowed array ends at what the
  write-backs make of it: the inputs unchanged, the output its eight batches' slabs.
-/
import proofs.«167190_j11424613007992_2_alg».proof.Proof.PipelineDataIdeal

set_option pp.maxSteps 5000
set_option pp.deepTerms false

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR nD τ) ℕ

variable (m : (ℓ : Loc nD τ sig) → Buf (Elt F) ℓ) (ρ : Dev nD → PrngReg)

/-! ## The body obligation, at a generic point -/

/-- What the body is called with at point `t`: the invariant, the core's dues, and the four slabs — the inputs' at
    their blocks, the output's at anything. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t))

set_option maxHeartbeats 1000000 in
/-- The body at any point: the inputs' slabs hold their blocks, so the body's run applies at those blocks; the
    scratch slabs are taken from the invariant at anything and given back at something. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3,
    show (dats m 0 c).Φ t.castSucc
      = Pipeline.scopedRest (Ix := Unit) (Name := ℕ) (U := UR nD τ) (Lvl := ℕ) (Val := Elt F) spec0 c from rfl,
    scopedRest0_eq]
  simp only [owns_eq_unread c (win0_0.stage (cfg0.slots t 0)) (hs0 t), owns_eq_unread c (win0_1.stage (cfg0.slots t 1)) (hs1 t),
    owns_eq_unread c (win0_2.stage (cfg0.slots t 2)) (hs2 t), owns_eq_unread c (win0_3.stage (cfg0.slots t 3)) (hs3 t)]
  iintro ⟨⟨⟨%f5, H5⟩, ⟨%f6, H6⟩⟩, Ho, ⟨%d0, H0⟩, ⟨%d1, H1⟩, ⟨%d2, H2⟩, ⟨%d3, H3⟩⟩
  iapply ((K m c t).2 ((hs3 t).unread ((dats m 0 c).before 3 t d3)) f5 f6 Set.univ _)
  isplitl [H0]; · iexact H0
  isplitl [H1]; · iexact H1
  isplitl [H2]; · iexact H2
  isplitl [H3]; · iexact H3
  isplitl [H5]; · iexact H5
  isplitl [H6]; · iexact H6
  iintro ⟨H0, H1, H2, H3, H5, H6⟩
  isplitl [H5 H6]
  · isplitl [H5]; · iexact H5
    iexact H6
  isplitl [Ho]; · iexact Ho
  isplitl [H0]; · iexact H0
  isplitl [H1]; · iexact H1
  isplitl [H2]; · iexact H2
  have e : (K m c t).1 = Memref.IsWhole.unread (m := win0_3.stage (cfg0.slots t 3)) (hs3 t) (outAt m c t) :=
    ((hs3 t).unread_read _).symm
  iapply (Entails.of_eq (congrArg (pt (F := F) c (win0_3.stage (cfg0.slots t 3))) e))
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The launch -/

/-- The launch element: every staging cell's owner at round 0 and a duty token for every transfer the pipeline issues. -/
def u₀ : UR nD τ := initOf (Pipeline.cells cfgs cellOf_inj) (Pipeline.launchToks cfgs cellOf_inj)

/-- The rounds algebra is the whole of the user component. -/
abbrev EP : Emb (UR nD τ) (MT nD τ sig Unit (Elt F) ℕ (UR nD τ) ℕ) := emb₁

/-- The program is the region alone, entered at the launch contents. -/
theorem hmain : Pipeline.HMain (Ix := Unit) (Name := ℕ) (U := UR nD τ) (Lvl := ℕ) cfgs 0 defs₀ Variants.none m (main (F := F)) (V m) :=
  Pipeline.hmain_region cfgs 0 defs₀ Variants.none m main fun c => (main_chain c).trans rfl

/-- The three buffers behind the four windows, each held whole at the full share at the launch contents, are dealt to
    the windows: the input batch array's share is halved between the window that reads the attention operand and the
    window that reads the gate; the weight matrix and the output array go whole to their one window each. -/
theorem arrays_deal (c : Dev nD) :
    (Pipeline.arrBufs (Ix := Unit) (Name := ℕ) (U := UR nD τ) (Lvl := ℕ) (cfgs 0).spec c (V m c) : sProp 𝕄)
      ⊢ (dats m 0 c).arrays ((dats m 0 c).arrAt · 0) := by
  have e : ((dats m 0 c).arrays ((dats m 0 c).arrAt · 0) : sProp 𝕄)
      = bigSep Finset.univ fun w : Fin 4 =>
          (((c : Thread nD τ).loc (Pipeline.arrRef spec0 w)) ↦{(dats m 0 c).share w} (dats m 0 c).arrAt w 0 : sProp 𝕄) := by
    unfold Dat.arrays
    exact bigSep_congr fun w _ => by rw [(arr_whole0 w).set_eq_univ]
  rw [e, bigSep_W0]
  have e2 : (bigSep (Finset.univ.image (Pipeline.arrRef (cfgs 0).spec))
        fun b => (((c : Thread nD τ).loc b) ↦{fullShare} V m c b : sProp 𝕄))
      = iprop((((c : Thread nD τ).loc main_arg0) ↦{fullShare} V m c main_arg0)
          ∗ (((c : Thread nD τ).loc main_arg1) ↦{fullShare} V m c main_arg1)
          ∗ (((c : Thread nD τ).loc main_v0) ↦{fullShare} V m c main_v0)) :=
    bigSep_eq_bigSepL_of_eq [main_arg0, main_arg1, main_v0] (by decide) (by decide) _
  unfold Pipeline.arrBufs
  rw [e2]
  iintro ⟨H0, H1, H3⟩
  have hhalf : ((((c : Thread nD τ).loc main_arg0) ↦{fullShare} V m c main_arg0) : sProp 𝕄)
      ⊢ iprop((((c : Thread nD τ).loc main_arg0) ↦{fullShare.left} V m c main_arg0)
          ∗ (((c : Thread nD τ).loc main_arg0) ↦{fullShare.right} V m c main_arg0)) :=
    (pointsTo_share (PosShare.mem_left_op_right fullShare)).1
  ihave H := hhalf $$ H0
  icases H with ⟨Ha, Hb⟩
  isplitl [Ha]; · iexact Ha
  isplitl [Hb]; · iexact Hb
  isplitl [H1]; · iexact H1
  iexact H3

/-- The physical post: every windowed array holds what the write-backs make of it. -/
def QC : PUnit × MemSt nD τ sig (Elt F) → Prop := fun r =>
  ∀ (c : Dev nD) (w : Fin cfg0.W), r.2.mem ((cfg0.win w).arr.view.loc (c : Thread nD τ)) = (dats m 0 c).arrAt w cfg0.N

set_option backward.isDefEq.respectTransparency.types false in
/-- From any memory with zero counters, every weakly fair execution of the program terminates without a fault, and
    every windowed array ends at what the write-backs make of it. -/
theorem run_main : θ_run defs (onTc (τ := τ) (main (F := F))) ⟨m, fun _ => 0, ρ⟩ (QC m) :=
  Pipeline.θ_run_region_noSem_shared cfgs (dats m) () cellOf_inj (0 : Fin 1) winFacts₀0 EP defs₀ Variants.none m ρ main
    (hbody := fun c => (body_obligation m c).loose)
    (hne := block_pos0) (harr := arr_whole0) (hstage := stage_whole0) (howed := fun _ _ => rfl)
    (u₀ := u₀) (hu₀ := BI.Entails.refl _)
    (V := V m) (hmain := hmain m) (hsplit := arrays_deal m)
    (X := fun _ => iprop(emp)) (Y := fun _ => iprop(emp)) (Z := fun _ => iprop(emp))
    (hX := fun c => by rw [unscopedRest0_eq]; iintro -; isplitr <;> iempintro)
    (hin := fun c => by
      rw [show (dats m 0 c).Φ 0
        = Pipeline.scopedRest (Ix := Unit) (Name := ℕ) (U := UR nD τ) (Lvl := ℕ) (Val := Elt F) spec0 c from rfl]
      iintro ⟨-, H⟩; iexact H)
    (hout := fun c => by
      rw [show (dats m 0 c).Φ (Fin.last cfg0.N)
        = Pipeline.scopedRest (Ix := Unit) (Name := ℕ) (U := UR nD τ) (Lvl := ℕ) (Val := Elt F) spec0 c from rfl]
      iintro H; isplitr; · iempintro
      iexact H)
    (QY := fun _ _ => True)
    (hY := fun c s' => by
      iintro ⟨-, -, HSI⟩; imodintro
      isplitr; · ipureintro; trivial
      iexact HSI)
    (hQ := fun _ h c w => (h c).1 w)

/-- The run with the result array named and the argument arrays unchanged. -/
theorem run_out : θ_run defs (onTc (τ := τ) (main (F := F))) ⟨m, fun _ => 0, ρ⟩ (fun r => ∀ c : Dev nD,
      r.2.mem ((c.tc : Thread nD τ).loc main_v0) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨h c 3,
      (h c 0).trans (((dats m 0 c).arrAt_in 0 rfl _).trans (A_eq m c 0)),
      (h c 2).trans (((dats m 0 c).arrAt_in 2 rfl _).trans (A_eq m c 2))⟩) (run_main m ρ)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_out m ρ)

end Cert.KernelIdeal.Hand

end
-- ==== Proof.CausalCosSpec.lean ====
/-
  The function both programs compute, index by index, on the extended reals.

  `x` is a batch of 8 sequences of 2048 rows of 2048 channels; a row's first 1024 channels are its attention
  operand, its last 1024 its gate. `p` is a 2048 × 2048 matrix of learned weights, of which only the lower triangle
  (key row at or before the query row) is used. Every row's attention operand is scaled to unit length (its entries
  times the reciprocal square root of its sum of squares plus a small positive constant); the cosine of query row `n`
  and key row `m` is the inner product of their unit rows; the result's entry at (batch `b`, row `n`, channel `d`)
  is the sum over the key rows `m` of weight × cosine × the key row's UNSCALED operand at channel `d`, times the
  query row's gate at channel `d`.

  The same sum is also written block by block: the 2048 rows are 8 blocks of 256, row `256 i + r` is row `r` of block
  `i`, and a key block `j` contributes to a query row of block `i` only when `j ≤ i`: whole when `j < i`, and through
  its rows at or before `r` when `j = i`.
-/
import Idealize.ShloMosaic.PureOps.Ideal
import Idealize.ShloMosaic.Lib.ValueIdx

noncomputable section

open scoped BigOperators

namespace Cert.CausalCos

open Idealize.ShloMosaic Idealize.ShloMosaic.ValueIdx

/-- The input batch, the weight matrix and the result, as shapes. -/
abbrev SX : Shape := ⟨3, ![8, 2048, 2048]⟩
abbrev SM : Shape := ⟨2, ![2048, 2048]⟩
abbrev SO : Shape := ⟨3, ![8, 2048, 1024]⟩

/-- The small positive constant added to a row's sum of squares: the binary32 number nearest 1e-8. -/
def eps : EReal := Ideal.ofBits .f32 0x322BCC77#32

/-- Channel `d` of the attention operand, and channel `d` of the gate, as channels of a whole row. -/
def lo (d : Fin 1024) : Fin 2048 := ⟨d.val, by omega⟩
def hi (d : Fin 1024) : Fin 2048 := ⟨1024 + d.val, by omega⟩

/-- Row `r` of block `i`. -/
def row (i : Fin 8) (r : Fin 256) : Fin 2048 := ⟨256 * i.val + r.val, by omega⟩

/-- The attention operand and the gate of row `n` of batch `b`. -/
def att (x : SX.Idx → EReal) (b : Fin 8) (n : Fin 2048) (d : Fin 1024) : EReal := x (ix3 b n (lo d))
def gate (x : SX.Idx → EReal) (b : Fin 8) (n : Fin 2048) (d : Fin 1024) : EReal := x (ix3 b n (hi d))

/-- A row's sum of squares. -/
def sumsq (x : SX.Idx → EReal) (b : Fin 8) (n : Fin 2048) : EReal := ∑ e : Fin 1024, att x b n e * att x b n e

/-- The row scaled to unit length. -/
def unit (x : SX.Idx → EReal) (b : Fin 8) (n : Fin 2048) (d : Fin 1024) : EReal :=
  att x b n d * Ideal.rsqrt (sumsq x b n + eps)

/-- The cosine of rows `n` and `m`. -/
def cosim (x : SX.Idx → EReal) (b : Fin 8) (n m : Fin 2048) : EReal := ∑ e : Fin 1024, unit x b n e * unit x b m e

/-- The weight of key row `m` for query row `n`: the matrix entry at or below the diagonal, zero above it. -/
def tril (p : SM.Idx → EReal) (n m : Fin 2048) : EReal := if m.val ≤ n.val then p (ix2 n m) else 0

/-- The result at batch `b`, row `n`, channel `d`. -/
def Gat (x : SX.Idx → EReal) (p : SM.Idx → EReal) (b : Fin 8) (n : Fin 2048) (d : Fin 1024) : EReal :=
  (∑ m : Fin 2048, (tril p n m * cosim x b n m) * att x b m d) * gate x b n d

/-- The result, as one function of the two arguments. -/
def G (x : SX.Idx → EReal) (p : SM.Idx → EReal) : SO.Idx → EReal := fun i => Gat x p (i 0) (i 1) (i 2)

/-- What key block `j` adds to query row `r` of block `i` at channel `d`: for `j < i` every key row of the block
    with its matrix entry, for `j = i` the key rows at or before `r`. (For `j > i` nothing is added; the term is not
    used there.) -/
def blockTerm (x : SX.Idx → EReal) (p : SM.Idx → EReal) (b : Fin 8) (i j : Fin 8) (r : Fin 256) (d : Fin 1024) : EReal :=
  ∑ m' : Fin 256, ((if j.val < i.val ∨ m'.val ≤ r.val then p (ix2 (row i r) (row j m')) else 0)
      * cosim x b (row i r) (row j m')) * att x b (row j m') d

end Cert.CausalCos

end
-- ==== Proof.CausalCosBatch.lean ====
/-
  One batch's two blocks of the input, as the kernel's body receives them: the attention operand and the gate of
  batch `b`, each a slab of 2048 rows of 1024 channels with a leading axis of extent one.
-/
import proofs.«167190_j11424613007992_2_alg».proof.Proof.CausalCosSpec

noncomputable section

namespace Cert.CausalCos

open Idealize.ShloMosaic Idealize.ShloMosaic.ValueIdx

/-- A batch's slab: one batch, 2048 rows, 1024 channels. -/
abbrev SB : Shape := ⟨3, ![1, 2048, 1024]⟩

/-- The attention operand of batch `b` as a slab, -/
def attBlk (x : SX.Idx → EReal) (b : Fin 8) : SB.Idx → EReal := fun y => att x b (y 1) (y 2)
/-- and its gate. -/
def gateBlk (x : SX.Idx → EReal) (b : Fin 8) : SB.Idx → EReal := fun y => gate x b (y 1) (y 2)

theorem attBlk_apply (x : SX.Idx → EReal) (b : Fin 8) (n : Fin 2048) (e : Fin 1024) :
    attBlk x b (ix3 0 n e) = att x b n e := rfl
theorem gateBlk_apply (x : SX.Idx → EReal) (b : Fin 8) (n : Fin 2048) (e : Fin 1024) :
    gateBlk x b (ix3 0 n e) = gate x b n e := rfl

end Cert.CausalCos

end
-- ==== Proof.InputBlocksIdeal.lean ====
/-
  The input blocks the pipeline hands the body, as blocks of the two arguments.

  The printed index maps send point `t` to block `(t, 0, 0)` of the input batch array for the attention operand,
  to block `(t, 0, 1)` of the same array for the gate — blocks of one batch, 2048 rows and 1024 channels, so the
  second one starts at channel 1024 —, and to the one block of the weight matrix. Read at an index, the three blocks
  are the attention operand and the gate of batch `t` and the whole matrix.
-/
import proofs.«167190_j11424613007992_2_alg».proof.Proof.PipelineDataIdeal
import proofs.«167190_j11424613007992_2_alg».proof.Proof.CausalCosBatch
import Idealize.ShloMosaic.Lib.Pipeline.Value

set_option pp.maxSteps 5000
set_option pp.deepTerms false

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (m : (ℓ : Loc nD τ sig) → Buf (Elt Ideal) ℓ)

/-- The printed index maps, decided over the eight points. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 1
    ∧ win0_2.index t (0 : Fin 2) = 0 ∧ win0_2.index t (1 : Fin 2) = 0 :=
  (by decide +kernel : ∀ t : Fin grid0.N, _)

/-- The batch a point works on. -/
def ptBatch (t : Fin cfg0.N) : Fin 8 := ⟨t.val, lt_of_lt_of_eq t.isLt N_0⟩

/-- The first input block at point `t` is the attention operand of batch `t`. -/
theorem iblk0_eq (c : Dev nD) (t : Fin cfg0.N) :
    (iblk m c 0 t : S1x2048x1024.Idx → EReal) = Cert.CausalCos.attBlk (V m c main_arg0) (ptBatch t) := by
  funext j
  show V m c main_arg0 (((cfg0.win 0).blk t).view.emb j) = V m c main_arg0 (ix3 (ptBatch t) (j 1) (Cert.CausalCos.lo (j 2)))
  refine congrArg _ ?_
  obtain ⟨e0, e1, e2, -⟩ := idx_facts t
  funext a; apply Fin.ext
  match a with
  | ⟨0, _⟩ => show win0_0.index t (0 : Fin 3) * 1 + 1 * (j 0).val = t.val; have hj : (j 0).val < 1 := (j 0).isLt; omega
  | ⟨1, _⟩ => show win0_0.index t (1 : Fin 3) * 2048 + 1 * (j 1).val = (j 1).val; omega
  | ⟨2, _⟩ => show win0_0.index t (2 : Fin 3) * 1024 + 1 * (j 2).val = (j 2).val; omega

/-- The second input block at point `t` is the gate of batch `t`. -/
theorem iblk1_eq (c : Dev nD) (t : Fin cfg0.N) :
    (iblk m c 1 t : S1x2048x1024.Idx → EReal) = Cert.CausalCos.gateBlk (V m c main_arg0) (ptBatch t) := by
  funext j
  show V m c main_arg0 (((cfg0.win 1).blk t).view.emb j) = V m c main_arg0 (ix3 (ptBatch t) (j 1) (Cert.CausalCos.hi (j 2)))
  refine congrArg _ ?_
  obtain ⟨-, -, -, e0, e1, e2, -⟩ := idx_facts t
  funext a; apply Fin.ext
  match a with
  | ⟨0, _⟩ => show win0_1.index t (0 : Fin 3) * 1 + 1 * (j 0).val = t.val; have hj : (j 0).val < 1 := (j 0).isLt; omega
  | ⟨1, _⟩ => show win0_1.index t (1 : Fin 3) * 2048 + 1 * (j 1).val = (j 1).val; omega
  | ⟨2, _⟩ => show win0_1.index t (2 : Fin 3) * 1024 + 1 * (j 2).val = 1024 + (j 2).val; omega

/-- The third input block is the whole weight matrix, at every point. -/
theorem iblk2_eq (c : Dev nD) (t : Fin cfg0.N) :
    (iblk m c 2 t : S2048x2048.Idx → EReal) = V m c main_arg1 := by
  funext j
  show V m c main_arg1 (((cfg0.win 2).blk t).view.emb j) = V m c main_arg1 j
  refine congrArg _ ?_
  obtain ⟨-, -, -, -, -, -, e0, e1⟩ := idx_facts t
  funext a; apply Fin.ext
  match a with
  | ⟨0, _⟩ => show win0_2.index t (0 : Fin 2) * 2048 + 1 * (j 0).val = (j 0).val; omega
  | ⟨1, _⟩ => show win0_2.index t (1 : Fin 2) * 2048 + 1 * (j 1).val = (j 1).val; omega

end Cert.KernelIdeal.Hand

end
-- ==== Proof.OutputFromBatches.lean ====
/-
  The kernel's result array, entry by entry.

  The pipeline runs eight points, one per batch. The body at point `t` leaves a slab of 1 × 2048 × 1024 entries in the
  output window, and the pipeline writes that slab back as block `t` of the 8 × 2048 × 1024 result array. The blocks
  tile the array along its first axis, so after the run the entry at (batch `b`, row `n`, channel `d`) is the slab of
  point `b` at (0, `n`, `d`).
-/
import proofs.«167190_j11424613007992_2_alg».proof.Proof.PipelineDataIdeal
import Idealize.ShloMosaic.Lib.Pipeline.Value
import Idealize.ShloMosaic.Lib.ValueIdx

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- The grid point of batch `b`. -/
def batchPt (b : Fin 8) : Fin cfg0.N := ⟨b.val, by rw [show cfg0.N = grid0.N from rfl, N_0]; exact b.isLt⟩

/-- The output window's block index at point `t`: `t` along the batch axis, 0 along rows and along channels. -/
theorem out_index : ∀ t : Fin cfg0.N, win0_3.index t (0 : Fin 3) = t.val ∧ win0_3.index t (1 : Fin 3) = 0
    ∧ win0_3.index t (2 : Fin 3) = 0 :=
  (by decide +kernel : ∀ t : Fin grid0.N, _)

/-- The result array as one function of the index: batch `i 0` of it is the slab of that batch's point. -/
def Gout (c : Dev nD) : S8x2048x1024.Idx → Elt F .f32 := fun i =>
  outAt m c (batchPt ⟨(i 0).val, (i 0).isLt⟩)
    (ValueIdx.ix3 (0 : Fin 1) (⟨(i 1).val, (i 1).isLt⟩ : Fin 2048) (⟨(i 2).val, (i 2).isLt⟩ : Fin 1024))

/-- What point `t` writes back is block `t` of that function. -/
theorem flushed_eq (c : Dev nD) (t : Fin cfg0.N) :
    (dats m 0 c).flushed 3 t = ((cfg0.win 3).blk t).view.read (Elt F) (Gout m c) := by
  show (cfg0.win 3).cut (grid0.coords t) ((dats m 0 c).after 3 t) = _
  rw [after0_3]
  funext j
  rw [View.read_apply, cast_eq]
  have key : ∀ (t' : Fin cfg0.N) (y y' : S1x2048x1024.Idx), t' = t → y' = y → outAt m c t y = outAt m c t' y' := by
    rintro _ _ _ rfl rfl; rfl
  obtain ⟨e0, e1, e2⟩ := out_index t
  have hj0 : (j 0).val < 1 := (j 0).isLt
  unfold Gout
  refine key _ _ _ ?_ ?_
  · -- the block's first coordinate in the array is the point's number
    apply Fin.ext
    show win0_3.index t (0 : Fin 3) * 1 + 1 * (j 0).val = t.val
    omega
  · -- rows and channels are not moved, and the slab has one batch
    funext a
    apply Fin.ext
    match a with
    | ⟨0, _⟩ => show 0 = (j 0).val; omega
    | ⟨1, _⟩ => show win0_3.index t (1 : Fin 3) * 2048 + 1 * (j 1).val = (j 1).val; omega
    | ⟨2, _⟩ => show win0_3.index t (2 : Fin 3) * 1024 + 1 * (j 2).val = (j 2).val; omega

/-- An index of the result array is in point `t`'s block iff each coordinate is in the block's range on its axis. -/
theorem mem_blk (t : Fin cfg0.N) (i : S8x2048x1024.Idx) :
    i ∈ ((cfg0.win 3).blk t).view.set ↔ ∀ a : Fin 3, win0_3.index t a * S1x2048x1024.size a ≤ (i a).val
      ∧ (i a).val < win0_3.index t a * S1x2048x1024.size a + S1x2048x1024.size a := by
  show i ∈ ((View.whole main_v0).slice (win0_3.rect t)).set ↔ _
  rw [View.set_slice_whole, Rect.mem_set_unit]
  exact Iff.rfl

/-- Every index of the result array is in the block of its batch's point. -/
theorem cover (i : S8x2048x1024.Idx) :
    ∃ t : Fin cfg0.N, (cfg0.win 3).flush t = true ∧ i ∈ ((cfg0.win 3).blk t).view.set := by
  have h0 : (i 0).val < 8 := (i 0).isLt
  have h1 : (i 1).val < 2048 := (i 1).isLt
  have h2 : (i 2).val < 1024 := (i 2).isLt
  refine ⟨batchPt ⟨(i 0).val, h0⟩, flush0_3 _, ?_⟩
  rw [mem_blk]
  obtain ⟨e0, e1, e2⟩ := out_index (batchPt ⟨(i 0).val, h0⟩)
  have e0' : win0_3.index (batchPt ⟨(i 0).val, h0⟩) (0 : Fin 3) = (i 0).val := e0
  intro a
  match a with
  | ⟨0, _⟩ =>
    show win0_3.index (batchPt ⟨(i 0).val, h0⟩) (0 : Fin 3) * 1 ≤ (i 0).val
      ∧ (i 0).val < win0_3.index (batchPt ⟨(i 0).val, h0⟩) (0 : Fin 3) * 1 + 1
    omega
  | ⟨1, _⟩ =>
    show win0_3.index (batchPt ⟨(i 0).val, h0⟩) (1 : Fin 3) * 2048 ≤ (i 1).val
      ∧ (i 1).val < win0_3.index (batchPt ⟨(i 0).val, h0⟩) (1 : Fin 3) * 2048 + 2048
    omega
  | ⟨2, _⟩ =>
    show win0_3.index (batchPt ⟨(i 0).val, h0⟩) (2 : Fin 3) * 1024 ≤ (i 2).val
      ∧ (i 2).val < win0_3.index (batchPt ⟨(i 0).val, h0⟩) (2 : Fin 3) * 1024 + 1024
    omega

/-- The result array after the run is that function. -/
theorem out_array (c : Dev nD) : (dats m 0 c).arrAt 3 cfg0.N = Gout m c :=
  (dats m 0 c).arrAt_eq_of_cover 3 (Gout m c) (fun t _ => flushed_eq m c t) cover

/-- Entry (batch `b`, row `n`, channel `d`) of the result is the slab of point `b` at (0, `n`, `d`). -/
theorem out_final (c : Dev nD) (b : Fin 8) (n : Fin 2048) (d : Fin 1024) :
    (dats m 0 c).arrAt 3 cfg0.N (ValueIdx.ix3 b n d) = outAt m c (batchPt b) (ValueIdx.ix3 0 n d) := by
  rw [out_array]
  rfl

end Cert.KernelIdeal.Hand

end
-- ==== Proof.KeyBlockOps.lean ====
/-
  The vector operations of one key block, read at an index on the extended reals.

  A query block is 256 rows of 1024 channels, a key block likewise. The cosines of a query block's rows with a key
  block's rows are one matrix product, of the query block with the key block transposed: entry (r, m') is the sum over
  the channels e of q(r, e) * k(m', e). A key block's contribution is a second matrix product, of (weights times
  cosines) with the key block's rows: entry (r, d) is the sum over the key rows m' of (w(r, m') * c(r, m')) * v(m', d).
  Changing a value's number format changes nothing on the extended reals. On the diagonal block a weight is kept where
  the key row is at or before the query row and replaced by zero elsewhere; both row numbers are written as 32-bit
  words, the same offset added to each, and all of them stay far below 2^31, so comparing the words as signed numbers
  is comparing the positions in the block.
-/
import proofs.«167190_j11424613007992_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.KeyOps

open Cert.KernelIdeal Cert.KernelIdeal.Gen Idealize.ShloMosaic Idealize.ShloMosaic.ValueIdx

variable {F : FTy → Type} [FloatOps F]

/-! ## The two matrix products -/

/-- The products of every row of a query block with every row of a key block: the query block times the key block
    transposed, added to zero. -/
def cosBlock (q k : Vec F S256x1024 .bf16) : FVec F S256x256 .f32 :=
  matmul dot_S256x1024_S1024x256_S256x256_1_0_0_1_n_n none q
    (transpose S1024x256 [1, 0] k transposes_S256x1024_p1_0_S1024x256) (constant S256x256 .f32 0x00000000#32)

/-- What a key block adds: (weights times cosines), in the narrower format, times the key block's rows, added to
    zero. -/
def keyBlock (msk : Vec F S256x256 .f32) (cos : FVec F S256x256 .f32) (v : Vec F S256x1024 .bf16) :
    FVec F S256x1024 .f32 :=
  matmul dot_S256x256_S256x1024_S256x1024_1_0_0_1_n_n none (truncf .bf16 (mulf msk cos) bitsLt_bf16_f32) v
    (constant S256x1024 .f32 0x00000000#32)

/-! ### The operand indices of the first product: (r, e) on the left, (e, m') on the right -/

theorem cos_lhs0 (j : S256x256.Idx) (c : dot_S256x1024_S1024x256_S256x256_1_0_0_1_n_n.contr.Idx) :
    (dot_S256x1024_S1024x256_S256x256_1_0_0_1_n_n.lhsIdx j c 0).val = (j 0).val := by
  unfold DotDims.lhsIdx
  rw [dif_neg (show ¬(0 : Fin S256x1024.rank) ∈ dot_S256x1024_S1024x256_S256x256_1_0_0_1_n_n.lhsBatch by decide),
    dif_pos (show (0 : Fin S256x1024.rank) ∈ dot_S256x1024_S1024x256_S256x256_1_0_0_1_n_n.lhsNonContracting by decide)]
  rfl
theorem cos_lhs1 (j : S256x256.Idx) (c : dot_S256x1024_S1024x256_S256x256_1_0_0_1_n_n.contr.Idx) :
    (dot_S256x1024_S1024x256_S256x256_1_0_0_1_n_n.lhsIdx j c 1).val = (c ⟨0, by decide⟩).val :=
  dot_S256x1024_S1024x256_S256x256_1_0_0_1_n_n.lhsIdx_val_of_single rfl j c
theorem cos_rhs0 (j : S256x256.Idx) (c : dot_S256x1024_S1024x256_S256x256_1_0_0_1_n_n.contr.Idx) :
    (dot_S256x1024_S1024x256_S256x256_1_0_0_1_n_n.rhsIdx j c 0).val = (c ⟨0, by decide⟩).val :=
  dot_S256x1024_S1024x256_S256x256_1_0_0_1_n_n.rhsIdx_val_of_single rfl j c
theorem cos_rhs1 (j : S256x256.Idx) (c : dot_S256x1024_S1024x256_S256x256_1_0_0_1_n_n.contr.Idx) :
    (dot_S256x1024_S1024x256_S256x256_1_0_0_1_n_n.rhsIdx j c 1).val = (j 1).val := by
  unfold DotDims.rhsIdx
  rw [dif_neg (show ¬(1 : Fin S1024x256.rank) ∈ dot_S256x1024_S1024x256_S256x256_1_0_0_1_n_n.rhsBatch by decide),
    dif_pos (show (1 : Fin S1024x256.rank) ∈ dot_S256x1024_S1024x256_S256x256_1_0_0_1_n_n.rhsNonContracting by decide)]
  rfl

/-- Entry (r, m') of the first product is the sum over the channels of the two rows' products. -/
theorem cosBlock_apply (q k : Vec Ideal S256x1024 .bf16) (r m' : Fin 256) :
    cosBlock (F := Ideal) q k (ix2 r m') = ∑ e : Fin 1024, q (ix2 r e) * k (ix2 m' e) := by
  unfold cosBlock
  simp only [matmul]
  rw [Ideal.matmul_constant_zero_apply,
    ← Equiv.sum_comp (contrEquiv1 dot_S256x1024_S1024x256_S256x256_1_0_0_1_n_n 1024 rfl rfl).symm]
  refine Finset.sum_congr rfl fun e _ => ?_
  have hk := contrEquiv1_symm_val dot_S256x1024_S1024x256_S256x256_1_0_0_1_n_n 1024 rfl rfl e
  have el : dot_S256x1024_S1024x256_S256x256_1_0_0_1_n_n.lhsIdx (ix2 r m')
      ((contrEquiv1 dot_S256x1024_S1024x256_S256x256_1_0_0_1_n_n 1024 rfl rfl).symm e) = ix2 r e :=
    funext fun a => Fin.ext (by
      match a with
      | ⟨0, _⟩ => exact cos_lhs0 _ _
      | ⟨1, _⟩ => exact (cos_lhs1 _ _).trans hk)
  have er : dot_S256x1024_S1024x256_S256x256_1_0_0_1_n_n.rhsIdx (ix2 r m')
      ((contrEquiv1 dot_S256x1024_S1024x256_S256x256_1_0_0_1_n_n 1024 rfl rfl).symm e) = ix2 e m' :=
    funext fun a => Fin.ext (by
      match a with
      | ⟨0, _⟩ => exact (cos_rhs0 _ _).trans hk
      | ⟨1, _⟩ => exact cos_rhs1 _ _)
  rw [el, er, transpose_ix2_apply]

/-! ### The operand indices of the second product: (r, m') on the left, (m', d) on the right -/

theorem key_lhs0 (j : S256x1024.Idx) (c : dot_S256x256_S256x1024_S256x1024_1_0_0_1_n_n.contr.Idx) :
    (dot_S256x256_S256x1024_S256x1024_1_0_0_1_n_n.lhsIdx j c 0).val = (j 0).val := by
  unfold DotDims.lhsIdx
  rw [dif_neg (show ¬(0 : Fin S256x256.rank) ∈ dot_S256x256_S256x1024_S256x1024_1_0_0_1_n_n.lhsBatch by decide),
    dif_pos (show (0 : Fin S256x256.rank) ∈ dot_S256x256_S256x1024_S256x1024_1_0_0_1_n_n.lhsNonContracting by decide)]
  rfl
theorem key_lhs1 (j : S256x1024.Idx) (c : dot_S256x256_S256x1024_S256x1024_1_0_0_1_n_n.contr.Idx) :
    (dot_S256x256_S256x1024_S256x1024_1_0_0_1_n_n.lhsIdx j c 1).val = (c ⟨0, by decide⟩).val :=
  dot_S256x256_S256x1024_S256x1024_1_0_0_1_n_n.lhsIdx_val_of_single rfl j c
theorem key_rhs0 (j : S256x1024.Idx) (c : dot_S256x256_S256x1024_S256x1024_1_0_0_1_n_n.contr.Idx) :
    (dot_S256x256_S256x1024_S256x1024_1_0_0_1_n_n.rhsIdx j c 0).val = (c ⟨0, by decide⟩).val :=
  dot_S256x256_S256x1024_S256x1024_1_0_0_1_n_n.rhsIdx_val_of_single rfl j c
theorem key_rhs1 (j : S256x1024.Idx) (c : dot_S256x256_S256x1024_S256x1024_1_0_0_1_n_n.contr.Idx) :
    (dot_S256x256_S256x1024_S256x1024_1_0_0_1_n_n.rhsIdx j c 1).val = (j 1).val := by
  unfold DotDims.rhsIdx
  rw [dif_neg (show ¬(1 : Fin S256x1024.rank) ∈ dot_S256x256_S256x1024_S256x1024_1_0_0_1_n_n.rhsBatch by decide),
    dif_pos (show (1 : Fin S256x1024.rank) ∈ dot_S256x256_S256x1024_S256x1024_1_0_0_1_n_n.rhsNonContracting by decide)]
  rfl

/-- Entry (r, d) of the second product is the sum over the key rows of (weight times cosine) times the key row's
    channel d. -/
theorem keyBlock_apply (msk : Vec Ideal S256x256 .f32) (cos : FVec Ideal S256x256 .f32) (v : Vec Ideal S256x1024 .bf16)
    (r : Fin 256) (d : Fin 1024) :
    keyBlock (F := Ideal) msk cos v (ix2 r d) = ∑ m' : Fin 256, (msk (ix2 r m') * cos (ix2 r m')) * v (ix2 m' d) := by
  unfold keyBlock
  simp only [matmul]
  rw [Ideal.matmul_constant_zero_apply,
    ← Equiv.sum_comp (contrEquiv1 dot_S256x256_S256x1024_S256x1024_1_0_0_1_n_n 256 rfl rfl).symm]
  refine Finset.sum_congr rfl fun m' _ => ?_
  have hk := contrEquiv1_symm_val dot_S256x256_S256x1024_S256x1024_1_0_0_1_n_n 256 rfl rfl m'
  have el : dot_S256x256_S256x1024_S256x1024_1_0_0_1_n_n.lhsIdx (ix2 r d)
      ((contrEquiv1 dot_S256x256_S256x1024_S256x1024_1_0_0_1_n_n 256 rfl rfl).symm m') = ix2 r m' :=
    funext fun a => Fin.ext (by
      match a with
      | ⟨0, _⟩ => exact key_lhs0 _ _
      | ⟨1, _⟩ => exact (key_lhs1 _ _).trans hk)
  have er : dot_S256x256_S256x1024_S256x1024_1_0_0_1_n_n.rhsIdx (ix2 r d)
      ((contrEquiv1 dot_S256x256_S256x1024_S256x1024_1_0_0_1_n_n 256 rfl rfl).symm m') = ix2 m' d :=
    funext fun a => Fin.ext (by
      match a with
      | ⟨0, _⟩ => exact (key_rhs0 _ _).trans hk
      | ⟨1, _⟩ => exact key_rhs1 _ _)
  rw [el, er]
  rfl

/-! ## The two unit-axis casts of a stored block -/

/-- A block of one batch viewed as a matrix reads (r, d) at (0, r, d). -/
theorem dropBatch_apply (g : Vec Ideal S1x256x1024 .f32) (r : Fin 256) (d : Fin 1024) :
    shapeCast S256x1024 g shapeCasts_S1x256x1024_S256x1024 (ix2 r d) = g (ix3 0 r d) :=
  shapeCast_1ab_ab_apply g shapeCasts_S1x256x1024_S256x1024 r d

/-- A matrix stored as a block of one batch reads (0, r, d) at (r, d). -/
theorem addBatch_apply (a : FVec Ideal S256x1024 .f32) (r : Fin 256) (d : Fin 1024) :
    shapeCast S1x256x1024 a shapeCasts_S256x1024_S1x256x1024 (ix3 0 r d) = a (ix2 r d) :=
  shapeCast_ab_1ab_apply a shapeCasts_S256x1024_S1x256x1024 0 r d

/-! ## The weights of the diagonal block -/

/-- The query rows' numbers as 32-bit words: the position in the block plus the block's first row. -/
def rowIdx (off : BitVec 32) : IVec S256x256 32 :=
  addi (iota .tc S256x256 32 [0] iota_S256x256_d0_w32) (broadcast S256x256 off)

/-- The weights kept where the query row's number is at least the key row's (as signed words), zero elsewhere. -/
def diagMask (ri : IVec S256x256 32) (off : BitVec 32) (msk : Vec F S256x256 .f32) : Vec F S256x256 .f32 :=
  select (cmpi .sge ri (addi (iota .tc S256x256 32 [1] iota_S256x256_d1_w32) (broadcast S256x256 off))) msk
    (broadcast S256x256 (Scalar.ofBits .f32 0x00000000#32))

/-- Two positions below 256, each moved by the same offset of at most 1792, are below 2304 as words: nothing wraps
    and neither word is negative as a signed number, so the signed comparison of the words is the comparison of the
    positions. -/
theorem sle_add_off (off : BitVec 32) (hoff : off.toNat + 256 ≤ 2048) (r m' : Nat) (hr : r < 256) (hm : m' < 256) :
    (BitVec.ofNat 32 m' + off).sle (BitVec.ofNat 32 r + off) = decide (m' ≤ r) := by
  rw [BitVec.sle_eq_decide]
  congr 1
  rw [BitVec.toInt_eq_toNat_cond, BitVec.toInt_eq_toNat_cond]
  simp only [BitVec.toNat_add, BitVec.toNat_ofNat]
  apply propext
  omega

/-- A choice on a one-bit word that encodes a truth value is the choice on the truth value. -/
theorem select_ofBool {α : Type} (c : Bool) (a b : α) : Scalar.select (BitVec.ofBool c) a b = if c then a else b := by
  cases c <;> rfl

/-- On the diagonal block the weight at (r, m') is kept when m' ≤ r and is zero otherwise. -/
theorem diagMask_apply (off : BitVec 32) (hoff : off.toNat + 256 ≤ 2048) (msk : Vec Ideal S256x256 .f32)
    (r m' : Fin 256) :
    diagMask (F := Ideal) (rowIdx off) off msk (ix2 r m') = if m'.val ≤ r.val then msk (ix2 r m') else 0 := by
  have h0 : iota .tc S256x256 32 [0] iota_S256x256_d0_w32 (ix2 r m') = BitVec.ofNat 32 r.val :=
    iota_single_apply .tc S256x256 32 0 iota_S256x256_d0_w32 (ix2 r m')
  have h1 : iota .tc S256x256 32 [1] iota_S256x256_d1_w32 (ix2 r m') = BitVec.ofNat 32 m'.val :=
    iota_single_apply .tc S256x256 32 1 iota_S256x256_d1_w32 (ix2 r m')
  show Scalar.select
      (IntOp.cmpi .sge (IntOp.addi (iota .tc S256x256 32 [0] iota_S256x256_d0_w32 (ix2 r m')) off)
        (IntOp.addi (iota .tc S256x256 32 [1] iota_S256x256_d1_w32 (ix2 r m')) off))
      (msk (ix2 r m')) (Ideal.ofBits .f32 0x00000000#32) = _
  rw [h0, h1, Ideal.ofBits_zero_f32]
  have hc : IntOp.cmpi .sge (IntOp.addi (BitVec.ofNat 32 r.val) off) (IntOp.addi (BitVec.ofNat 32 m'.val) off)
      = BitVec.ofBool (decide (m'.val ≤ r.val)) := by
    show BitVec.ofBool ((BitVec.ofNat 32 m'.val + off).sle (BitVec.ofNat 32 r.val + off)) = _
    rw [sle_add_off off hoff r.val m'.val r.isLt m'.isLt]
  rw [hc, select_ofBool]
  by_cases h : m'.val ≤ r.val
  · rw [if_pos h, if_pos (decide_eq_true h)]
  · rw [if_neg h, if_neg (by simpa using h)]

/-! ## The two fills: every row scaled to unit length, and every row as it is -/

/-- A column of 2048 numbers written as a 2048 × 1 matrix reads row n at (n, 0). -/
theorem colCast_apply (v : FVec Ideal S2048 .f32) (n : Fin 2048) (u : Fin 1) :
    shapeCast S2048x1 v shapeCasts_S2048_S2048x1 (ix2 n u) = v (ix1 n) :=
  shapeCast_apply v shapeCasts_S2048_S2048x1 _ _ (by
    have hu : u.val = 0 := by omega
    rw [Shape.rowMajor_val_one, Shape.rowMajor_val_two]
    show n.val = n.val * 1 + u.val
    rw [hu, Nat.mul_one, Nat.add_zero])

/-- A 2048 × 1 matrix repeated along 1024 channels reads, at (n, e), its entry (n, 0). -/
theorem colBroadcast_apply (v : FVec Ideal S2048x1 .f32) (n : Fin 2048) (e : Fin 1024) :
    broadcastTo S2048x1024 v broadcasts_S2048x1_S2048x1024 (ix2 n e) = v (ix2 n (0 : Fin 1)) :=
  broadcastTo_apply v broadcasts_S2048x1_S2048x1024 _ _ fun a => match a with
    | ⟨0, _⟩ => rfl
    | ⟨1, _⟩ => rfl

/-- The sum of a matrix along its channels, started from the zero word, is at row n the sum of the row's entries. -/
theorem rowSum_apply (v : FVec Ideal S2048x1024 .f32) (n : Fin 2048) :
    multiReduction (F := Ideal) .add [1] S2048 v 0x00000000#32 reduces_S2048x1024_S2048 (.inl rfl) rfl (ix1 n)
      = ∑ e' : Fin 1024, v (ix2 n e') := by
  refine (Ideal.multiReduction_add_single v 0x00000000#32 reduces_S2048x1024_S2048 (.inl rfl) rfl (ix1 n)).trans ?_
  show ∑ k : Fin 1024, v (reduces_S2048x1024_S2048.lift (ix1 n) k) = _
  refine Finset.sum_congr rfl fun k _ => congrArg v ?_
  funext a
  match a with
  | ⟨0, _⟩ => rfl
  | ⟨1, _⟩ => rfl

/-- The reciprocal square root of a matrix is taken entry by entry. -/
theorem rsqrt_apply {s : Shape} {φ : FTy} (a : FVec Ideal s φ) (i : s.Idx) : rsqrt a i = Ideal.rsqrt (a i) := rfl

/-- The loaded batch viewed as a 2048 × 1024 matrix reads (n, e) at (0, n, e). -/
theorem rows_apply (x : Vec Ideal S1x2048x1024 .f32) (n : Fin 2048) (e : Fin 1024) :
    k0_pay2 (F := Ideal) x (ix2 n e) = x (ix3 0 n e) :=
  shapeCast_1ab_ab_apply x shapeCasts_S1x2048x1024_S2048x1024 n e

/-- The second fill is the rows as they are. -/
theorem rawRows_apply (x : Vec Ideal S1x2048x1024 .f32) (n : Fin 2048) (e : Fin 1024) :
    k0_pay4 (F := Ideal) x (ix2 n e) = x (ix3 0 n e) := by
  unfold k0_pay4
  rw [shapeCast_self, truncf_apply]
  exact rows_apply x n e

/-- The first fill is each row times the reciprocal square root of (its sum of squares plus the small constant). -/
theorem unitRows_apply (x : Vec Ideal S1x2048x1024 .f32) (n : Fin 2048) (e : Fin 1024) :
    k0_pay3 (F := Ideal) x (ix2 n e)
      = x (ix3 0 n e) * Ideal.rsqrt ((∑ e' : Fin 1024, x (ix3 0 n e') * x (ix3 0 n e'))
          + Ideal.ofBits .f32 0x322BCC77#32) := by
  unfold k0_pay3
  rw [shapeCast_self, truncf_apply, mulf_apply, rows_apply, colBroadcast_apply, rsqrt_apply, addf_apply,
    colCast_apply, rowSum_apply, broadcast_apply]
  refine congrArg (fun s : EReal => x (ix3 0 n e) * Ideal.rsqrt (s + Ideal.ofBits .f32 0x322BCC77#32)) ?_
  refine Finset.sum_congr rfl fun e' _ => ?_
  rw [mulf_apply, rows_apply]

end Cert.KernelIdeal.KeyOps

end
-- ==== Proof.CausalCosBlocks.lean ====
/-
  The block form of the result.

  The 2048 key rows are 8 blocks of 256 rows: every row number below 2048 is 256 j + m' for exactly one block j
  below 8 and one position m' below 256. So a sum over all the key rows is a sum over the blocks of the sums over the
  positions in a block. For a query row r of block i, the key row m' of block j is at or before the query row exactly
  when j < i, or j = i and m' ≤ r (because r and m' are both below 256). Hence, in the result's sum, a block j < i
  enters whole, the block j = i enters through its positions at or before r, and a block j > i has every weight zero,
  so that (zero times anything being zero on the extended reals, infinite values included) its sum is zero and it can
  be left out. What remains is the sum of the block terms over j ≤ i. Nothing here needs any value to be finite: only
  that + is commutative and associative, that a finite sum can be split, and that 0 * y = 0.

  The eight corollaries spell that sum out for i = 0, …, 7 as an accumulation from the left that starts at zero:
  ((0 + term 0) + term 1) + … + term i.
-/
import proofs.«167190_j11424613007992_2_alg».proof.Proof.CausalCosSpec
import Mathlib.Algebra.BigOperators.Fin

noncomputable section

open scoped BigOperators

namespace Cert.CausalCos

open Idealize.ShloMosaic Idealize.ShloMosaic.ValueIdx

/-! ## Rows as (block, position) pairs -/

/-- The pair (block, position) and the row number 256 * block + position determine each other: the inverse sends a
    row number m to (m / 256, m % 256). -/
def rowEquiv : Fin 8 × Fin 256 ≃ Fin 2048 where
  toFun q := row q.1 q.2
  invFun m := (⟨m.val / 256, by have := m.isLt; omega⟩, ⟨m.val % 256, by omega⟩)
  left_inv q := by
    rcases q with ⟨j, m'⟩
    have hj := j.isLt
    have hm := m'.isLt
    refine Prod.ext (Fin.ext ?_) (Fin.ext ?_)
    · show (256 * j.val + m'.val) / 256 = j.val
      omega
    · show (256 * j.val + m'.val) % 256 = m'.val
      omega
  right_inv m := by
    refine Fin.ext ?_
    show 256 * (m.val / 256) + m.val % 256 = m.val
    omega

/-- A sum over the 2048 rows is the sum over the 8 blocks of the sums over the 256 positions in a block. -/
theorem sum_rows {M : Type*} [AddCommMonoid M] (f : Fin 2048 → M) :
    ∑ m : Fin 2048, f m = ∑ j : Fin 8, ∑ m' : Fin 256, f (row j m') := by
  rw [← Equiv.sum_comp rowEquiv f, Fintype.sum_prod_type]
  rfl

/-! ## The weights on a block -/

/-- Key row m' of block j is at or before query row r of block i exactly when the key block is an earlier one, or it
    is the same block and the position is at or before r: positions are below 256, so the block number decides
    first. -/
theorem row_le_row_iff (i j : Fin 8) (r m' : Fin 256) :
    (row j m').val ≤ (row i r).val ↔ (j.val < i.val ∨ (j.val = i.val ∧ m'.val ≤ r.val)) := by
  have hr := r.isLt
  have hm := m'.isLt
  show 256 * j.val + m'.val ≤ 256 * i.val + r.val ↔ _
  omega

/-- So the weight of that key row for that query row is the matrix entry under that condition, and zero otherwise. -/
theorem tril_row (p : SM.Idx → EReal) (i j : Fin 8) (r m' : Fin 256) :
    tril p (row i r) (row j m')
      = if j.val < i.val ∨ (j.val = i.val ∧ m'.val ≤ r.val) then p (ix2 (row i r) (row j m')) else 0 := by
  unfold tril
  exact if_congr (row_le_row_iff i j r m') rfl rfl

/-- A key block at or before the query row's block contributes its block term: when j ≤ i the condition
    "j < i, or j = i and m' ≤ r" is the same as "j < i or m' ≤ r". -/
theorem inner_le (x : SX.Idx → EReal) (p : SM.Idx → EReal) (b : Fin 8) (i j : Fin 8) (r : Fin 256) (d : Fin 1024)
    (h : j.val ≤ i.val) :
    ∑ m' : Fin 256, (tril p (row i r) (row j m') * cosim x b (row i r) (row j m')) * att x b (row j m') d
      = blockTerm x p b i j r d := by
  unfold blockTerm
  refine Finset.sum_congr rfl fun m' _ => ?_
  rw [tril_row]
  have hc : (j.val < i.val ∨ (j.val = i.val ∧ m'.val ≤ r.val)) ↔ (j.val < i.val ∨ m'.val ≤ r.val) := by omega
  rw [if_congr hc rfl rfl]

/-- A key block after the query row's block contributes nothing: each of its weights is zero, and zero times any
    extended real is zero. -/
theorem inner_gt (x : SX.Idx → EReal) (p : SM.Idx → EReal) (b : Fin 8) (i j : Fin 8) (r : Fin 256) (d : Fin 1024)
    (h : i.val < j.val) :
    ∑ m' : Fin 256, (tril p (row i r) (row j m') * cosim x b (row i r) (row j m')) * att x b (row j m') d = 0 := by
  refine Finset.sum_eq_zero fun m' _ => ?_
  have hc : ¬ (j.val < i.val ∨ (j.val = i.val ∧ m'.val ≤ r.val)) := by omega
  rw [tril_row, if_neg hc, zero_mul, zero_mul]

/-! ## The result, block by block -/

/-- The result at row r of block i is the sum of the block terms of the key blocks j ≤ i, times the gate. -/
theorem Gat_blocks (x : SX.Idx → EReal) (p : SM.Idx → EReal) (b : Fin 8) (i : Fin 8) (r : Fin 256) (d : Fin 1024) :
    Gat x p b (row i r) d
      = (∑ j ∈ Finset.univ.filter (fun j : Fin 8 => j.val ≤ i.val), blockTerm x p b i j r d) * gate x b (row i r) d := by
  unfold Gat
  refine congrArg (fun s : EReal => s * gate x b (row i r) d) ?_
  rw [sum_rows, Finset.sum_filter]
  refine Finset.sum_congr rfl fun j _ => ?_
  by_cases h : j.val ≤ i.val
  · rw [if_pos h]
    exact inner_le x p b i j r d h
  · rw [if_neg h]
    exact inner_gt x p b i j r d (by omega)

/-- The same sum over the eight blocks written out, the absent blocks as zeros. -/
theorem sum_le_eight (i : Fin 8) (f : Fin 8 → EReal) :
    ∑ j ∈ Finset.univ.filter (fun j : Fin 8 => j.val ≤ i.val), f j
      = (if (0 : Fin 8).val ≤ i.val then f 0 else 0) + (if (1 : Fin 8).val ≤ i.val then f 1 else 0)
        + (if (2 : Fin 8).val ≤ i.val then f 2 else 0) + (if (3 : Fin 8).val ≤ i.val then f 3 else 0)
        + (if (4 : Fin 8).val ≤ i.val then f 4 else 0) + (if (5 : Fin 8).val ≤ i.val then f 5 else 0)
        + (if (6 : Fin 8).val ≤ i.val then f 6 else 0) + (if (7 : Fin 8).val ≤ i.val then f 7 else 0) := by
  rw [Finset.sum_filter, Fin.sum_univ_eight]

/-! ## The eight cases, as an accumulation from the left that starts at zero -/

/-- A query row of the first block: only the first key block is at or before it. -/
theorem Gat_block0 (x : SX.Idx → EReal) (p : SM.Idx → EReal) (b : Fin 8) (r : Fin 256) (d : Fin 1024) :
    Gat x p b (row 0 r) d
      = ((0 : EReal) + blockTerm x p b 0 0 r d) * gate x b (row 0 r) d := by
  rw [Gat_blocks, sum_le_eight]
  refine congrArg (fun s : EReal => s * gate x b (row 0 r) d) ?_
  rw [
    if_pos (show (0 : Fin 8).val ≤ (0 : Fin 8).val by decide), if_neg (show ¬ (1 : Fin 8).val ≤ (0 : Fin 8).val by decide),
    if_neg (show ¬ (2 : Fin 8).val ≤ (0 : Fin 8).val by decide), if_neg (show ¬ (3 : Fin 8).val ≤ (0 : Fin 8).val by decide),
    if_neg (show ¬ (4 : Fin 8).val ≤ (0 : Fin 8).val by decide), if_neg (show ¬ (5 : Fin 8).val ≤ (0 : Fin 8).val by decide),
    if_neg (show ¬ (6 : Fin 8).val ≤ (0 : Fin 8).val by decide), if_neg (show ¬ (7 : Fin 8).val ≤ (0 : Fin 8).val by decide)]
  simp only [add_zero, zero_add]

/-- A query row of the second block: the key blocks 0 to 1 are at or before it, the later ones are absent. -/
theorem Gat_block1 (x : SX.Idx → EReal) (p : SM.Idx → EReal) (b : Fin 8) (r : Fin 256) (d : Fin 1024) :
    Gat x p b (row 1 r) d
      = (((0 : EReal) + blockTerm x p b 1 0 r d) + blockTerm x p b 1 1 r d) * gate x b (row 1 r) d := by
  rw [Gat_blocks, sum_le_eight]
  refine congrArg (fun s : EReal => s * gate x b (row 1 r) d) ?_
  rw [
    if_pos (show (0 : Fin 8).val ≤ (1 : Fin 8).val by decide), if_pos (show (1 : Fin 8).val ≤ (1 : Fin 8).val by decide),
    if_neg (show ¬ (2 : Fin 8).val ≤ (1 : Fin 8).val by decide), if_neg (show ¬ (3 : Fin 8).val ≤ (1 : Fin 8).val by decide),
    if_neg (show ¬ (4 : Fin 8).val ≤ (1 : Fin 8).val by decide), if_neg (show ¬ (5 : Fin 8).val ≤ (1 : Fin 8).val by decide),
    if_neg (show ¬ (6 : Fin 8).val ≤ (1 : Fin 8).val by decide), if_neg (show ¬ (7 : Fin 8).val ≤ (1 : Fin 8).val by decide)]
  simp only [add_zero, zero_add]

/-- A query row of the third block: the key blocks 0 to 2 are at or before it, the later ones are absent. -/
theorem Gat_block2 (x : SX.Idx → EReal) (p : SM.Idx → EReal) (b : Fin 8) (r : Fin 256) (d : Fin 1024) :
    Gat x p b (row 2 r) d
      = ((((0 : EReal) + blockTerm x p b 2 0 r d) + blockTerm x p b 2 1 r d) + blockTerm x p b 2 2 r d) * gate x b (row 2 r) d := by
  rw [Gat_blocks, sum_le_eight]
  refine congrArg (fun s : EReal => s * gate x b (row 2 r) d) ?_
  rw [
    if_pos (show (0 : Fin 8).val ≤ (2 : Fin 8).val by decide), if_pos (show (1 : Fin 8).val ≤ (2 : Fin 8).val by decide),
    if_pos (show (2 : Fin 8).val ≤ (2 : Fin 8).val by decide), if_neg (show ¬ (3 : Fin 8).val ≤ (2 : Fin 8).val by decide),
    if_neg (show ¬ (4 : Fin 8).val ≤ (2 : Fin 8).val by decide), if_neg (show ¬ (5 : Fin 8).val ≤ (2 : Fin 8).val by decide),
    if_neg (show ¬ (6 : Fin 8).val ≤ (2 : Fin 8).val by decide), if_neg (show ¬ (7 : Fin 8).val ≤ (2 : Fin 8).val by decide)]
  simp only [add_zero, zero_add]

/-- A query row of the fourth block: the key blocks 0 to 3 are at or before it, the later ones are absent. -/
theorem Gat_block3 (x : SX.Idx → EReal) (p : SM.Idx → EReal) (b : Fin 8) (r : Fin 256) (d : Fin 1024) :
    Gat x p b (row 3 r) d
      = (((((0 : EReal) + blockTerm x p b 3 0 r d) + blockTerm x p b 3 1 r d) + blockTerm x p b 3 2 r d) + blockTerm x p b 3 3 r d) * gate x b (row 3 r) d := by
  rw [Gat_blocks, sum_le_eight]
  refine congrArg (fun s : EReal => s * gate x b (row 3 r) d) ?_
  rw [
    if_pos (show (0 : Fin 8).val ≤ (3 : Fin 8).val by decide), if_pos (show (1 : Fin 8).val ≤ (3 : Fin 8).val by decide),
    if_pos (show (2 : Fin 8).val ≤ (3 : Fin 8).val by decide), if_pos (show (3 : Fin 8).val ≤ (3 : Fin 8).val by decide),
    if_neg (show ¬ (4 : Fin 8).val ≤ (3 : Fin 8).val by decide), if_neg (show ¬ (5 : Fin 8).val ≤ (3 : Fin 8).val by decide),
    if_neg (show ¬ (6 : Fin 8).val ≤ (3 : Fin 8).val by decide), if_neg (show ¬ (7 : Fin 8).val ≤ (3 : Fin 8).val by decide)]
  simp only [add_zero, zero_add]

/-- A query row of the fifth block: the key blocks 0 to 4 are at or before it, the later ones are absent. -/
theorem Gat_block4 (x : SX.Idx → EReal) (p : SM.Idx → EReal) (b : Fin 8) (r : Fin 256) (d : Fin 1024) :
    Gat x p b (row 4 r) d
      = ((((((0 : EReal) + blockTerm x p b 4 0 r d) + blockTerm x p b 4 1 r d) + blockTerm x p b 4 2 r d) + blockTerm x p b 4 3 r d) + blockTerm x p b 4 4 r d) * gate x b (row 4 r) d := by
  rw [Gat_blocks, sum_le_eight]
  refine congrArg (fun s : EReal => s * gate x b (row 4 r) d) ?_
  rw [
    if_pos (show (0 : Fin 8).val ≤ (4 : Fin 8).val by decide), if_pos (show (1 : Fin 8).val ≤ (4 : Fin 8).val by decide),
    if_pos (show (2 : Fin 8).val ≤ (4 : Fin 8).val by decide), if_pos (show (3 : Fin 8).val ≤ (4 : Fin 8).val by decide),
    if_pos (show (4 : Fin 8).val ≤ (4 : Fin 8).val by decide), if_neg (show ¬ (5 : Fin 8).val ≤ (4 : Fin 8).val by decide),
    if_neg (show ¬ (6 : Fin 8).val ≤ (4 : Fin 8).val by decide), if_neg (show ¬ (7 : Fin 8).val ≤ (4 : Fin 8).val by decide)]
  simp only [add_zero, zero_add]

/-- A query row of the sixth block: the key blocks 0 to 5 are at or before it, the later ones are absent. -/
theorem Gat_block5 (x : SX.Idx → EReal) (p : SM.Idx → EReal) (b : Fin 8) (r : Fin 256) (d : Fin 1024) :
    Gat x p b (row 5 r) d
      = (((((((0 : EReal) + blockTerm x p b 5 0 r d) + blockTerm x p b 5 1 r d) + blockTerm x p b 5 2 r d) + blockTerm x p b 5 3 r d) + blockTerm x p b 5 4 r d) + blockTerm x p b 5 5 r d) * gate x b (row 5 r) d := by
  rw [Gat_blocks, sum_le_eight]
  refine congrArg (fun s : EReal => s * gate x b (row 5 r) d) ?_
  rw [
    if_pos (show (0 : Fin 8).val ≤ (5 : Fin 8).val by decide), if_pos (show (1 : Fin 8).val ≤ (5 : Fin 8).val by decide),
    if_pos (show (2 : Fin 8).val ≤ (5 : Fin 8).val by decide), if_pos (show (3 : Fin 8).val ≤ (5 : Fin 8).val by decide),
    if_pos (show (4 : Fin 8).val ≤ (5 : Fin 8).val by decide), if_pos (show (5 : Fin 8).val ≤ (5 : Fin 8).val by decide),
    if_neg (show ¬ (6 : Fin 8).val ≤ (5 : Fin 8).val by decide), if_neg (show ¬ (7 : Fin 8).val ≤ (5 : Fin 8).val by decide)]
  simp only [add_zero, zero_add]

/-- A query row of the seventh block: the key blocks 0 to 6 are at or before it, the later ones are absent. -/
theorem Gat_block6 (x : SX.Idx → EReal) (p : SM.Idx → EReal) (b : Fin 8) (r : Fin 256) (d : Fin 1024) :
    Gat x p b (row 6 r) d
      = ((((((((0 : EReal) + blockTerm x p b 6 0 r d) + blockTerm x p b 6 1 r d) + blockTerm x p b 6 2 r d) + blockTerm x p b 6 3 r d) + blockTerm x p b 6 4 r d) + blockTerm x p b 6 5 r d) + blockTerm x p b 6 6 r d) * gate x b (row 6 r) d := by
  rw [Gat_blocks, sum_le_eight]
  refine congrArg (fun s : EReal => s * gate x b (row 6 r) d) ?_
  rw [
    if_pos (show (0 : Fin 8).val ≤ (6 : Fin 8).val by decide), if_pos (show (1 : Fin 8).val ≤ (6 : Fin 8).val by decide),
    if_pos (show (2 : Fin 8).val ≤ (6 : Fin 8).val by decide), if_pos (show (3 : Fin 8).val ≤ (6 : Fin 8).val by decide),
    if_pos (show (4 : Fin 8).val ≤ (6 : Fin 8).val by decide), if_pos (show (5 : Fin 8).val ≤ (6 : Fin 8).val by decide),
    if_pos (show (6 : Fin 8).val ≤ (6 : Fin 8).val by decide), if_neg (show ¬ (7 : Fin 8).val ≤ (6 : Fin 8).val by decide)]
  simp only [add_zero, zero_add]

/-- A query row of the eighth block: the key blocks 0 to 7 are at or before it, the later ones are absent. -/
theorem Gat_block7 (x : SX.Idx → EReal) (p : SM.Idx → EReal) (b : Fin 8) (r : Fin 256) (d : Fin 1024) :
    Gat x p b (row 7 r) d
      = (((((((((0 : EReal) + blockTerm x p b 7 0 r d) + blockTerm x p b 7 1 r d) + blockTerm x p b 7 2 r d) + blockTerm x p b 7 3 r d) + blockTerm x p b 7 4 r d) + blockTerm x p b 7 5 r d) + blockTerm x p b 7 6 r d) + blockTerm x p b 7 7 r d) * gate x b (row 7 r) d := by
  rw [Gat_blocks, sum_le_eight]
  refine congrArg (fun s : EReal => s * gate x b (row 7 r) d) ?_
  rw [
    if_pos (show (0 : Fin 8).val ≤ (7 : Fin 8).val by decide), if_pos (show (1 : Fin 8).val ≤ (7 : Fin 8).val by decide),
    if_pos (show (2 : Fin 8).val ≤ (7 : Fin 8).val by decide), if_pos (show (3 : Fin 8).val ≤ (7 : Fin 8).val by decide),
    if_pos (show (4 : Fin 8).val ≤ (7 : Fin 8).val by decide), if_pos (show (5 : Fin 8).val ≤ (7 : Fin 8).val by decide),
    if_pos (show (6 : Fin 8).val ≤ (7 : Fin 8).val by decide), if_pos (show (7 : Fin 8).val ≤ (7 : Fin 8).val by decide)]
  simp only [add_zero, zero_add]

end Cert.CausalCos

end
-- ==== Proof.BatchValueIdeal.lean ====
/-
  The value of one batch, block by block.

  The two scratch slabs are filled once, from the attention operand alone: one with every row scaled to unit length,
  one with the rows as they are. Read back 256 rows at a time they are the blocks of unit rows and of raw rows; the
  weight matrix is read in 256 × 256 blocks, the gate 256 rows at a time. With these, what is stored for the query
  block i is, at row r and channel d, the sum over the key blocks j ≤ i of the block terms, accumulated from the left
  starting at zero, times the gate: the result at row 256 i + r.
-/
import proofs.«167190_j11424613007992_2_alg».proof.Proof.BatchBodyIdeal
import proofs.«167190_j11424613007992_2_alg».proof.Proof.KeyBlockOps
import proofs.«167190_j11424613007992_2_alg».proof.Proof.CausalCosBlocks
import proofs.«167190_j11424613007992_2_alg».proof.Proof.CausalCosBatch
import Idealize.ShloMosaic.Lib.WholeRead
import Idealize.ShloMosaic.Lib.Pipeline.Value
import Idealize.ShloMosaic.Lib.Pipeline.FrameBody

noncomputable section

open scoped BigOperators

namespace Cert.KernelIdeal.Hand

open Cert Cert.KernelIdeal Cert.KernelIdeal.Gen Cert.KernelIdeal.KeyOps
open Idealize.ShloMosaic Idealize.ShloMosaic.ValueIdx

/-! ## The blocks, as functions of the inputs -/

/-- Block j of the rows scaled to unit length, -/
def Ub (x : CausalCos.SX.Idx → EReal) (b : Fin 8) (j : Fin 8) : Vec Ideal S256x1024 .bf16 :=
  fun y => CausalCos.unit x b (CausalCos.row j (y 0)) (y 1)
/-- block j of the rows as they are, -/
def Vb (x : CausalCos.SX.Idx → EReal) (b : Fin 8) (j : Fin 8) : Vec Ideal S256x1024 .bf16 :=
  fun y => CausalCos.att x b (CausalCos.row j (y 0)) (y 1)
/-- block (i, j) of the weight matrix, -/
def Pb (p : CausalCos.SM.Idx → EReal) (i j : Fin 8) : Vec Ideal S256x256 .f32 :=
  fun y => p (ix2 (CausalCos.row i (y 0)) (CausalCos.row j (y 1)))
/-- and block i of the gate. -/
def Gb (x : CausalCos.SX.Idx → EReal) (b : Fin 8) (i : Fin 8) : Vec Ideal S1x256x1024 .f32 :=
  fun y => CausalCos.gate x b (CausalCos.row i (y 1)) (y 2)

theorem Ub_apply (x : CausalCos.SX.Idx → EReal) (b j : Fin 8) (r : Fin 256) (e : Fin 1024) :
    Ub x b j (ix2 r e) = CausalCos.unit x b (CausalCos.row j r) e := rfl
theorem Vb_apply (x : CausalCos.SX.Idx → EReal) (b j : Fin 8) (r : Fin 256) (e : Fin 1024) :
    Vb x b j (ix2 r e) = CausalCos.att x b (CausalCos.row j r) e := rfl
theorem Pb_apply (p : CausalCos.SM.Idx → EReal) (i j : Fin 8) (r m' : Fin 256) :
    Pb p i j (ix2 r m') = p (ix2 (CausalCos.row i r) (CausalCos.row j m')) := rfl
theorem Gb_apply (x : CausalCos.SX.Idx → EReal) (b i : Fin 8) (r : Fin 256) (d : Fin 1024) :
    Gb x b i (ix3 0 r d) = CausalCos.gate x b (CausalCos.row i r) d := rfl

/-! ## What the loads read -/

/-- A load through a rectangle of a whole slab held at the contents that read X reads X at the rectangle's
    places. -/
theorem load_unread {sp : Space} {S : Shape} {e : EltTy} (M : Memref sig .tc sp S e) (h : M.IsWhole)
    (X : S.Idx → Elt Ideal e) (R : Rect S) :
    View.readAt (Elt Ideal) M.view R.toLoadRect (h.unread X) = fun j => X (R.emb j) :=
  funext fun j => h.readAt_unread X R.toLoadRect j

/-- A load of what ONE store of the whole slab left reads that store's value at the load's places. -/
theorem readCov_whole {sp : Space} {S : Shape} {e : EltTy} (M : Memref sig .tc sp S e) (off : Fin S.rank → Nat)
    (hoff : off = fun _ => 0) (inb : ∀ a, off a + S.size a ≤ S.size a) (w : S.Idx → Elt Ideal e) (B : LoadRect S) :
    M.view.readCov [(⟨Rect.unit off S.size inb, w⟩ : View.Piece (Elt Ideal) S e)] B = fun j => w (B.idx j) := by
  rw [View.readCov_eq_canon', View.canon_unit_zero hoff]

/-- The whole load of the attention operand reads it as it is. -/
theorem load_att (M1 : Memref sig .tc .vmem S1x2048x1024 .f32) (h1 : M1.IsWhole) (x : CausalCos.SX.Idx → EReal) (b : Fin 8) :
    View.readAt (Elt Ideal) M1.view
      (Rect.unit (s := S1x2048x1024) ![0, 0, 0] S1x2048x1024.size inb_S1x2048x1024_S1x2048x1024_0_0_0).toLoadRect
      (h1.unread (CausalCos.attBlk x b)) = CausalCos.attBlk x b := by
  have h0 : (![0, 0, 0] : Fin S1x2048x1024.rank → Nat) = fun _ => 0 := by
    funext a
    match a with
    | ⟨0, _⟩ => rfl
    | ⟨1, _⟩ => rfl
    | ⟨2, _⟩ => rfl
  rw [load_unread]
  exact View.ld_unit_zero (Val := Elt Ideal) (S := S1x2048x1024) (e := .f32) h0 inb_S1x2048x1024_S1x2048x1024_0_0_0
    (CausalCos.attBlk x b)

/-- The two-axis offsets at zero, however spelt. -/
theorem zero2 : (![0, 0] : Fin S2048x1024.rank → Nat) = fun _ => 0 := by
  funext a
  match a with
  | ⟨0, _⟩ => rfl
  | ⟨1, _⟩ => rfl

/-- Rows 256 j to 256 j + 255 of the first scratch slab are block j of the unit rows. -/
theorem unit_block (c : Dev nD) (M1 : Memref sig .tc .vmem S1x2048x1024 .f32) (h1 : M1.IsWhole)
    (M5 : Memref sig .tc .vmem S2048x1024 .bf16) (x : CausalCos.SX.Idx → EReal) (b : Fin 8) (j : Fin 8) (o : Nat)
    (ho : o = 256 * j.val) (inb : ∀ a, (![o, 0] : Fin 2 → Nat) a + S256x1024.size a ≤ S2048x1024.size a) :
    M5.view.readCov (batchRun.sl.H5_1 (F := Ideal) c M1 (h1.unread (CausalCos.attBlk x b)))
      (Rect.unit (s := S2048x1024) ![o, 0] S256x1024.size inb).toLoadRect = Ub x b j := by
  unfold batchRun.sl.H5_1
  rw [load_att, readCov_whole M5 _ zero2]
  funext y
  obtain ⟨r, e, rfl⟩ : ∃ (r : Fin 256) (e : Fin 1024), y = ix2 r e := ⟨y 0, y 1, eq_ix2 y⟩
  have hidx : (Rect.unit (s := S2048x1024) ![o, 0] S256x1024.size inb).toLoadRect.idx (ix2 r e) = ix2 (CausalCos.row j r) e := by
    funext a
    apply Fin.ext
    match a with
    | ⟨0, _⟩ => show o + 1 * r.val = 256 * j.val + r.val; omega
    | ⟨1, _⟩ => show 0 + 1 * e.val = e.val; omega
  rw [hidx, unitRows_apply]
  rfl

/-- Rows 256 j to 256 j + 255 of the second scratch slab are block j of the rows as they are. -/
theorem raw_block (c : Dev nD) (M1 : Memref sig .tc .vmem S1x2048x1024 .f32) (h1 : M1.IsWhole)
    (M6 : Memref sig .tc .vmem S2048x1024 .bf16) (x : CausalCos.SX.Idx → EReal) (b : Fin 8) (j : Fin 8) (o : Nat)
    (ho : o = 256 * j.val) (inb : ∀ a, (![o, 0] : Fin 2 → Nat) a + S256x1024.size a ≤ S2048x1024.size a) :
    M6.view.readCov (batchRun.sl.H6_1 (F := Ideal) c M1 (h1.unread (CausalCos.attBlk x b)))
      (Rect.unit (s := S2048x1024) ![o, 0] S256x1024.size inb).toLoadRect = Vb x b j := by
  unfold batchRun.sl.H6_1
  rw [load_att, readCov_whole M6 _ zero2]
  funext y
  obtain ⟨r, e, rfl⟩ : ∃ (r : Fin 256) (e : Fin 1024), y = ix2 r e := ⟨y 0, y 1, eq_ix2 y⟩
  have hidx : (Rect.unit (s := S2048x1024) ![o, 0] S256x1024.size inb).toLoadRect.idx (ix2 r e) = ix2 (CausalCos.row j r) e := by
    funext a
    apply Fin.ext
    match a with
    | ⟨0, _⟩ => show o + 1 * r.val = 256 * j.val + r.val; omega
    | ⟨1, _⟩ => show 0 + 1 * e.val = e.val; omega
  rw [hidx, rawRows_apply]
  rfl

/-- The 256 × 256 block of the weight matrix at rows from 256 i and columns from 256 j is block (i, j). -/
theorem mask_block (M3 : Memref sig .tc .vmem S2048x2048 .f32) (h3 : M3.IsWhole) (p : CausalCos.SM.Idx → EReal)
    (i j : Fin 8) (oi oj : Nat) (hi : oi = 256 * i.val) (hj : oj = 256 * j.val)
    (inb : ∀ a, (![oi, oj] : Fin 2 → Nat) a + S256x256.size a ≤ S2048x2048.size a) :
    View.readAt (Elt Ideal) M3.view (Rect.unit (s := S2048x2048) ![oi, oj] S256x256.size inb).toLoadRect (h3.unread p) = Pb p i j := by
  rw [load_unread]
  funext y
  obtain ⟨r, m', rfl⟩ : ∃ (r m' : Fin 256), y = ix2 r m' := ⟨y 0, y 1, eq_ix2 y⟩
  refine congrArg p ?_
  funext a
  apply Fin.ext
  match a with
  | ⟨0, _⟩ => show oi + 1 * r.val = 256 * i.val + r.val; omega
  | ⟨1, _⟩ => show oj + 1 * m'.val = 256 * j.val + m'.val; omega

/-- The 256 rows of the gate from row 256 i are block i of the gate. -/
theorem gate_block (M2 : Memref sig .tc .vmem S1x2048x1024 .f32) (h2 : M2.IsWhole) (x : CausalCos.SX.Idx → EReal)
    (b : Fin 8) (i : Fin 8) (o : Nat) (ho : o = 256 * i.val)
    (inb : ∀ a, (![0, o, 0] : Fin 3 → Nat) a + S1x256x1024.size a ≤ S1x2048x1024.size a) :
    View.readAt (Elt Ideal) M2.view (Rect.unit (s := S1x2048x1024) ![0, o, 0] S1x256x1024.size inb).toLoadRect
      (h2.unread (CausalCos.gateBlk x b)) = Gb x b i := by
  rw [load_unread]
  funext y
  obtain ⟨u, r, d, rfl⟩ : ∃ (u : Fin 1) (r : Fin 256) (d : Fin 1024), y = ix3 u r d := ⟨y 0, y 1, y 2, eq_ix3 y⟩
  refine (congrArg (CausalCos.gateBlk x b) (?_ : _ = ix3 (0 : Fin 1) (CausalCos.row i r) d)).trans rfl
  funext a
  apply Fin.ext
  match a with
  | ⟨0, _⟩ => show 0 + 1 * u.val = 0; omega
  | ⟨1, _⟩ => show o + 1 * r.val = 256 * i.val + r.val; omega
  | ⟨2, _⟩ => show 0 + 1 * d.val = d.val; omega

/-! ## One key block's term -/

/-- A key block strictly before the query block adds its block term. -/
theorem offTerm (x : CausalCos.SX.Idx → EReal) (p : CausalCos.SM.Idx → EReal) (b : Fin 8) (i j : Fin 8)
    (hji : j.val < i.val) (r : Fin 256) (d : Fin 1024) :
    matmul (F := Ideal) (φ₁ := .bf16) (φ₂ := .bf16) dot_S256x256_S256x1024_S256x1024_1_0_0_1_n_n none
        (truncf .bf16 (mulf (Pb p i j)
          (matmul (F := Ideal) (φ₁ := .bf16) (φ₂ := .bf16) dot_S256x1024_S1024x256_S256x256_1_0_0_1_n_n none (Ub x b i)
            (transpose S1024x256 [1, 0] (Ub x b j) transposes_S256x1024_p1_0_S1024x256)
            (constant S256x256 .f32 0x00000000#32))) bitsLt_bf16_f32)
        (Vb x b j) (constant S256x1024 .f32 0x00000000#32) (ix2 r d)
      = CausalCos.blockTerm x p b i j r d := by
  refine (keyBlock_apply (Pb p i j) (cosBlock (Ub x b i) (Ub x b j)) (Vb x b j) r d).trans ?_
  unfold CausalCos.blockTerm
  refine Finset.sum_congr rfl fun m' _ => ?_
  rw [cosBlock_apply, if_pos (Or.inl hji)]
  rfl

/-- The query block's own key block adds its block term: of its weights only those at or before the query row are
    kept. -/
theorem diagTerm (x : CausalCos.SX.Idx → EReal) (p : CausalCos.SM.Idx → EReal) (b : Fin 8) (i : Fin 8)
    (off : BitVec 32) (hoff : off.toNat + 256 ≤ 2048) (r : Fin 256) (d : Fin 1024) :
    matmul (F := Ideal) (φ₁ := .bf16) (φ₂ := .bf16) dot_S256x256_S256x1024_S256x1024_1_0_0_1_n_n none
        (truncf .bf16 (mulf
          (select (cmpi .sge (addi (iota .tc S256x256 32 [0] iota_S256x256_d0_w32) (broadcast S256x256 off))
              (addi (iota .tc S256x256 32 [1] iota_S256x256_d1_w32) (broadcast S256x256 off)))
            (Pb p i i) (broadcast S256x256 (Scalar.ofBits (F := Ideal) .f32 0x00000000#32)))
          (matmul (F := Ideal) (φ₁ := .bf16) (φ₂ := .bf16) dot_S256x1024_S1024x256_S256x256_1_0_0_1_n_n none (Ub x b i)
            (transpose S1024x256 [1, 0] (Ub x b i) transposes_S256x1024_p1_0_S1024x256)
            (constant S256x256 .f32 0x00000000#32))) bitsLt_bf16_f32)
        (Vb x b i) (constant S256x1024 .f32 0x00000000#32) (ix2 r d)
      = CausalCos.blockTerm x p b i i r d := by
  refine (keyBlock_apply (diagMask (rowIdx off) off (Pb p i i)) (cosBlock (Ub x b i) (Ub x b i)) (Vb x b i) r d).trans ?_
  unfold CausalCos.blockTerm
  refine Finset.sum_congr rfl fun m' _ => ?_
  have hc : (i.val < i.val ∨ m'.val ≤ r.val) ↔ m'.val ≤ r.val := by omega
  rw [cosBlock_apply, diagMask_apply off hoff, if_congr hc rfl rfl]
  rfl

/-- The accumulation starts from zero. -/
theorem zero_word : Scalar.ofBits (F := Ideal) .f32 0x00000000#32 = (0 : EReal) := Ideal.ofBits_zero_f32

/-! ## The named reads of the two scratch slabs, the weight blocks and the gate blocks -/

theorem u0 (c : Dev nD) (M1 : Memref sig .tc .vmem S1x2048x1024 .f32) (h1 : M1.IsWhole) (M5 : Memref sig .tc .vmem S2048x1024 .bf16)
    (x : CausalCos.SX.Idx → EReal) (b : Fin 8) :
    batchRun.sl.v18 (F := Ideal) c M1 M5 (h1.unread (CausalCos.attBlk x b)) = Ub x b 0 :=
  unit_block c M1 h1 M5 x b 0 0 rfl _
theorem w0 (c : Dev nD) (M1 : Memref sig .tc .vmem S1x2048x1024 .f32) (h1 : M1.IsWhole) (M6 : Memref sig .tc .vmem S2048x1024 .bf16)
    (x : CausalCos.SX.Idx → EReal) (b : Fin 8) :
    batchRun.sl.v24 (F := Ideal) c M1 M6 (h1.unread (CausalCos.attBlk x b)) = Vb x b 0 :=
  raw_block c M1 h1 M6 x b 0 0 rfl _
theorem g0 (M2 : Memref sig .tc .vmem S1x2048x1024 .f32) (h2 : M2.IsWhole) (x : CausalCos.SX.Idx → EReal) (b : Fin 8) :
    View.readAt (Elt Ideal) M2.view
      (Rect.unit (s := S1x2048x1024) ![0, 0, 0] S1x256x1024.size inb_S1x2048x1024_S1x256x1024_0_0_0).toLoadRect
      (h2.unread (CausalCos.gateBlk x b)) = Gb x b 0 :=
  gate_block M2 h2 x b 0 0 rfl _
theorem u1 (c : Dev nD) (M1 : Memref sig .tc .vmem S1x2048x1024 .f32) (h1 : M1.IsWhole) (M5 : Memref sig .tc .vmem S2048x1024 .bf16)
    (x : CausalCos.SX.Idx → EReal) (b : Fin 8) :
    batchRun.sl.v44 (F := Ideal) c M1 M5 (h1.unread (CausalCos.attBlk x b)) = Ub x b 1 :=
  unit_block c M1 h1 M5 x b 1 256 rfl _
theorem w1 (c : Dev nD) (M1 : Memref sig .tc .vmem S1x2048x1024 .f32) (h1 : M1.IsWhole) (M6 : Memref sig .tc .vmem S2048x1024 .bf16)
    (x : CausalCos.SX.Idx → EReal) (b : Fin 8) :
    batchRun.sl.v59 (F := Ideal) c M1 M6 (h1.unread (CausalCos.attBlk x b)) = Vb x b 1 :=
  raw_block c M1 h1 M6 x b 1 256 rfl _
theorem g1 (M2 : Memref sig .tc .vmem S1x2048x1024 .f32) (h2 : M2.IsWhole) (x : CausalCos.SX.Idx → EReal) (b : Fin 8) :
    View.readAt (Elt Ideal) M2.view
      (Rect.unit (s := S1x2048x1024) ![0, 256, 0] S1x256x1024.size inb_S1x2048x1024_S1x256x1024_0_256_0).toLoadRect
      (h2.unread (CausalCos.gateBlk x b)) = Gb x b 1 :=
  gate_block M2 h2 x b 1 256 rfl _
theorem u2 (c : Dev nD) (M1 : Memref sig .tc .vmem S1x2048x1024 .f32) (h1 : M1.IsWhole) (M5 : Memref sig .tc .vmem S2048x1024 .bf16)
    (x : CausalCos.SX.Idx → EReal) (b : Fin 8) :
    batchRun.sl.v79 (F := Ideal) c M1 M5 (h1.unread (CausalCos.attBlk x b)) = Ub x b 2 :=
  unit_block c M1 h1 M5 x b 2 512 rfl _
theorem w2 (c : Dev nD) (M1 : Memref sig .tc .vmem S1x2048x1024 .f32) (h1 : M1.IsWhole) (M6 : Memref sig .tc .vmem S2048x1024 .bf16)
    (x : CausalCos.SX.Idx → EReal) (b : Fin 8) :
    batchRun.sl.v103 (F := Ideal) c M1 M6 (h1.unread (CausalCos.attBlk x b)) = Vb x b 2 :=
  raw_block c M1 h1 M6 x b 2 512 rfl _
theorem g2 (M2 : Memref sig .tc .vmem S1x2048x1024 .f32) (h2 : M2.IsWhole) (x : CausalCos.SX.Idx → EReal) (b : Fin 8) :
    View.readAt (Elt Ideal) M2.view
      (Rect.unit (s := S1x2048x1024) ![0, 512, 0] S1x256x1024.size inb_S1x2048x1024_S1x256x1024_0_512_0).toLoadRect
      (h2.unread (CausalCos.gateBlk x b)) = Gb x b 2 :=
  gate_block M2 h2 x b 2 512 rfl _
theorem u3 (c : Dev nD) (M1 : Memref sig .tc .vmem S1x2048x1024 .f32) (h1 : M1.IsWhole) (M5 : Memref sig .tc .vmem S2048x1024 .bf16)
    (x : CausalCos.SX.Idx → EReal) (b : Fin 8) :
    batchRun.sl.v123 (F := Ideal) c M1 M5 (h1.unread (CausalCos.attBlk x b)) = Ub x b 3 :=
  unit_block c M1 h1 M5 x b 3 768 rfl _
theorem w3 (c : Dev nD) (M1 : Memref sig .tc .vmem S1x2048x1024 .f32) (h1 : M1.IsWhole) (M6 : Memref sig .tc .vmem S2048x1024 .bf16)
    (x : CausalCos.SX.Idx → EReal) (b : Fin 8) :
    batchRun.sl.v156 (F := Ideal) c M1 M6 (h1.unread (CausalCos.attBlk x b)) = Vb x b 3 :=
  raw_block c M1 h1 M6 x b 3 768 rfl _
theorem g3 (M2 : Memref sig .tc .vmem S1x2048x1024 .f32) (h2 : M2.IsWhole) (x : CausalCos.SX.Idx → EReal) (b : Fin 8) :
    View.readAt (Elt Ideal) M2.view
      (Rect.unit (s := S1x2048x1024) ![0, 768, 0] S1x256x1024.size inb_S1x2048x1024_S1x256x1024_0_768_0).toLoadRect
      (h2.unread (CausalCos.gateBlk x b)) = Gb x b 3 :=
  gate_block M2 h2 x b 3 768 rfl _
theorem u4 (c : Dev nD) (M1 : Memref sig .tc .vmem S1x2048x1024 .f32) (h1 : M1.IsWhole) (M5 : Memref sig .tc .vmem S2048x1024 .bf16)
    (x : CausalCos.SX.Idx → EReal) (b : Fin 8) :
    batchRun.sl.v176 (F := Ideal) c M1 M5 (h1.unread (CausalCos.attBlk x b)) = Ub x b 4 :=
  unit_block c M1 h1 M5 x b 4 1024 rfl _
theorem w4 (c : Dev nD) (M1 : Memref sig .tc .vmem S1x2048x1024 .f32) (h1 : M1.IsWhole) (M6 : Memref sig .tc .vmem S2048x1024 .bf16)
    (x : CausalCos.SX.Idx → EReal) (b : Fin 8) :
    batchRun.sl.v218 (F := Ideal) c M1 M6 (h1.unread (CausalCos.attBlk x b)) = Vb x b 4 :=
  raw_block c M1 h1 M6 x b 4 1024 rfl _
theorem g4 (M2 : Memref sig .tc .vmem S1x2048x1024 .f32) (h2 : M2.IsWhole) (x : CausalCos.SX.Idx → EReal) (b : Fin 8) :
    View.readAt (Elt Ideal) M2.view
      (Rect.unit (s := S1x2048x1024) ![0, 1024, 0] S1x256x1024.size inb_S1x2048x1024_S1x256x1024_0_1024_0).toLoadRect
      (h2.unread (CausalCos.gateBlk x b)) = Gb x b 4 :=
  gate_block M2 h2 x b 4 1024 rfl _
theorem u5 (c : Dev nD) (M1 : Memref sig .tc .vmem S1x2048x1024 .f32) (h1 : M1.IsWhole) (M5 : Memref sig .tc .vmem S2048x1024 .bf16)
    (x : CausalCos.SX.Idx → EReal) (b : Fin 8) :
    batchRun.sl.v238 (F := Ideal) c M1 M5 (h1.unread (CausalCos.attBlk x b)) = Ub x b 5 :=
  unit_block c M1 h1 M5 x b 5 1280 rfl _
theorem w5 (c : Dev nD) (M1 : Memref sig .tc .vmem S1x2048x1024 .f32) (h1 : M1.IsWhole) (M6 : Memref sig .tc .vmem S2048x1024 .bf16)
    (x : CausalCos.SX.Idx → EReal) (b : Fin 8) :
    batchRun.sl.v289 (F := Ideal) c M1 M6 (h1.unread (CausalCos.attBlk x b)) = Vb x b 5 :=
  raw_block c M1 h1 M6 x b 5 1280 rfl _
theorem g5 (M2 : Memref sig .tc .vmem S1x2048x1024 .f32) (h2 : M2.IsWhole) (x : CausalCos.SX.Idx → EReal) (b : Fin 8) :
    View.readAt (Elt Ideal) M2.view
      (Rect.unit (s := S1x2048x1024) ![0, 1280, 0] S1x256x1024.size inb_S1x2048x1024_S1x256x1024_0_1280_0).toLoadRect
      (h2.unread (CausalCos.gateBlk x b)) = Gb x b 5 :=
  gate_block M2 h2 x b 5 1280 rfl _
theorem u6 (c : Dev nD) (M1 : Memref sig .tc .vmem S1x2048x1024 .f32) (h1 : M1.IsWhole) (M5 : Memref sig .tc .vmem S2048x1024 .bf16)
    (x : CausalCos.SX.Idx → EReal) (b : Fin 8) :
    batchRun.sl.v309 (F := Ideal) c M1 M5 (h1.unread (CausalCos.attBlk x b)) = Ub x b 6 :=
  unit_block c M1 h1 M5 x b 6 1536 rfl _
theorem w6 (c : Dev nD) (M1 : Memref sig .tc .vmem S1x2048x1024 .f32) (h1 : M1.IsWhole) (M6 : Memref sig .tc .vmem S2048x1024 .bf16)
    (x : CausalCos.SX.Idx → EReal) (b : Fin 8) :
    batchRun.sl.v369 (F := Ideal) c M1 M6 (h1.unread (CausalCos.attBlk x b)) = Vb x b 6 :=
  raw_block c M1 h1 M6 x b 6 1536 rfl _
theorem g6 (M2 : Memref sig .tc .vmem S1x2048x1024 .f32) (h2 : M2.IsWhole) (x : CausalCos.SX.Idx → EReal) (b : Fin 8) :
    View.readAt (Elt Ideal) M2.view
      (Rect.unit (s := S1x2048x1024) ![0, 1536, 0] S1x256x1024.size inb_S1x2048x1024_S1x256x1024_0_1536_0).toLoadRect
      (h2.unread (CausalCos.gateBlk x b)) = Gb x b 6 :=
  gate_block M2 h2 x b 6 1536 rfl _
theorem u7 (c : Dev nD) (M1 : Memref sig .tc .vmem S1x2048x1024 .f32) (h1 : M1.IsWhole) (M5 : Memref sig .tc .vmem S2048x1024 .bf16)
    (x : CausalCos.SX.Idx → EReal) (b : Fin 8) :
    batchRun.sl.v389 (F := Ideal) c M1 M5 (h1.unread (CausalCos.attBlk x b)) = Ub x b 7 :=
  unit_block c M1 h1 M5 x b 7 1792 rfl _
theorem w7 (c : Dev nD) (M1 : Memref sig .tc .vmem S1x2048x1024 .f32) (h1 : M1.IsWhole) (M6 : Memref sig .tc .vmem S2048x1024 .bf16)
    (x : CausalCos.SX.Idx → EReal) (b : Fin 8) :
    batchRun.sl.v458 (F := Ideal) c M1 M6 (h1.unread (CausalCos.attBlk x b)) = Vb x b 7 :=
  raw_block c M1 h1 M6 x b 7 1792 rfl _
theorem g7 (M2 : Memref sig .tc .vmem S1x2048x1024 .f32) (h2 : M2.IsWhole) (x : CausalCos.SX.Idx → EReal) (b : Fin 8) :
    View.readAt (Elt Ideal) M2.view
      (Rect.unit (s := S1x2048x1024) ![0, 1792, 0] S1x256x1024.size inb_S1x2048x1024_S1x256x1024_0_1792_0).toLoadRect
      (h2.unread (CausalCos.gateBlk x b)) = Gb x b 7 :=
  gate_block M2 h2 x b 7 1792 rfl _
theorem m0_0 (M3 : Memref sig .tc .vmem S2048x2048 .f32) (h3 : M3.IsWhole) (p : CausalCos.SM.Idx → EReal) :
    View.readAt (Elt Ideal) M3.view
      (Rect.unit (s := S2048x2048) ![0, 0] S256x256.size inb_S2048x2048_S256x256_0_0).toLoadRect (h3.unread p)
      = Pb p 0 0 :=
  mask_block M3 h3 p 0 0 0 0 rfl rfl _
theorem m1_0 (M3 : Memref sig .tc .vmem S2048x2048 .f32) (h3 : M3.IsWhole) (p : CausalCos.SM.Idx → EReal) :
    View.readAt (Elt Ideal) M3.view
      (Rect.unit (s := S2048x2048) ![256, 0] S256x256.size inb_S2048x2048_S256x256_256_0).toLoadRect (h3.unread p)
      = Pb p 1 0 :=
  mask_block M3 h3 p 1 0 256 0 rfl rfl _
theorem m1_1 (M3 : Memref sig .tc .vmem S2048x2048 .f32) (h3 : M3.IsWhole) (p : CausalCos.SM.Idx → EReal) :
    View.readAt (Elt Ideal) M3.view
      (Rect.unit (s := S2048x2048) ![256, 256] S256x256.size inb_S2048x2048_S256x256_256_256).toLoadRect (h3.unread p)
      = Pb p 1 1 :=
  mask_block M3 h3 p 1 1 256 256 rfl rfl _
theorem m2_0 (M3 : Memref sig .tc .vmem S2048x2048 .f32) (h3 : M3.IsWhole) (p : CausalCos.SM.Idx → EReal) :
    View.readAt (Elt Ideal) M3.view
      (Rect.unit (s := S2048x2048) ![512, 0] S256x256.size inb_S2048x2048_S256x256_512_0).toLoadRect (h3.unread p)
      = Pb p 2 0 :=
  mask_block M3 h3 p 2 0 512 0 rfl rfl _
theorem m2_1 (M3 : Memref sig .tc .vmem S2048x2048 .f32) (h3 : M3.IsWhole) (p : CausalCos.SM.Idx → EReal) :
    View.readAt (Elt Ideal) M3.view
      (Rect.unit (s := S2048x2048) ![512, 256] S256x256.size inb_S2048x2048_S256x256_512_256).toLoadRect (h3.unread p)
      = Pb p 2 1 :=
  mask_block M3 h3 p 2 1 512 256 rfl rfl _
theorem m2_2 (M3 : Memref sig .tc .vmem S2048x2048 .f32) (h3 : M3.IsWhole) (p : CausalCos.SM.Idx → EReal) :
    View.readAt (Elt Ideal) M3.view
      (Rect.unit (s := S2048x2048) ![512, 512] S256x256.size inb_S2048x2048_S256x256_512_512).toLoadRect (h3.unread p)
      = Pb p 2 2 :=
  mask_block M3 h3 p 2 2 512 512 rfl rfl _
theorem m3_0 (M3 : Memref sig .tc .vmem S2048x2048 .f32) (h3 : M3.IsWhole) (p : CausalCos.SM.Idx → EReal) :
    View.readAt (Elt Ideal) M3.view
      (Rect.unit (s := S2048x2048) ![768, 0] S256x256.size inb_S2048x2048_S256x256_768_0).toLoadRect (h3.unread p)
      = Pb p 3 0 :=
  mask_block M3 h3 p 3 0 768 0 rfl rfl _
theorem m3_1 (M3 : Memref sig .tc .vmem S2048x2048 .f32) (h3 : M3.IsWhole) (p : CausalCos.SM.Idx → EReal) :
    View.readAt (Elt Ideal) M3.view
      (Rect.unit (s := S2048x2048) ![768, 256] S256x256.size inb_S2048x2048_S256x256_768_256).toLoadRect (h3.unread p)
      = Pb p 3 1 :=
  mask_block M3 h3 p 3 1 768 256 rfl rfl _
theorem m3_2 (M3 : Memref sig .tc .vmem S2048x2048 .f32) (h3 : M3.IsWhole) (p : CausalCos.SM.Idx → EReal) :
    View.readAt (Elt Ideal) M3.view
      (Rect.unit (s := S2048x2048) ![768, 512] S256x256.size inb_S2048x2048_S256x256_768_512).toLoadRect (h3.unread p)
      = Pb p 3 2 :=
  mask_block M3 h3 p 3 2 768 512 rfl rfl _
theorem m3_3 (M3 : Memref sig .tc .vmem S2048x2048 .f32) (h3 : M3.IsWhole) (p : CausalCos.SM.Idx → EReal) :
    View.readAt (Elt Ideal) M3.view
      (Rect.unit (s := S2048x2048) ![768, 768] S256x256.size inb_S2048x2048_S256x256_768_768).toLoadRect (h3.unread p)
      = Pb p 3 3 :=
  mask_block M3 h3 p 3 3 768 768 rfl rfl _
theorem m4_0 (M3 : Memref sig .tc .vmem S2048x2048 .f32) (h3 : M3.IsWhole) (p : CausalCos.SM.Idx → EReal) :
    View.readAt (Elt Ideal) M3.view
      (Rect.unit (s := S2048x2048) ![1024, 0] S256x256.size inb_S2048x2048_S256x256_1024_0).toLoadRect (h3.unread p)
      = Pb p 4 0 :=
  mask_block M3 h3 p 4 0 1024 0 rfl rfl _
theorem m4_1 (M3 : Memref sig .tc .vmem S2048x2048 .f32) (h3 : M3.IsWhole) (p : CausalCos.SM.Idx → EReal) :
    View.readAt (Elt Ideal) M3.view
      (Rect.unit (s := S2048x2048) ![1024, 256] S256x256.size inb_S2048x2048_S256x256_1024_256).toLoadRect (h3.unread p)
      = Pb p 4 1 :=
  mask_block M3 h3 p 4 1 1024 256 rfl rfl _
theorem m4_2 (M3 : Memref sig .tc .vmem S2048x2048 .f32) (h3 : M3.IsWhole) (p : CausalCos.SM.Idx → EReal) :
    View.readAt (Elt Ideal) M3.view
      (Rect.unit (s := S2048x2048) ![1024, 512] S256x256.size inb_S2048x2048_S256x256_1024_512).toLoadRect (h3.unread p)
      = Pb p 4 2 :=
  mask_block M3 h3 p 4 2 1024 512 rfl rfl _
theorem m4_3 (M3 : Memref sig .tc .vmem S2048x2048 .f32) (h3 : M3.IsWhole) (p : CausalCos.SM.Idx → EReal) :
    View.readAt (Elt Ideal) M3.view
      (Rect.unit (s := S2048x2048) ![1024, 768] S256x256.size inb_S2048x2048_S256x256_1024_768).toLoadRect (h3.unread p)
      = Pb p 4 3 :=
  mask_block M3 h3 p 4 3 1024 768 rfl rfl _
theorem m4_4 (M3 : Memref sig .tc .vmem S2048x2048 .f32) (h3 : M3.IsWhole) (p : CausalCos.SM.Idx → EReal) :
    View.readAt (Elt Ideal) M3.view
      (Rect.unit (s := S2048x2048) ![1024, 1024] S256x256.size inb_S2048x2048_S256x256_1024_1024).toLoadRect (h3.unread p)
      = Pb p 4 4 :=
  mask_block M3 h3 p 4 4 1024 1024 rfl rfl _
theorem m5_0 (M3 : Memref sig .tc .vmem S2048x2048 .f32) (h3 : M3.IsWhole) (p : CausalCos.SM.Idx → EReal) :
    View.readAt (Elt Ideal) M3.view
      (Rect.unit (s := S2048x2048) ![1280, 0] S256x256.size inb_S2048x2048_S256x256_1280_0).toLoadRect (h3.unread p)
      = Pb p 5 0 :=
  mask_block M3 h3 p 5 0 1280 0 rfl rfl _
theorem m5_1 (M3 : Memref sig .tc .vmem S2048x2048 .f32) (h3 : M3.IsWhole) (p : CausalCos.SM.Idx → EReal) :
    View.readAt (Elt Ideal) M3.view
      (Rect.unit (s := S2048x2048) ![1280, 256] S256x256.size inb_S2048x2048_S256x256_1280_256).toLoadRect (h3.unread p)
      = Pb p 5 1 :=
  mask_block M3 h3 p 5 1 1280 256 rfl rfl _
theorem m5_2 (M3 : Memref sig .tc .vmem S2048x2048 .f32) (h3 : M3.IsWhole) (p : CausalCos.SM.Idx → EReal) :
    View.readAt (Elt Ideal) M3.view
      (Rect.unit (s := S2048x2048) ![1280, 512] S256x256.size inb_S2048x2048_S256x256_1280_512).toLoadRect (h3.unread p)
      = Pb p 5 2 :=
  mask_block M3 h3 p 5 2 1280 512 rfl rfl _
theorem m5_3 (M3 : Memref sig .tc .vmem S2048x2048 .f32) (h3 : M3.IsWhole) (p : CausalCos.SM.Idx → EReal) :
    View.readAt (Elt Ideal) M3.view
      (Rect.unit (s := S2048x2048) ![1280, 768] S256x256.size inb_S2048x2048_S256x256_1280_768).toLoadRect (h3.unread p)
      = Pb p 5 3 :=
  mask_block M3 h3 p 5 3 1280 768 rfl rfl _
theorem m5_4 (M3 : Memref sig .tc .vmem S2048x2048 .f32) (h3 : M3.IsWhole) (p : CausalCos.SM.Idx → EReal) :
    View.readAt (Elt Ideal) M3.view
      (Rect.unit (s := S2048x2048) ![1280, 1024] S256x256.size inb_S2048x2048_S256x256_1280_1024).toLoadRect (h3.unread p)
      = Pb p 5 4 :=
  mask_block M3 h3 p 5 4 1280 1024 rfl rfl _
theorem m5_5 (M3 : Memref sig .tc .vmem S2048x2048 .f32) (h3 : M3.IsWhole) (p : CausalCos.SM.Idx → EReal) :
    View.readAt (Elt Ideal) M3.view
      (Rect.unit (s := S2048x2048) ![1280, 1280] S256x256.size inb_S2048x2048_S256x256_1280_1280).toLoadRect (h3.unread p)
      = Pb p 5 5 :=
  mask_block M3 h3 p 5 5 1280 1280 rfl rfl _
theorem m6_0 (M3 : Memref sig .tc .vmem S2048x2048 .f32) (h3 : M3.IsWhole) (p : CausalCos.SM.Idx → EReal) :
    View.readAt (Elt Ideal) M3.view
      (Rect.unit (s := S2048x2048) ![1536, 0] S256x256.size inb_S2048x2048_S256x256_1536_0).toLoadRect (h3.unread p)
      = Pb p 6 0 :=
  mask_block M3 h3 p 6 0 1536 0 rfl rfl _
theorem m6_1 (M3 : Memref sig .tc .vmem S2048x2048 .f32) (h3 : M3.IsWhole) (p : CausalCos.SM.Idx → EReal) :
    View.readAt (Elt Ideal) M3.view
      (Rect.unit (s := S2048x2048) ![1536, 256] S256x256.size inb_S2048x2048_S256x256_1536_256).toLoadRect (h3.unread p)
      = Pb p 6 1 :=
  mask_block M3 h3 p 6 1 1536 256 rfl rfl _
theorem m6_2 (M3 : Memref sig .tc .vmem S2048x2048 .f32) (h3 : M3.IsWhole) (p : CausalCos.SM.Idx → EReal) :
    View.readAt (Elt Ideal) M3.view
      (Rect.unit (s := S2048x2048) ![1536, 512] S256x256.size inb_S2048x2048_S256x256_1536_512).toLoadRect (h3.unread p)
      = Pb p 6 2 :=
  mask_block M3 h3 p 6 2 1536 512 rfl rfl _
theorem m6_3 (M3 : Memref sig .tc .vmem S2048x2048 .f32) (h3 : M3.IsWhole) (p : CausalCos.SM.Idx → EReal) :
    View.readAt (Elt Ideal) M3.view
      (Rect.unit (s := S2048x2048) ![1536, 768] S256x256.size inb_S2048x2048_S256x256_1536_768).toLoadRect (h3.unread p)
      = Pb p 6 3 :=
  mask_block M3 h3 p 6 3 1536 768 rfl rfl _
theorem m6_4 (M3 : Memref sig .tc .vmem S2048x2048 .f32) (h3 : M3.IsWhole) (p : CausalCos.SM.Idx → EReal) :
    View.readAt (Elt Ideal) M3.view
      (Rect.unit (s := S2048x2048) ![1536, 1024] S256x256.size inb_S2048x2048_S256x256_1536_1024).toLoadRect (h3.unread p)
      = Pb p 6 4 :=
  mask_block M3 h3 p 6 4 1536 1024 rfl rfl _
theorem m6_5 (M3 : Memref sig .tc .vmem S2048x2048 .f32) (h3 : M3.IsWhole) (p : CausalCos.SM.Idx → EReal) :
    View.readAt (Elt Ideal) M3.view
      (Rect.unit (s := S2048x2048) ![1536, 1280] S256x256.size inb_S2048x2048_S256x256_1536_1280).toLoadRect (h3.unread p)
      = Pb p 6 5 :=
  mask_block M3 h3 p 6 5 1536 1280 rfl rfl _
theorem m6_6 (M3 : Memref sig .tc .vmem S2048x2048 .f32) (h3 : M3.IsWhole) (p : CausalCos.SM.Idx → EReal) :
    View.readAt (Elt Ideal) M3.view
      (Rect.unit (s := S2048x2048) ![1536, 1536] S256x256.size inb_S2048x2048_S256x256_1536_1536).toLoadRect (h3.unread p)
      = Pb p 6 6 :=
  mask_block M3 h3 p 6 6 1536 1536 rfl rfl _
theorem m7_0 (M3 : Memref sig .tc .vmem S2048x2048 .f32) (h3 : M3.IsWhole) (p : CausalCos.SM.Idx → EReal) :
    View.readAt (Elt Ideal) M3.view
      (Rect.unit (s := S2048x2048) ![1792, 0] S256x256.size inb_S2048x2048_S256x256_1792_0).toLoadRect (h3.unread p)
      = Pb p 7 0 :=
  mask_block M3 h3 p 7 0 1792 0 rfl rfl _
theorem m7_1 (M3 : Memref sig .tc .vmem S2048x2048 .f32) (h3 : M3.IsWhole) (p : CausalCos.SM.Idx → EReal) :
    View.readAt (Elt Ideal) M3.view
      (Rect.unit (s := S2048x2048) ![1792, 256] S256x256.size inb_S2048x2048_S256x256_1792_256).toLoadRect (h3.unread p)
      = Pb p 7 1 :=
  mask_block M3 h3 p 7 1 1792 256 rfl rfl _
theorem m7_2 (M3 : Memref sig .tc .vmem S2048x2048 .f32) (h3 : M3.IsWhole) (p : CausalCos.SM.Idx → EReal) :
    View.readAt (Elt Ideal) M3.view
      (Rect.unit (s := S2048x2048) ![1792, 512] S256x256.size inb_S2048x2048_S256x256_1792_512).toLoadRect (h3.unread p)
      = Pb p 7 2 :=
  mask_block M3 h3 p 7 2 1792 512 rfl rfl _
theorem m7_3 (M3 : Memref sig .tc .vmem S2048x2048 .f32) (h3 : M3.IsWhole) (p : CausalCos.SM.Idx → EReal) :
    View.readAt (Elt Ideal) M3.view
      (Rect.unit (s := S2048x2048) ![1792, 768] S256x256.size inb_S2048x2048_S256x256_1792_768).toLoadRect (h3.unread p)
      = Pb p 7 3 :=
  mask_block M3 h3 p 7 3 1792 768 rfl rfl _
theorem m7_4 (M3 : Memref sig .tc .vmem S2048x2048 .f32) (h3 : M3.IsWhole) (p : CausalCos.SM.Idx → EReal) :
    View.readAt (Elt Ideal) M3.view
      (Rect.unit (s := S2048x2048) ![1792, 1024] S256x256.size inb_S2048x2048_S256x256_1792_1024).toLoadRect (h3.unread p)
      = Pb p 7 4 :=
  mask_block M3 h3 p 7 4 1792 1024 rfl rfl _
theorem m7_5 (M3 : Memref sig .tc .vmem S2048x2048 .f32) (h3 : M3.IsWhole) (p : CausalCos.SM.Idx → EReal) :
    View.readAt (Elt Ideal) M3.view
      (Rect.unit (s := S2048x2048) ![1792, 1280] S256x256.size inb_S2048x2048_S256x256_1792_1280).toLoadRect (h3.unread p)
      = Pb p 7 5 :=
  mask_block M3 h3 p 7 5 1792 1280 rfl rfl _
theorem m7_6 (M3 : Memref sig .tc .vmem S2048x2048 .f32) (h3 : M3.IsWhole) (p : CausalCos.SM.Idx → EReal) :
    View.readAt (Elt Ideal) M3.view
      (Rect.unit (s := S2048x2048) ![1792, 1536] S256x256.size inb_S2048x2048_S256x256_1792_1536).toLoadRect (h3.unread p)
      = Pb p 7 6 :=
  mask_block M3 h3 p 7 6 1792 1536 rfl rfl _
theorem m7_7 (M3 : Memref sig .tc .vmem S2048x2048 .f32) (h3 : M3.IsWhole) (p : CausalCos.SM.Idx → EReal) :
    View.readAt (Elt Ideal) M3.view
      (Rect.unit (s := S2048x2048) ![1792, 1792] S256x256.size inb_S2048x2048_S256x256_1792_1792).toLoadRect (h3.unread p)
      = Pb p 7 7 :=
  mask_block M3 h3 p 7 7 1792 1792 rfl rfl _

/-! ## The eight stored blocks -/

/-- Query block 0: its own key block alone. -/
theorem piece0 (c : Dev nD) (M1 : Memref sig .tc .vmem S1x2048x1024 .f32) (h1 : M1.IsWhole)
    (M2 : Memref sig .tc .vmem S1x2048x1024 .f32) (h2 : M2.IsWhole) (M3 : Memref sig .tc .vmem S2048x2048 .f32) (h3 : M3.IsWhole)
    (M5 M6 : Memref sig .tc .vmem S2048x1024 .bf16)
    (x : CausalCos.SX.Idx → EReal) (p : CausalCos.SM.Idx → EReal) (b : Fin 8) (r : Fin 256) (d : Fin 1024) :
    k0_pay7 (F := Ideal) k0_pay5 (batchRun.sl.v24 c M1 M6 (h1.unread (CausalCos.attBlk x b)))
        (batchRun.sl.r c M1 M3 M5 (h1.unread (CausalCos.attBlk x b)) (h3.unread p))
        (View.readAt (Elt Ideal) M2.view
          (Rect.unit (s := S1x2048x1024) ![0, 0, 0] S1x256x1024.size inb_S1x2048x1024_S1x256x1024_0_0_0).toLoadRect
          (h2.unread (CausalCos.gateBlk x b))) (ix3 0 r d)
      = CausalCos.Gat x p b (CausalCos.row 0 r) d := by
  rw [CausalCos.Gat_block0]
  simp only [batchRun.sl.r, u0, w0]
  rw [m0_0, g0]
  simp only [k0_pay7, k0_pay6, k0_pay5]
  rw [addBatch_apply, mulf_apply, dropBatch_apply, Gb_apply, addf_apply, diagTerm x p b 0 0#32 (by decide)]
  simp only [broadcast_apply, zero_word]

/-- Query block 1: the key blocks 0 to 1, the last one through its rows at or before the query row. -/
theorem piece1 (c : Dev nD) (M1 : Memref sig .tc .vmem S1x2048x1024 .f32) (h1 : M1.IsWhole)
    (M2 : Memref sig .tc .vmem S1x2048x1024 .f32) (h2 : M2.IsWhole) (M3 : Memref sig .tc .vmem S2048x2048 .f32) (h3 : M3.IsWhole)
    (M5 M6 : Memref sig .tc .vmem S2048x1024 .bf16)
    (x : CausalCos.SX.Idx → EReal) (p : CausalCos.SM.Idx → EReal) (b : Fin 8) (r : Fin 256) (d : Fin 1024) :
    k0_pay11 (F := Ideal) (batchRun.sl.r_1 c M1 M3 M5 M6 (h1.unread (CausalCos.attBlk x b)) (h3.unread p)) (batchRun.sl.v59 c M1 M6 (h1.unread (CausalCos.attBlk x b))) (batchRun.sl.r_2 c M1 M5 (h1.unread (CausalCos.attBlk x b)))
    (batchRun.sl.r_3 c M3 (h3.unread p)) k0_pay10
    (View.readAt (Elt Ideal) M2.view
    (Rect.unit (s := S1x2048x1024) ![0, 256, 0] S1x256x1024.size inb_S1x2048x1024_S1x256x1024_0_256_0).toLoadRect (h2.unread (CausalCos.gateBlk x b)))
      (ix3 0 r d)
      = CausalCos.Gat x p b (CausalCos.row 1 r) d := by
  rw [CausalCos.Gat_block1]
  simp only [batchRun.sl.r_1, batchRun.sl.r_2, batchRun.sl.r_3, u0, u1, w0, w1]
  rw [m1_0, m1_1, g1]
  simp only [k0_pay11, k0_pay8, k0_pay9, k0_pay10]
  rw [addBatch_apply, mulf_apply, dropBatch_apply, Gb_apply]
  simp only [addf_apply]
  rw [offTerm x p b 1 0 (by decide) r d, diagTerm x p b 1 256#32 (by decide) r d]
  simp only [broadcast_apply, zero_word]

/-- Query block 2: the key blocks 0 to 2, the last one through its rows at or before the query row. -/
theorem piece2 (c : Dev nD) (M1 : Memref sig .tc .vmem S1x2048x1024 .f32) (h1 : M1.IsWhole)
    (M2 : Memref sig .tc .vmem S1x2048x1024 .f32) (h2 : M2.IsWhole) (M3 : Memref sig .tc .vmem S2048x2048 .f32) (h3 : M3.IsWhole)
    (M5 M6 : Memref sig .tc .vmem S2048x1024 .bf16)
    (x : CausalCos.SX.Idx → EReal) (p : CausalCos.SM.Idx → EReal) (b : Fin 8) (r : Fin 256) (d : Fin 1024) :
    k0_pay15 (F := Ideal) (batchRun.sl.v79 c M1 M5 (h1.unread (CausalCos.attBlk x b))) k0_pay12 (batchRun.sl.r_4 c M1 M3 M5 M6 (h1.unread (CausalCos.attBlk x b)) (h3.unread p)) (batchRun.sl.v59 c M1 M6 (h1.unread (CausalCos.attBlk x b)))
    (batchRun.sl.r_5 c M1 M3 M5 (h1.unread (CausalCos.attBlk x b)) (h3.unread p)) (batchRun.sl.v79 c M1 M5 (h1.unread (CausalCos.attBlk x b))) (batchRun.sl.v103 c M1 M6 (h1.unread (CausalCos.attBlk x b)))
    (View.readAt (Elt Ideal) M3.view (Rect.unit (s := S2048x2048) ![512, 512] S256x256.size inb_S2048x2048_S256x256_512_512).toLoadRect (h3.unread p))
    (View.readAt (Elt Ideal) M2.view
    (Rect.unit (s := S1x2048x1024) ![0, 512, 0] S1x256x1024.size inb_S1x2048x1024_S1x256x1024_0_512_0).toLoadRect (h2.unread (CausalCos.gateBlk x b)))
      (ix3 0 r d)
      = CausalCos.Gat x p b (CausalCos.row 2 r) d := by
  rw [CausalCos.Gat_block2]
  simp only [batchRun.sl.r_4, batchRun.sl.r_5, u0, u1, u2, w0, w1, w2]
  rw [m2_0, m2_1, m2_2, g2]
  simp only [k0_pay15, k0_pay12, k0_pay13, k0_pay14]
  rw [addBatch_apply, mulf_apply, dropBatch_apply, Gb_apply]
  simp only [addf_apply]
  rw [offTerm x p b 2 0 (by decide) r d, offTerm x p b 2 1 (by decide) r d,
    diagTerm x p b 2 512#32 (by decide) r d]
  simp only [broadcast_apply, zero_word]

/-- Query block 3: the key blocks 0 to 3, the last one through its rows at or before the query row. -/
theorem piece3 (c : Dev nD) (M1 : Memref sig .tc .vmem S1x2048x1024 .f32) (h1 : M1.IsWhole)
    (M2 : Memref sig .tc .vmem S1x2048x1024 .f32) (h2 : M2.IsWhole) (M3 : Memref sig .tc .vmem S2048x2048 .f32) (h3 : M3.IsWhole)
    (M5 M6 : Memref sig .tc .vmem S2048x1024 .bf16)
    (x : CausalCos.SX.Idx → EReal) (p : CausalCos.SM.Idx → EReal) (b : Fin 8) (r : Fin 256) (d : Fin 1024) :
    k0_pay22 (F := Ideal) (batchRun.sl.r_7 c M1 M3 M5 M6 (h1.unread (CausalCos.attBlk x b)) (h3.unread p)) (batchRun.sl.v156 c M1 M6 (h1.unread (CausalCos.attBlk x b))) (batchRun.sl.r_8 c M1 M5 (h1.unread (CausalCos.attBlk x b)))
    (batchRun.sl.r_9 c M3 (h3.unread p)) (k0_pay21 k0_pay16) batchRun.sl.cst_120
    (View.readAt (Elt Ideal) M2.view
    (Rect.unit (s := S1x2048x1024) ![0, 768, 0] S1x256x1024.size inb_S1x2048x1024_S1x256x1024_0_768_0).toLoadRect (h2.unread (CausalCos.gateBlk x b)))
      (ix3 0 r d)
      = CausalCos.Gat x p b (CausalCos.row 3 r) d := by
  rw [CausalCos.Gat_block3]
  simp only [batchRun.sl.r_7, batchRun.sl.r_6, batchRun.sl.r_8, batchRun.sl.r_9, batchRun.sl.cst_120, u0, u1, u2,
    u3, w0, w1, w2, w3]
  rw [m3_0, m3_1, m3_2, m3_3, g3]
  simp only [k0_pay22, k0_pay19, k0_pay17, k0_pay18, k0_pay20, k0_pay21, k0_pay16]
  rw [addBatch_apply, mulf_apply, dropBatch_apply, Gb_apply]
  simp only [addf_apply]
  rw [offTerm x p b 3 0 (by decide) r d, offTerm x p b 3 1 (by decide) r d,
    offTerm x p b 3 2 (by decide) r d, diagTerm x p b 3 768#32 (by decide) r d]
  simp only [broadcast_apply, zero_word]

/-- Query block 4: the key blocks 0 to 4, the last one through its rows at or before the query row. -/
theorem piece4 (c : Dev nD) (M1 : Memref sig .tc .vmem S1x2048x1024 .f32) (h1 : M1.IsWhole)
    (M2 : Memref sig .tc .vmem S1x2048x1024 .f32) (h2 : M2.IsWhole) (M3 : Memref sig .tc .vmem S2048x2048 .f32) (h3 : M3.IsWhole)
    (M5 M6 : Memref sig .tc .vmem S2048x1024 .bf16)
    (x : CausalCos.SX.Idx → EReal) (p : CausalCos.SM.Idx → EReal) (b : Fin 8) (r : Fin 256) (d : Fin 1024) :
    k0_pay28 (F := Ideal) (batchRun.sl.r_12 c M1 M3 M5 M6 (h1.unread (CausalCos.attBlk x b)) (h3.unread p)) (batchRun.sl.v218 c M1 M6 (h1.unread (CausalCos.attBlk x b))) (batchRun.sl.r_13 c M1 M3 M5 (h1.unread (CausalCos.attBlk x b)) (h3.unread p))
    batchRun.sl.cst_171
    (View.readAt (Elt Ideal) M2.view
    (Rect.unit (s := S1x2048x1024) ![0, 1024, 0] S1x256x1024.size inb_S1x2048x1024_S1x256x1024_0_1024_0).toLoadRect (h2.unread (CausalCos.gateBlk x b)))
      (ix3 0 r d)
      = CausalCos.Gat x p b (CausalCos.row 4 r) d := by
  rw [CausalCos.Gat_block4]
  simp only [batchRun.sl.r_12, batchRun.sl.r_10, batchRun.sl.r_11, batchRun.sl.r_13, batchRun.sl.cst_171, u0, u1,
    u2, u3, u4, w0, w1, w2, w3, w4]
  rw [m4_0, m4_1, m4_2, m4_3, m4_4, g4]
  simp only [k0_pay28, k0_pay26, k0_pay24, k0_pay25, k0_pay27, k0_pay23]
  rw [addBatch_apply, mulf_apply, dropBatch_apply, Gb_apply]
  simp only [addf_apply]
  rw [offTerm x p b 4 0 (by decide) r d, offTerm x p b 4 1 (by decide) r d,
    offTerm x p b 4 2 (by decide) r d, offTerm x p b 4 3 (by decide) r d,
    diagTerm x p b 4 1024#32 (by decide) r d]
  simp only [broadcast_apply, zero_word]

/-- Query block 5: the key blocks 0 to 5, the last one through its rows at or before the query row. -/
theorem piece5 (c : Dev nD) (M1 : Memref sig .tc .vmem S1x2048x1024 .f32) (h1 : M1.IsWhole)
    (M2 : Memref sig .tc .vmem S1x2048x1024 .f32) (h2 : M2.IsWhole) (M3 : Memref sig .tc .vmem S2048x2048 .f32) (h3 : M3.IsWhole)
    (M5 M6 : Memref sig .tc .vmem S2048x1024 .bf16)
    (x : CausalCos.SX.Idx → EReal) (p : CausalCos.SM.Idx → EReal) (b : Fin 8) (r : Fin 256) (d : Fin 1024) :
    k0_pay33 (F := Ideal) k0_pay29 (batchRun.sl.r_15 c M1 M3 M5 M6 (h1.unread (CausalCos.attBlk x b)) (h3.unread p)) (batchRun.sl.v289 c M1 M6 (h1.unread (CausalCos.attBlk x b))) (batchRun.sl.r_16 c M1 M5 (h1.unread (CausalCos.attBlk x b)))
    (View.readAt (Elt Ideal) M3.view (Rect.unit (s := S2048x2048) ![1280, 1280] S256x256.size inb_S2048x2048_S256x256_1280_1280).toLoadRect
    (h3.unread p))
    (View.readAt (Elt Ideal) M2.view
    (Rect.unit (s := S1x2048x1024) ![0, 1280, 0] S1x256x1024.size inb_S1x2048x1024_S1x256x1024_0_1280_0).toLoadRect (h2.unread (CausalCos.gateBlk x b)))
      (ix3 0 r d)
      = CausalCos.Gat x p b (CausalCos.row 5 r) d := by
  rw [CausalCos.Gat_block5]
  simp only [batchRun.sl.r_15, batchRun.sl.r_14, batchRun.sl.r_16, u0, u1, u2, u3, u4, u5, w0, w1, w2, w3, w4, w5]
  rw [m5_0, m5_1, m5_2, m5_3, m5_4, m5_5, g5]
  simp only [k0_pay33, k0_pay29, k0_pay31, k0_pay30, k0_pay32]
  rw [addBatch_apply, mulf_apply, dropBatch_apply, Gb_apply]
  simp only [addf_apply]
  rw [offTerm x p b 5 0 (by decide) r d, offTerm x p b 5 1 (by decide) r d,
    offTerm x p b 5 2 (by decide) r d, offTerm x p b 5 3 (by decide) r d,
    offTerm x p b 5 4 (by decide) r d, diagTerm x p b 5 1280#32 (by decide) r d]
  simp only [broadcast_apply, zero_word]

/-- Query block 6: the key blocks 0 to 6, the last one through its rows at or before the query row. -/
theorem piece6 (c : Dev nD) (M1 : Memref sig .tc .vmem S1x2048x1024 .f32) (h1 : M1.IsWhole)
    (M2 : Memref sig .tc .vmem S1x2048x1024 .f32) (h2 : M2.IsWhole) (M3 : Memref sig .tc .vmem S2048x2048 .f32) (h3 : M3.IsWhole)
    (M5 M6 : Memref sig .tc .vmem S2048x1024 .bf16)
    (x : CausalCos.SX.Idx → EReal) (p : CausalCos.SM.Idx → EReal) (b : Fin 8) (r : Fin 256) (d : Fin 1024) :
    k0_pay39 (F := Ideal) (batchRun.sl.v309 c M1 M5 (h1.unread (CausalCos.attBlk x b))) k0_pay34 (batchRun.sl.r_19 c M1 M3 M5 M6 (h1.unread (CausalCos.attBlk x b)) (h3.unread p))
    (batchRun.sl.r_20 c M1 M3 M5 M6 (h1.unread (CausalCos.attBlk x b)) (h3.unread p)) (batchRun.sl.v238 c M1 M5 (h1.unread (CausalCos.attBlk x b))) (batchRun.sl.v289 c M1 M6 (h1.unread (CausalCos.attBlk x b)))
    (View.readAt (Elt Ideal) M3.view (Rect.unit (s := S2048x2048) ![1536, 1280] S256x256.size inb_S2048x2048_S256x256_1536_1280).toLoadRect
    (h3.unread p))
    (batchRun.sl.v309 c M1 M5 (h1.unread (CausalCos.attBlk x b))) (batchRun.sl.v369 c M1 M6 (h1.unread (CausalCos.attBlk x b)))
    (View.readAt (Elt Ideal) M3.view (Rect.unit (s := S2048x2048) ![1536, 1536] S256x256.size inb_S2048x2048_S256x256_1536_1536).toLoadRect
    (h3.unread p))
    (View.readAt (Elt Ideal) M2.view
    (Rect.unit (s := S1x2048x1024) ![0, 1536, 0] S1x256x1024.size inb_S1x2048x1024_S1x256x1024_0_1536_0).toLoadRect (h2.unread (CausalCos.gateBlk x b)))
      (ix3 0 r d)
      = CausalCos.Gat x p b (CausalCos.row 6 r) d := by
  rw [CausalCos.Gat_block6]
  simp only [batchRun.sl.r_19, batchRun.sl.r_17, batchRun.sl.r_18, batchRun.sl.r_20, u0, u1, u2, u3, u4, u5, u6,
    w0, w1, w2, w3, w4, w5, w6]
  rw [m6_0, m6_1, m6_2, m6_3, m6_4, m6_5, m6_6, g6]
  simp only [k0_pay39, k0_pay34, k0_pay37, k0_pay35, k0_pay36, k0_pay38]
  rw [addBatch_apply, mulf_apply, dropBatch_apply, Gb_apply]
  simp only [addf_apply]
  rw [offTerm x p b 6 0 (by decide) r d, offTerm x p b 6 1 (by decide) r d,
    offTerm x p b 6 2 (by decide) r d, offTerm x p b 6 3 (by decide) r d,
    offTerm x p b 6 4 (by decide) r d, offTerm x p b 6 5 (by decide) r d,
    diagTerm x p b 6 1536#32 (by decide) r d]
  simp only [broadcast_apply, zero_word]

/-- Query block 7: the key blocks 0 to 7, the last one through its rows at or before the query row. -/
theorem piece7 (c : Dev nD) (M1 : Memref sig .tc .vmem S1x2048x1024 .f32) (h1 : M1.IsWhole)
    (M2 : Memref sig .tc .vmem S1x2048x1024 .f32) (h2 : M2.IsWhole) (M3 : Memref sig .tc .vmem S2048x2048 .f32) (h3 : M3.IsWhole)
    (M5 M6 : Memref sig .tc .vmem S2048x1024 .bf16)
    (x : CausalCos.SX.Idx → EReal) (p : CausalCos.SM.Idx → EReal) (b : Fin 8) (r : Fin 256) (d : Fin 1024) :
    k0_pay1 (F := Ideal) (batchRun.sl.v389 c M1 M5 (h1.unread (CausalCos.attBlk x b))) (k0_pay40 batchRun.sl.v390) (batchRun.sl.r_22 c M1 M3 M5 M6 (h1.unread (CausalCos.attBlk x b)) (h3.unread p))
    (batchRun.sl.v369 c M1 M6 (h1.unread (CausalCos.attBlk x b))) (batchRun.sl.r_23 c M1 M3 M5 (h1.unread (CausalCos.attBlk x b)) (h3.unread p)) (batchRun.sl.v389 c M1 M5 (h1.unread (CausalCos.attBlk x b)))
    (batchRun.sl.v458 c M1 M6 (h1.unread (CausalCos.attBlk x b)))
    (View.readAt (Elt Ideal) M3.view (Rect.unit (s := S2048x2048) ![1792, 1792] S256x256.size inb_S2048x2048_S256x256_1792_1792).toLoadRect
    (h3.unread p))
    (View.readAt (Elt Ideal) M2.view
    (Rect.unit (s := S1x2048x1024) ![0, 1792, 0] S1x256x1024.size inb_S1x2048x1024_S1x256x1024_0_1792_0).toLoadRect (h2.unread (CausalCos.gateBlk x b)))
      (ix3 0 r d)
      = CausalCos.Gat x p b (CausalCos.row 7 r) d := by
  rw [CausalCos.Gat_block7]
  simp only [batchRun.sl.v390, batchRun.sl.r_22, batchRun.sl.r_21, batchRun.sl.r_23, u0, u1, u2, u3, u4, u5, u6,
    u7, w0, w1, w2, w3, w4, w5, w6, w7]
  rw [m7_0, m7_1, m7_2, m7_3, m7_4, m7_5, m7_6, m7_7, g7]
  simp only [k0_pay1, k0_pay40, k0_pay42, k0_pay41, k0_pay43]
  rw [addBatch_apply, mulf_apply, dropBatch_apply, Gb_apply]
  simp only [addf_apply]
  rw [offTerm x p b 7 0 (by decide) r d, offTerm x p b 7 1 (by decide) r d,
    offTerm x p b 7 2 (by decide) r d, offTerm x p b 7 3 (by decide) r d,
    offTerm x p b 7 4 (by decide) r d, offTerm x p b 7 5 (by decide) r d,
    offTerm x p b 7 6 (by decide) r d, diagTerm x p b 7 1792#32 (by decide) r d]
  simp only [broadcast_apply, zero_word]

end Cert.KernelIdeal.Hand

end
-- ==== Proof.BatchAssemble.lean ====
/-
  One batch's output slab, assembled from its eight stored pieces.

  The body stores the slab of 1 × 2048 × 1024 entries in eight pieces of 256 rows each: piece `i` is rows
  `256 i … 256 i + 255`. If the payload of every piece, at its own row `r` and channel `d`, is one function of the
  slab's row `256 i + r` and channel `d`, then the slab the eight stores leave is that function at every row and
  channel: the pieces agree with it where they lie, and every row lies in the piece of its block of 256.
-/
import proofs.«167190_j11424613007992_2_alg».proof.Proof.BatchBodyIdeal
import proofs.«167190_j11424613007992_2_alg».proof.Proof.CausalCosSpec
import Idealize.ShloMosaic.Lib.Pipeline.Value
import Idealize.ShloMosaic.Lib.Pipeline.FrameBody
import Idealize.ShloMosaic.Lib.ValueIdx

noncomputable section

namespace Cert.KernelIdeal.Hand

open Cert.KernelIdeal Cert.KernelIdeal.Gen

open Idealize.ShloMosaic
open Idealize.ShloMosaic.TcCoe

/-! ## Eight pieces of 256 rows, over any values -/

section Generic

variable {Val : EltTy → Type}

/-- A function of row and channel, as contents of the slab (whose first axis has one index). -/
def slabOf (Gr : Fin 2048 → Fin 1024 → Val .f32) : S1x2048x1024.Idx → Val .f32 := fun y =>
  Gr ⟨(y 1).val, (y 1).isLt⟩ ⟨(y 2).val, (y 2).isLt⟩

/-- A piece of 256 rows starting at row `256 i`, whose payload at its own row `r` is the function at row `256 i + r`,
    agrees with the function where it lies in the slab. -/
theorem piece_agrees (o : Nat) (i : Fin 8) (ho : o = 256 * i.val)
    (inb : ∀ a, (![0, o, 0] : Fin 3 → Nat) a + S1x256x1024.size a ≤ S1x2048x1024.size a)
    (w : S1x256x1024.Idx → Val .f32) (Gr : Fin 2048 → Fin 1024 → Val .f32)
    (h : ∀ (r : Fin 256) (d : Fin 1024), w (ValueIdx.ix3 0 r d) = Gr (Cert.CausalCos.row i r) d)
    (x : S1x256x1024.Idx) :
    w x = slabOf Gr ((Rect.unit (s := S1x2048x1024) ![0, o, 0] S1x256x1024.size inb).emb x) := by
  subst ho
  obtain ⟨z, r, d, rfl⟩ : ∃ (z : Fin 1) (r : Fin 256) (d : Fin 1024), x = ValueIdx.ix3 z r d :=
    ⟨x 0, x 1, x 2, ValueIdx.eq_ix3 x⟩
  obtain rfl : z = 0 := Subsingleton.elim _ _
  rw [h]
  unfold slabOf
  have hr : Cert.CausalCos.row i r = ⟨((Rect.unit (s := S1x2048x1024) ![0, 256 * i.val, 0] S1x256x1024.size inb).emb
      (ValueIdx.ix3 0 r d) 1).val, ((Rect.unit (s := S1x2048x1024) ![0, 256 * i.val, 0] S1x256x1024.size inb).emb
      (ValueIdx.ix3 0 r d) 1).isLt⟩ := by
    apply Fin.ext
    show 256 * i.val + r.val = 256 * i.val + 1 * r.val
    omega
  have hd : d = ⟨((Rect.unit (s := S1x2048x1024) ![0, 256 * i.val, 0] S1x256x1024.size inb).emb
      (ValueIdx.ix3 0 r d) 2).val, ((Rect.unit (s := S1x2048x1024) ![0, 256 * i.val, 0] S1x256x1024.size inb).emb
      (ValueIdx.ix3 0 r d) 2).isLt⟩ := by
    apply Fin.ext
    show d.val = 0 + 1 * d.val
    omega
  rw [← hr, ← hd]

/-- Row `n` of the slab lies in the piece of 256 rows that starts at or before it and ends after it. -/
theorem mem_piece (o : Nat)
    (inb : ∀ a, (![0, o, 0] : Fin 3 → Nat) a + S1x256x1024.size a ≤ S1x2048x1024.size a)
    (n : Fin 2048) (d : Fin 1024) (h : o ≤ n.val ∧ n.val < o + 256) :
    ValueIdx.ix3 (0 : Fin 1) n d ∈ (Rect.unit (s := S1x2048x1024) ![0, o, 0] S1x256x1024.size inb).set := by
  rw [Rect.mem_set_unit]
  intro a
  match a with
  | ⟨0, _⟩ => show 0 ≤ 0 ∧ 0 < 0 + 1; omega
  | ⟨1, _⟩ => show o ≤ n.val ∧ n.val < o + 256; exact h
  | ⟨2, _⟩ => show 0 ≤ d.val ∧ d.val < 0 + 1024; have := d.isLt; omega

end Generic

section Eight

variable {Val : EltTy → Type} [∀ e, Nonempty (Val e)]

/-- The slab left by eight stores of 256 rows each, last store first, whose payloads all are one function of row and
    channel, is that function. -/
theorem canon_of_eight
    (i0 : ∀ a, (![0, 0, 0] : Fin 3 → Nat) a + S1x256x1024.size a ≤ S1x2048x1024.size a)
    (i1 : ∀ a, (![0, 256, 0] : Fin 3 → Nat) a + S1x256x1024.size a ≤ S1x2048x1024.size a)
    (i2 : ∀ a, (![0, 512, 0] : Fin 3 → Nat) a + S1x256x1024.size a ≤ S1x2048x1024.size a)
    (i3 : ∀ a, (![0, 768, 0] : Fin 3 → Nat) a + S1x256x1024.size a ≤ S1x2048x1024.size a)
    (i4 : ∀ a, (![0, 1024, 0] : Fin 3 → Nat) a + S1x256x1024.size a ≤ S1x2048x1024.size a)
    (i5 : ∀ a, (![0, 1280, 0] : Fin 3 → Nat) a + S1x256x1024.size a ≤ S1x2048x1024.size a)
    (i6 : ∀ a, (![0, 1536, 0] : Fin 3 → Nat) a + S1x256x1024.size a ≤ S1x2048x1024.size a)
    (i7 : ∀ a, (![0, 1792, 0] : Fin 3 → Nat) a + S1x256x1024.size a ≤ S1x2048x1024.size a)
    (w0 w1 w2 w3 w4 w5 w6 w7 : S1x256x1024.Idx → Val .f32)
    (Gr : Fin 2048 → Fin 1024 → Val .f32)
    (h0 : ∀ (r : Fin 256) (d : Fin 1024), w0 (ValueIdx.ix3 0 r d) = Gr (Cert.CausalCos.row 0 r) d)
    (h1 : ∀ (r : Fin 256) (d : Fin 1024), w1 (ValueIdx.ix3 0 r d) = Gr (Cert.CausalCos.row 1 r) d)
    (h2 : ∀ (r : Fin 256) (d : Fin 1024), w2 (ValueIdx.ix3 0 r d) = Gr (Cert.CausalCos.row 2 r) d)
    (h3 : ∀ (r : Fin 256) (d : Fin 1024), w3 (ValueIdx.ix3 0 r d) = Gr (Cert.CausalCos.row 3 r) d)
    (h4 : ∀ (r : Fin 256) (d : Fin 1024), w4 (ValueIdx.ix3 0 r d) = Gr (Cert.CausalCos.row 4 r) d)
    (h5 : ∀ (r : Fin 256) (d : Fin 1024), w5 (ValueIdx.ix3 0 r d) = Gr (Cert.CausalCos.row 5 r) d)
    (h6 : ∀ (r : Fin 256) (d : Fin 1024), w6 (ValueIdx.ix3 0 r d) = Gr (Cert.CausalCos.row 6 r) d)
    (h7 : ∀ (r : Fin 256) (d : Fin 1024), w7 (ValueIdx.ix3 0 r d) = Gr (Cert.CausalCos.row 7 r) d)
    (n : Fin 2048) (d : Fin 1024) :
    View.canon ([⟨Rect.unit ![0, 1792, 0] S1x256x1024.size i7, w7⟩,
        ⟨Rect.unit ![0, 1536, 0] S1x256x1024.size i6, w6⟩,
        ⟨Rect.unit ![0, 1280, 0] S1x256x1024.size i5, w5⟩,
        ⟨Rect.unit ![0, 1024, 0] S1x256x1024.size i4, w4⟩,
        ⟨Rect.unit ![0, 768, 0] S1x256x1024.size i3, w3⟩,
        ⟨Rect.unit ![0, 512, 0] S1x256x1024.size i2, w2⟩,
        ⟨Rect.unit ![0, 256, 0] S1x256x1024.size i1, w1⟩,
        ⟨Rect.unit ![0, 0, 0] S1x256x1024.size i0, w0⟩] :
        List (View.Piece Val S1x2048x1024 .f32)) (ValueIdx.ix3 0 n d) = Gr n d := by
  refine (View.canon_apply_of_pieces (slabOf Gr) _ ?hp (ValueIdx.ix3 0 n d) ?hc).trans rfl
  case hp =>
    intro p hp
    simp only [List.mem_cons, List.mem_singleton, List.not_mem_nil, or_false] at hp
    rcases hp with rfl | rfl | rfl | rfl | rfl | rfl | rfl | rfl
    · exact piece_agrees 1792 7 rfl i7 w7 Gr h7
    · exact piece_agrees 1536 6 rfl i6 w6 Gr h6
    · exact piece_agrees 1280 5 rfl i5 w5 Gr h5
    · exact piece_agrees 1024 4 rfl i4 w4 Gr h4
    · exact piece_agrees 768 3 rfl i3 w3 Gr h3
    · exact piece_agrees 512 2 rfl i2 w2 Gr h2
    · exact piece_agrees 256 1 rfl i1 w1 Gr h1
    · exact piece_agrees 0 0 rfl i0 w0 Gr h0
  case hc =>
    have hn : n.val < 2048 := n.isLt
    rcases (by omega : n.val < 256 ∨ (256 ≤ n.val ∧ n.val < 512) ∨ (512 ≤ n.val ∧ n.val < 768)
        ∨ (768 ≤ n.val ∧ n.val < 1024) ∨ (1024 ≤ n.val ∧ n.val < 1280) ∨ (1280 ≤ n.val ∧ n.val < 1536)
        ∨ (1536 ≤ n.val ∧ n.val < 1792) ∨ 1792 ≤ n.val) with h | h | h | h | h | h | h | h
    · exact ⟨⟨Rect.unit ![0, 0, 0] S1x256x1024.size i0, w0⟩, by simp, mem_piece 0 i0 n d ⟨by omega, by omega⟩⟩
    · exact ⟨⟨Rect.unit ![0, 256, 0] S1x256x1024.size i1, w1⟩, by simp, mem_piece 256 i1 n d ⟨by omega, by omega⟩⟩
    · exact ⟨⟨Rect.unit ![0, 512, 0] S1x256x1024.size i2, w2⟩, by simp, mem_piece 512 i2 n d ⟨by omega, by omega⟩⟩
    · exact ⟨⟨Rect.unit ![0, 768, 0] S1x256x1024.size i3, w3⟩, by simp, mem_piece 768 i3 n d ⟨by omega, by omega⟩⟩
    · exact ⟨⟨Rect.unit ![0, 1024, 0] S1x256x1024.size i4, w4⟩, by simp, mem_piece 1024 i4 n d ⟨by omega, by omega⟩⟩
    · exact ⟨⟨Rect.unit ![0, 1280, 0] S1x256x1024.size i5, w5⟩, by simp, mem_piece 1280 i5 n d ⟨by omega, by omega⟩⟩
    · exact ⟨⟨Rect.unit ![0, 1536, 0] S1x256x1024.size i6, w6⟩, by simp, mem_piece 1536 i6 n d ⟨by omega, by omega⟩⟩
    · exact ⟨⟨Rect.unit ![0, 1792, 0] S1x256x1024.size i7, w7⟩, by simp, mem_piece 1792 i7 n d ⟨by omega, by omega⟩⟩

end Eight

/-! ## The body's eight stores -/

/-- The slab the body's eight stores leave is one function of row and channel, given that each store's payload is. -/
theorem canon_of_pieces (c : Dev nD) (M1 M2 : Memref sig .tc .vmem S1x2048x1024 .f32)
    (M3 : Memref sig .tc .vmem S2048x2048 .f32) (M5 M6 : Memref sig .tc .vmem S2048x1024 .bf16)
    (f1 : Bf (F := Ideal) c M1) (f2 : Bf (F := Ideal) c M2) (f3 : Bf (F := Ideal) c M3)
    (Gr : Fin 2048 → Fin 1024 → EReal)
    (h0 : ∀ (r : Fin 256) (d : Fin 1024),
      (k0_pay7 k0_pay5 (batchRun.sl.v24 c M1 M6 f1) (batchRun.sl.r c M1 M3 M5 f1 f3) (View.readAt (Elt Ideal) M2.view (Rect.unit (s := S1x2048x1024) ![0, 0, 0] S1x256x1024.size inb_S1x2048x1024_S1x256x1024_0_0_0).toLoadRect f2))
        (ValueIdx.ix3 0 r d) = Gr (Cert.CausalCos.row 0 r) d)
    (h1 : ∀ (r : Fin 256) (d : Fin 1024),
      (k0_pay11 (batchRun.sl.r_1 c M1 M3 M5 M6 f1 f3) (batchRun.sl.v59 c M1 M6 f1) (batchRun.sl.r_2 c M1 M5 f1) (batchRun.sl.r_3 c M3 f3) k0_pay10 (View.readAt (Elt Ideal) M2.view (Rect.unit (s := S1x2048x1024) ![0, 256, 0] S1x256x1024.size inb_S1x2048x1024_S1x256x1024_0_256_0).toLoadRect f2))
        (ValueIdx.ix3 0 r d) = Gr (Cert.CausalCos.row 1 r) d)
    (h2 : ∀ (r : Fin 256) (d : Fin 1024),
      (k0_pay15 (batchRun.sl.v79 c M1 M5 f1) k0_pay12 (batchRun.sl.r_4 c M1 M3 M5 M6 f1 f3) (batchRun.sl.v59 c M1 M6 f1) (batchRun.sl.r_5 c M1 M3 M5 f1 f3) (batchRun.sl.v79 c M1 M5 f1) (batchRun.sl.v103 c M1 M6 f1) (View.readAt (Elt Ideal) M3.view (Rect.unit (s := S2048x2048) ![512, 512] S256x256.size inb_S2048x2048_S256x256_512_512).toLoadRect f3) (View.readAt (Elt Ideal) M2.view (Rect.unit (s := S1x2048x1024) ![0, 512, 0] S1x256x1024.size inb_S1x2048x1024_S1x256x1024_0_512_0).toLoadRect f2))
        (ValueIdx.ix3 0 r d) = Gr (Cert.CausalCos.row 2 r) d)
    (h3 : ∀ (r : Fin 256) (d : Fin 1024),
      (k0_pay22 (batchRun.sl.r_7 c M1 M3 M5 M6 f1 f3) (batchRun.sl.v156 c M1 M6 f1) (batchRun.sl.r_8 c M1 M5 f1) (batchRun.sl.r_9 c M3 f3) (k0_pay21 k0_pay16) batchRun.sl.cst_120 (View.readAt (Elt Ideal) M2.view (Rect.unit (s := S1x2048x1024) ![0, 768, 0] S1x256x1024.size inb_S1x2048x1024_S1x256x1024_0_768_0).toLoadRect f2))
        (ValueIdx.ix3 0 r d) = Gr (Cert.CausalCos.row 3 r) d)
    (h4 : ∀ (r : Fin 256) (d : Fin 1024),
      (k0_pay28 (batchRun.sl.r_12 c M1 M3 M5 M6 f1 f3) (batchRun.sl.v218 c M1 M6 f1) (batchRun.sl.r_13 c M1 M3 M5 f1 f3) batchRun.sl.cst_171 (View.readAt (Elt Ideal) M2.view (Rect.unit (s := S1x2048x1024) ![0, 1024, 0] S1x256x1024.size inb_S1x2048x1024_S1x256x1024_0_1024_0).toLoadRect f2))
        (ValueIdx.ix3 0 r d) = Gr (Cert.CausalCos.row 4 r) d)
    (h5 : ∀ (r : Fin 256) (d : Fin 1024),
      (k0_pay33 k0_pay29 (batchRun.sl.r_15 c M1 M3 M5 M6 f1 f3) (batchRun.sl.v289 c M1 M6 f1) (batchRun.sl.r_16 c M1 M5 f1) (View.readAt (Elt Ideal) M3.view (Rect.unit (s := S2048x2048) ![1280, 1280] S256x256.size inb_S2048x2048_S256x256_1280_1280).toLoadRect f3) (View.readAt (Elt Ideal) M2.view (Rect.unit (s := S1x2048x1024) ![0, 1280, 0] S1x256x1024.size inb_S1x2048x1024_S1x256x1024_0_1280_0).toLoadRect f2))
        (ValueIdx.ix3 0 r d) = Gr (Cert.CausalCos.row 5 r) d)
    (h6 : ∀ (r : Fin 256) (d : Fin 1024),
      (k0_pay39 (batchRun.sl.v309 c M1 M5 f1) k0_pay34 (batchRun.sl.r_19 c M1 M3 M5 M6 f1 f3) (batchRun.sl.r_20 c M1 M3 M5 M6 f1 f3) (batchRun.sl.v238 c M1 M5 f1) (batchRun.sl.v289 c M1 M6 f1) (View.readAt (Elt Ideal) M3.view (Rect.unit (s := S2048x2048) ![1536, 1280] S256x256.size inb_S2048x2048_S256x256_1536_1280).toLoadRect f3) (batchRun.sl.v309 c M1 M5 f1) (batchRun.sl.v369 c M1 M6 f1) (View.readAt (Elt Ideal) M3.view (Rect.unit (s := S2048x2048) ![1536, 1536] S256x256.size inb_S2048x2048_S256x256_1536_1536).toLoadRect f3) (View.readAt (Elt Ideal) M2.view (Rect.unit (s := S1x2048x1024) ![0, 1536, 0] S1x256x1024.size inb_S1x2048x1024_S1x256x1024_0_1536_0).toLoadRect f2))
        (ValueIdx.ix3 0 r d) = Gr (Cert.CausalCos.row 6 r) d)
    (h7 : ∀ (r : Fin 256) (d : Fin 1024),
      (k0_pay1 (batchRun.sl.v389 c M1 M5 f1) (k0_pay40 batchRun.sl.v390) (batchRun.sl.r_22 c M1 M3 M5 M6 f1 f3) (batchRun.sl.v369 c M1 M6 f1) (batchRun.sl.r_23 c M1 M3 M5 f1 f3) (batchRun.sl.v389 c M1 M5 f1) (batchRun.sl.v458 c M1 M6 f1) (View.readAt (Elt Ideal) M3.view (Rect.unit (s := S2048x2048) ![1792, 1792] S256x256.size inb_S2048x2048_S256x256_1792_1792).toLoadRect f3) (View.readAt (Elt Ideal) M2.view (Rect.unit (s := S1x2048x1024) ![0, 1792, 0] S1x256x1024.size inb_S1x2048x1024_S1x256x1024_0_1792_0).toLoadRect f2))
        (ValueIdx.ix3 0 r d) = Gr (Cert.CausalCos.row 7 r) d)
    (n : Fin 2048) (d : Fin 1024) :
    View.canon (batchRun.sl.H4_8 (F := Ideal) c M1 M2 M3 M5 M6 f1 f2 f3) (ValueIdx.ix3 0 n d) = Gr n d := by
  unfold batchRun.sl.H4_8 batchRun.sl.H4_7 batchRun.sl.H4_6 batchRun.sl.H4_5 batchRun.sl.H4_4 batchRun.sl.H4_3
    batchRun.sl.H4_2 batchRun.sl.H4_1
  refine canon_of_eight (Val := Elt Ideal) _ _ _ _ _ _ _ _ _ _ _ _ _ _ _ _ Gr ?_ ?_ ?_ ?_ ?_ ?_ ?_ ?_ n d
  exacts [h0, h1, h2, h3, h4, h5, h6, h7]

end Cert.KernelIdeal.Hand

end
-- ==== Proof.KernelIsG.lean ====
/-
  The kernel's result array is the specified function of its two arguments.

  At point `t` the output slab reads, after the body, the canon of the eight pieces the body stored — what the slab
  holds whatever it held before, since the pieces tile it. Each piece is the specified result on its 256 query rows of
  batch `t` (Proof/BatchValueIdeal.lean), the input blocks being the attention operand and the gate of batch `t` and
  the whole weight matrix (Proof/InputBlocksIdeal.lean); so the slab is the specified result of batch `t`, and the
  result array, made of its eight batches' slabs (Proof/OutputFromBatches.lean), is the specified function.
-/
import proofs.«167190_j11424613007992_2_alg».proof.Proof.InputBlocksIdeal
import proofs.«167190_j11424613007992_2_alg».proof.Proof.OutputFromBatches
import proofs.«167190_j11424613007992_2_alg».proof.Proof.BatchValueIdeal
import proofs.«167190_j11424613007992_2_alg».proof.Proof.BatchAssemble
import Idealize.ShloMosaic.Lib.Pipeline.FrameBody

set_option pp.maxSteps 5000
set_option pp.deepTerms false

noncomputable section

namespace Cert.KernelIdeal.Hand

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)

/-- What the output slab reads after the body at point `t` is the canon of the eight stored pieces: the slab was
    written over contents the read never reaches. -/
theorem outAt_canon (c : Dev nD) (t : Fin cfg0.N) (y : S1x2048x1024.Idx) :
    outAt m c t y = View.canon (batchRun.sl.H4_8 (F := Ideal) c (win0_0.stage (cfg0.slots t 0)) (win0_1.stage (cfg0.slots t 1))
      (win0_2.stage (cfg0.slots t 2)) (Memref.whole cc0_scratch0) (Memref.whole cc0_scratch1)
      ((hs0 t).unread (iblk m c 0 t)) ((hs1 t).unread (iblk m c 1 t)) ((hs2 t).unread (iblk m c 2 t))) y := by
  unfold outAt K batchRun
  dsimp only
  exact View.read_writes_junk_apply_eq_canon _ y _

/-- The slab at point `t` is the specified result of batch `t`. -/
theorem outAt_eq (c : Dev nD) (t : Fin cfg0.N) (n : Fin 2048) (d : Fin 1024) :
    outAt m c t (ix3 0 n d) = Cert.CausalCos.Gat (V m c main_arg0) (V m c main_arg1) (ptBatch t) n d := by
  rw [outAt_canon, iblk0_eq, iblk1_eq, iblk2_eq]
  exact canon_of_pieces c _ _ _ _ _ _ _ _
    (fun n d => Cert.CausalCos.Gat (V m c main_arg0) (V m c main_arg1) (ptBatch t) n d)
    (piece0 c _ (hs0 t) _ (hs1 t) _ (hs2 t) _ _ (V m c main_arg0) (V m c main_arg1) (ptBatch t))
    (piece1 c _ (hs0 t) _ (hs1 t) _ (hs2 t) _ _ (V m c main_arg0) (V m c main_arg1) (ptBatch t))
    (piece2 c _ (hs0 t) _ (hs1 t) _ (hs2 t) _ _ (V m c main_arg0) (V m c main_arg1) (ptBatch t))
    (piece3 c _ (hs0 t) _ (hs1 t) _ (hs2 t) _ _ (V m c main_arg0) (V m c main_arg1) (ptBatch t))
    (piece4 c _ (hs0 t) _ (hs1 t) _ (hs2 t) _ _ (V m c main_arg0) (V m c main_arg1) (ptBatch t))
    (piece5 c _ (hs0 t) _ (hs1 t) _ (hs2 t) _ _ (V m c main_arg0) (V m c main_arg1) (ptBatch t))
    (piece6 c _ (hs0 t) _ (hs1 t) _ (hs2 t) _ _ (V m c main_arg0) (V m c main_arg1) (ptBatch t))
    (piece7 c _ (hs0 t) _ (hs1 t) _ (hs2 t) _ _ (V m c main_arg0) (V m c main_arg1) (ptBatch t))
    n d

/-- The result array after the run is the specified function of the two arguments. -/
theorem final_eq (c : Dev nD) :
    (dats m 0 c).arrAt 3 cfg0.N = Cert.CausalCos.G (V m c main_arg0) (V m c main_arg1) := by
  funext i
  obtain ⟨b, n, d, rfl⟩ : ∃ (b : Fin 8) (n : Fin 2048) (d : Fin 1024), i = ix3 b n d := ⟨i 0, i 1, i 2, eq_ix3 i⟩
  rw [out_final m c b n d, outAt_eq m c (batchPt b) n d]
  rfl

end Cert.KernelIdeal.Hand

end
-- ==== Proof.ReferenceIsG.lean ====
/-
  The reference program computes the specified function.

  Each stage of the reference is read at an index built from literal coordinates and identified with the matching
  quantity of the specification: the two halves of a row, the sum of squares, the square root of the sum plus the
  small constant, the quotient (which for real entries is the row times the reciprocal square root), the cosine,
  the lower-triangular weight, and the two contractions.
-/
import proofs.«167190_j11424613007992_2_alg».proof.Proof.CausalCosSpec
import proofs.«167190_j11424613007992_2_alg».proof.Proof.Gen.ReferenceIdeal.Read

noncomputable section

open scoped BigOperators

namespace Cert.ReferenceIdeal.IsG

open Idealize.ShloMosaic Idealize.ShloMosaic.ValueIdx Cert.CausalCos Cert.ReferenceIdeal Cert.ReferenceIdeal.Gen
  Cert.ReferenceIdeal.Read

/-! ## The small constant is a positive real -/

theorem eps_pos : ∃ e : ℝ, 0 < e ∧ Cert.CausalCos.eps = (e : EReal) := by
  unfold Cert.CausalCos.eps
  simp [Ideal.ofBits, Ideal.ieee, -EReal.coe_mul]

/-! ## Dividing by the square root is multiplying by the reciprocal square root, at a positive real -/

theorem div_sqrt_eq_mul_rsqrt (a : EReal) {y : ℝ} (hy : 0 < y) :
    Ideal.div a (Ideal.sqrt (y : EReal)) = a * Ideal.rsqrt (y : EReal) := by
  have h : Real.sqrt y ≠ 0 := (Real.sqrt_pos.mpr hy).ne'
  rw [Ideal.sqrt_coe, if_neg (not_lt.mpr hy.le), Ideal.rsqrt_coe, if_neg (not_lt.mpr hy.le), if_neg hy.ne',
    Ideal.div_coe h, one_div]

/-- A finite sum of nonnegative reals, read in the extended reals, is a nonnegative real. -/
theorem sum_coe_nonneg {ι : Type} (s : Finset ι) (g : ι → EReal) (hg : ∀ e, ∃ r : ℝ, 0 ≤ r ∧ g e = (r : EReal)) :
    ∃ t : ℝ, 0 ≤ t ∧ ∑ e ∈ s, g e = (t : EReal) := by
  classical
  induction s using Finset.induction_on with
  | empty => exact ⟨0, le_refl _, by simp⟩
  | insert a s ha ih =>
    obtain ⟨t, ht, hs⟩ := ih
    obtain ⟨r, hr, hga⟩ := hg a
    exact ⟨r + t, add_nonneg hr ht, by rw [Finset.sum_insert ha, hs, hga, EReal.coe_add]⟩

/-- For real entries a row's sum of squares is a nonnegative real. -/
theorem sumsq_real (x : SX.Idx → EReal) (hx : ∀ i, ∃ r : ℝ, x i = (r : EReal)) (b : Fin 8) (n : Fin 2048) :
    ∃ t : ℝ, 0 ≤ t ∧ sumsq x b n = (t : EReal) := by
  unfold sumsq
  refine sum_coe_nonneg _ _ fun e => ?_
  obtain ⟨r, hr⟩ := hx (ix3 b n (lo e))
  refine ⟨r * r, mul_self_nonneg r, ?_⟩
  unfold att
  rw [hr, EReal.coe_mul]

/-- For real entries the row over the square root of (sum of squares plus the constant) is the unit row. -/
theorem div_eq_unit (x : SX.Idx → EReal) (hx : ∀ i, ∃ r : ℝ, x i = (r : EReal)) (b : Fin 8) (n : Fin 2048)
    (e : Fin 1024) :
    Ideal.div (att x b n e) (Ideal.sqrt (sumsq x b n + eps)) = unit x b n e := by
  obtain ⟨t, ht, hs⟩ := sumsq_real x hx b n
  obtain ⟨c, hc, he⟩ := eps_pos
  unfold unit
  rw [hs, he, ← EReal.coe_add]
  exact div_sqrt_eq_mul_rsqrt _ (by linarith)

/-! ## The stages of the reference at literal coordinates -/

/-- The first half of a row. -/
theorem v0_at (x : SX.Idx → EReal) (b : Fin 8) (n : Fin 2048) (e : Fin 1024) :
    val_main_v0 (F := Ideal) x (ix3 b n e) = att x b n e := by
  rw [val_main_v0_apply]
  exact congrArg x (funext fun a => Fin.ext (by match a with | ⟨0, _⟩ => rfl | ⟨1, _⟩ => rfl | ⟨2, _⟩ => rfl))

/-- The second half of a row. -/
theorem v1_at (x : SX.Idx → EReal) (b : Fin 8) (n : Fin 2048) (e : Fin 1024) :
    val_main_v1 (F := Ideal) x (ix3 b n e) = gate x b n e := by
  rw [val_main_v1_apply]
  exact congrArg x (funext fun a => Fin.ext (by match a with | ⟨0, _⟩ => rfl | ⟨1, _⟩ => rfl | ⟨2, _⟩ => rfl))

/-- The sum of squares of a row. -/
theorem v3_at (x : SX.Idx → EReal) (b : Fin 8) (n : Fin 2048) :
    val_main_v3 (F := Ideal) x (ix2 b n) = sumsq x b n := by
  rw [val_main_v3_apply, val_main_cst_apply, Ideal.ofBits_def, Ideal.ofBits_zero_f32, zero_add]
  unfold sumsq
  refine Finset.sum_congr rfl fun k _ => ?_
  have hi : idx_main_v3 (ix2 b n) k = ix3 b n k :=
    funext fun a => Fin.ext (by match a with | ⟨0, _⟩ => rfl | ⟨1, _⟩ => rfl | ⟨2, _⟩ => rfl)
  rw [hi, val_main_v2_apply, Ideal.mulf_def, v0_at]

/-- The square root of the sum of squares plus the constant. -/
theorem v7_at (x : SX.Idx → EReal) (b : Fin 8) (n : Fin 2048) (z : Fin 1) :
    val_main_v7 (F := Ideal) x (ix3 b n z) = Ideal.sqrt (sumsq x b n + eps) := by
  rw [val_main_v7_apply, Ideal.hostUnary_sqrt_def, val_main_v6_apply, Ideal.addf_def, val_main_v4_apply,
    val_main_v5_apply, val_main_cst_0_apply, Ideal.ofBits_def]
  have hi : idx_main_v4 (ix3 b n z) = ix2 b n :=
    funext fun a => Fin.ext (by match a with | ⟨0, _⟩ => rfl | ⟨1, _⟩ => rfl)
  rw [hi, v3_at]
  rfl

/-- The quotient of a row's entry by that square root. -/
theorem v9_at (x : SX.Idx → EReal) (b : Fin 8) (n : Fin 2048) (e : Fin 1024) :
    val_main_v9 (F := Ideal) x (ix3 b n e) = Ideal.div (att x b n e) (Ideal.sqrt (sumsq x b n + eps)) := by
  rw [val_main_v9_apply, Ideal.hostDivf_def, v0_at, val_main_v8_apply]
  have hi : idx_main_v8 (ix3 b n e) = ix3 b n (0 : Fin 1) :=
    funext fun a => Fin.ext (by match a with | ⟨0, _⟩ => rfl | ⟨1, _⟩ => rfl | ⟨2, _⟩ => rfl)
  rw [hi, v7_at]

/-- The cosine of two rows. -/
theorem v10_at (x : SX.Idx → EReal) (hx : ∀ i, ∃ r : ℝ, x i = (r : EReal)) (b : Fin 8) (n m : Fin 2048) :
    val_main_v10 (F := Ideal) x (ix3 b n m) = cosim x b n m := by
  rw [val_main_v10_apply]
  unfold cosim
  refine Finset.sum_congr rfl fun k _ => ?_
  have hl : lidx_main_v10 (ix3 b n m) k = ix3 b n k :=
    funext fun a => Fin.ext (by match a with | ⟨0, _⟩ => rfl | ⟨1, _⟩ => rfl | ⟨2, _⟩ => rfl)
  have hr : ridx_main_v10 (ix3 b n m) k = ix3 b m k :=
    funext fun a => Fin.ext (by match a with | ⟨0, _⟩ => rfl | ⟨1, _⟩ => rfl | ⟨2, _⟩ => rfl)
  rw [hl, hr, v9_at, v9_at, div_eq_unit x hx, div_eq_unit x hx]

/-! ## The lower-triangular weight: a signed comparison of two small row numbers -/

/-- A natural number below 2048, as a 32-bit word read signed, is itself. -/
theorem toInt_small (k : Nat) (hk : k < 2048) : (BitVec.ofNat 32 k).toInt = (k : Int) := by
  rw [BitVec.toInt_eq_toNat_cond, BitVec.toNat_ofNat]
  have h : k % 2 ^ 32 = k := Nat.mod_eq_of_lt (by omega)
  rw [h, if_pos (by omega)]

/-- "Row number plus zero is at least the column number", on signed 32-bit words, is the comparison of the numbers. -/
theorem sge_small (n m : Nat) (hn : n < 2048) (hm : m < 2048) :
    IntOp.cmpi .sge (IntOp.addi (BitVec.ofNat 32 n) 0#32) (BitVec.ofNat 32 m) = if m ≤ n then 1#1 else 0#1 := by
  unfold IntOp.cmpi IntOp.addi
  rw [BitVec.add_zero]
  show BitVec.ofBool ((BitVec.ofNat 32 m).sle (BitVec.ofNat 32 n)) = _
  unfold BitVec.sle
  rw [toInt_small n hn, toInt_small m hm]
  by_cases h : m ≤ n
  · rw [if_pos h]; simp [h]
  · rw [if_neg h]; simp [h]

/-- The masked weight matrix. -/
theorem v11_at (p : SM.Idx → EReal) (n m : Fin 2048) :
    val_main_v11 (F := Ideal) p (ix2 n m) = tril p n m := by
  rw [val_main_v11_apply, val_main_call0_v4_apply, val_main_call0_v2_apply, val_main_call0_v0_apply,
    val_main_call0_v1_apply, val_main_call0_c_apply, val_main_call0_v3_apply, val_main_call0_v5_apply,
    val_main_call0_cst_apply, Ideal.ofBits_def, Ideal.ofBits_zero_f32]
  show Scalar.select (IntOp.cmpi .sge (IntOp.addi (BitVec.ofNat 32 n.val) 0#32) (BitVec.ofNat 32 m.val))
    (p (ix2 n m)) 0 = _
  rw [sge_small n.val m.val n.isLt m.isLt]
  unfold tril
  by_cases h : m.val ≤ n.val
  · rw [if_pos h, if_pos h, select_one]
  · rw [if_neg h, if_neg h, select_zero]

/-- The masked weight matrix, repeated along the batch. -/
theorem v13_at (p : SM.Idx → EReal) (b : Fin 8) (n m : Fin 2048) :
    val_main_v13 (F := Ideal) p (ix3 b n m) = tril p n m := by
  rw [val_main_v13_apply, val_main_v12_apply]
  have hi : idx_main_v12 (idx_main_v13 (ix3 b n m)) = ix2 n m :=
    funext fun a => Fin.ext (by match a with | ⟨0, _⟩ => rfl | ⟨1, _⟩ => rfl)
  rw [hi, v11_at]

/-- Weight times cosine. -/
theorem v14_at (x : SX.Idx → EReal) (hx : ∀ i, ∃ r : ℝ, x i = (r : EReal)) (p : SM.Idx → EReal) (b : Fin 8)
    (n m : Fin 2048) :
    val_main_v14 (F := Ideal) x p (ix3 b n m) = tril p n m * cosim x b n m := by
  rw [val_main_v14_apply, Ideal.mulf_def, v13_at, v10_at x hx]

/-! ## The reference is the specified function -/

theorem reference_eq (x : Cert.CausalCos.SX.Idx → EReal) (p : Cert.CausalCos.SM.Idx → EReal)
    (hx : ∀ i, ∃ r : ℝ, x i = (r : EReal)) :
    Cert.ReferenceIdeal.Read.val_main_v16 (F := Ideal) x p = Cert.CausalCos.G x p := by
  funext i
  obtain ⟨b, n, d, rfl⟩ : ∃ (b : Fin 8) (n : Fin 2048) (d : Fin 1024), i = ix3 b n d :=
    ⟨i 0, i 1, i 2, eq_ix3 i⟩
  show _ = Gat x p b n d
  rw [val_main_v16_apply, Ideal.mulf_def, v1_at, val_main_v15_apply]
  unfold Gat
  refine congrArg (· * gate x b n d) (Finset.sum_congr rfl fun k _ => ?_)
  have hl : lidx_main_v15 (ix3 b n d) k = ix3 b n k :=
    funext fun a => Fin.ext (by match a with | ⟨0, _⟩ => rfl | ⟨1, _⟩ => rfl | ⟨2, _⟩ => rfl)
  have hr : ridx_main_v15 (ix3 b n d) k = ix3 b k d :=
    funext fun a => Fin.ext (by match a with | ⟨0, _⟩ => rfl | ⟨1, _⟩ => rfl | ⟨2, _⟩ => rfl)
  rw [hl, hr, v14_at x hx, v0_at]

end Cert.ReferenceIdeal.IsG

end
-- ==== Proof.FiniteInputs.lean ====
/-
  The precondition makes every entry of both arguments a real.

  The precondition is the conjunction of two statements "every entry's absolute value is below +∞", one per argument.
  An extended real whose absolute value is below +∞ is neither infinity, so it is a real.
-/
import proofs.«167190_j11424613007992_2_alg».proof.Defs
import proofs.«167190_j11424613007992_2_alg».proof.Proof.Gen.Pre_finite_inputs
import Idealize.ShloMosaic.Lib.ReduceAll

noncomputable section

namespace Cert.FiniteInputs

open Idealize.ShloMosaic

/-- The scalar shape has one index. -/
instance : Subsingleton Cert.Pre_finite_inputs.S_.Idx := ⟨fun a b => funext fun d => d.elim0⟩

/-- The binary32 pattern of +∞ denotes the top of the extended reals. -/
theorem ofBits_inf : Ideal.ofBits .f32 0x7F800000#32 = ⊤ := by
  simp [Ideal.ofBits, Ideal.ieee]

/-- An extended real whose absolute value compares below +∞ is a real. -/
theorem real_of_abs_lt (a : EReal)
    (h : Ideal.cmp .olt (max a (-a)) (Ideal.ofBits .f32 0x7F800000#32) = 1#1) : ∃ r : ℝ, a = (r : EReal) := by
  rw [ofBits_inf] at h
  have h' : max a (-a) < ⊤ := by
    by_contra hn
    simp [Ideal.cmp, hn] at h
  induction a using EReal.rec with
  | bot => simp at h'
  | coe r => exact ⟨r, rfl⟩
  | top => simp at h'

theorem finite_of_fn [Cert.Pre_finite_inputs.Facts] (x : FVec Ideal Cert.Pre_finite_inputs.S8x2048x2048 .f32)
    (p : FVec Ideal Cert.Pre_finite_inputs.S2048x2048 .f32)
    (h : Cert.Pre_finite_inputs.fn (F := Ideal) x p = (fun _ => 1#1)) :
    (∀ i, ∃ r : ℝ, x i = (r : EReal)) ∧ (∀ i, ∃ r : ℝ, p i = (r : EReal)) := by
  have h0 := congrFun h (fun a => a.elim0)
  dsimp only [Cert.Pre_finite_inputs.fn] at h0
  obtain ⟨hx, hp⟩ := IntOp.andi_eq_one.1 h0
  refine ⟨fun i => ?_, fun i => ?_⟩
  · exact real_of_abs_lt (x i) (Host.reduce_andi_all _ _ _ _ _ hx i)
  · exact real_of_abs_lt (p i) (Host.reduce_andi_all _ _ _ _ _ hp i)

end Cert.FiniteInputs

end
-- ==== Proof.lean ====
/-
  The kernel and its reference compute one function.

  Both take a batch `x` of 8 sequences of 2048 rows of 2048 channels and a 2048 × 2048 weight matrix `p`. A row's first
  1024 channels are its attention operand, its last 1024 its gate. The result at (batch, query row `n`, channel `d`)
  is the sum over the key rows `m ≤ n` of  p[n, m] · cos(n, m) · operand[m, d],  times gate[n, d], where cos is the
  inner product of the two rows' operands scaled to unit length (`Cert.CausalCos.G`, Proof/CausalCosSpec.lean).

  The reference forms that sum whole, with the matrix's upper triangle zeroed and the scaling written as a division
  by a square root. The kernel works a batch at a time: it scales the operand's rows once, by a reciprocal square
  root, and then for each block of 256 query rows adds up the key blocks at or before it — whole blocks below the
  diagonal with the matrix entries as they are, the diagonal block with the entries after the query row zeroed —
  never touching the blocks above the diagonal, and multiplies by the gate. On the extended reals the two agree:
  a zeroed weight annihilates its term whatever the cosine is, regrouping a finite sum changes nothing, and for finite
  inputs the sum of squares plus the positive constant is a positive real, of which the reciprocal square root IS
  one over the square root — the one place the precondition is used (Proof/ReferenceIsG.lean).

  The modules: the body of one batch run once at symbolic operands (Proof/BatchBodyIdeal.lean, and BatchBody.lean
  for the word-level program); the pipeline's proof data, body obligation and launch — the input batch array is read
  through two windows at half a share each — (Proof/PipelineDataIdeal.lean, Proof/PipelineRunIdeal.lean, and their
  word-level twins); the blocks the body is handed (Proof/InputBlocksIdeal.lean); the value of one batch, block by
  block (Proof/KeyBlockOps.lean, Proof/BatchValueIdeal.lean, over Proof/CausalCosBlocks.lean); the result array from
  its eight batches (Proof/OutputFromBatches.lean, Proof/KernelIsG.lean); the reference (Proof/ReferenceIsG.lean over
  the generated run and its read-at-an-index lemmas) and the precondition read entry by entry
  (Proof/FiniteInputs.lean).
-/
import proofs.«167190_j11424613007992_2_alg».proof.Defs
import proofs.«167190_j11424613007992_2_alg».proof.Proof.Gen.Kernel
import proofs.«167190_j11424613007992_2_alg».proof.Proof.Gen.KernelIdeal
import proofs.«167190_j11424613007992_2_alg».proof.Proof.Gen.ReferenceIdeal
import proofs.«167190_j11424613007992_2_alg».proof.Proof.Gen.Pre_finite_inputs
import proofs.«167190_j11424613007992_2_alg».proof.Proof.Gen.ReferenceIdeal.Run
import proofs.«167190_j11424613007992_2_alg».proof.Proof.Gen.ReferenceIdeal.Read
import proofs.«167190_j11424613007992_2_alg».proof.Proof.PipelineRun
import proofs.«167190_j11424613007992_2_alg».proof.Proof.PipelineRunIdeal
import proofs.«167190_j11424613007992_2_alg».proof.Proof.KernelIsG
import proofs.«167190_j11424613007992_2_alg».proof.Proof.ReferenceIsG
import proofs.«167190_j11424613007992_2_alg».proof.Proof.FiniteInputs
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Hand.frame (F := Bits) m ρ

/-- So does the kernel read on the extended reals. -/
theorem frame_ki : Cert.frame_KernelIdeal := fun m ρ _ => Cert.KernelIdeal.Hand.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- From memories that agree on the two arguments, both programs end with the result array at `G` of the arguments:
    the kernel by its run and the value of its eight batches, the reference by its generated run read index by index,
    the finiteness of the first argument's entries read off the precondition. -/
theorem algebraic : Cert.algebraic_KernelIdeal_ReferenceIdeal := by
  intro m ρ m' ρ' hpre hagree
  refine ⟨fun c => Cert.CausalCos.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.KernelIdeal.Hand.final_eq m c), (h c).2.1, (h c).2.2⟩)
      (Cert.KernelIdeal.Hand.run_out (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2]
    exact (Cert.ReferenceIdeal.Read.val_main_v16_eq _ _).trans
      (Cert.ReferenceIdeal.IsG.reference_eq _ _ (Cert.FiniteInputs.finite_of_fn _ _ (hpre c)).1)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
